-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S256x128 .f32) (main_arg13 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S256x128 .f32) (main_arg13 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x128 .f32) (main_arg7 : FVec F S128 .f32) (main_arg8 : FVec F S256x256 .f32) (main_arg9 : FVec F S256 .f32) (main_arg10 : FVec F S256x256 .f32) (main_arg11 : FVec F S256 .f32) (main_arg12 : FVec F S256x128 .f32) (main_arg13 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x400000 32) (main_arg2 : FVec F S256x256 .f32) (main_arg3 : FVec F S256 .f32) (main_arg4 : FVec F S256x256 .f32) (main_arg5 : FVec F S256 .f32) (main_arg6 : FVec F S256x128 .f32) (main_arg7 : FVec F S128 .f32) (main_arg8 : FVec F S256x256 .f32) (main_arg9 : FVec F S256 .f32) (main_arg10 : FVec F S256x256 .f32) (main_arg11 : FVec F S256 .f32) (main_arg12 : FVec F S256x128 .f32) (main_arg13 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S450000x256 : Shape := ⟨2, ![450000, 256]⟩
abbrev S256x512 : Shape := ⟨2, ![256, 512]⟩
abbrev S512 : Shape := ⟨1, ![512]⟩
abbrev S1x512 : Shape := ⟨2, ![1, 512]⟩
abbrev S50000x512 : Shape := ⟨2, ![50000, 512]⟩
abbrev S2000x256 : Shape := ⟨2, ![2000, 256]⟩
abbrev S2000x512 : Shape := ⟨2, ![2000, 512]⟩
abbrev S1x256 : Shape := ⟨2, ![1, 256]⟩
abbrev S1x128 : Shape := ⟨2, ![1, 128]⟩
abbrev S50000x128 : Shape := ⟨2, ![50000, 128]⟩
abbrev S2000x128 : Shape := ⟨2, ![2000, 128]⟩

abbrev nBuf : Space → Nat
  | .hbm => 156
  | .vmem => 30
  | .smem => 0
  | _ => 0

abbrev hbmTy0_0 (i : Nat) : BufTy := match i % 128 with
  | 0 => ⟨S50000x256, .f32⟩
  | 1 => ⟨S2x400000, .i32⟩
  | 2 => ⟨S256x256, .f32⟩
  | 3 => ⟨S256, .f32⟩
  | 4 => ⟨S256x256, .f32⟩
  | 5 => ⟨S256, .f32⟩
  | 6 => ⟨S256x128, .f32⟩
  | 7 => ⟨S128, .f32⟩
  | 8 => ⟨S256x256, .f32⟩
  | 9 => ⟨S256, .f32⟩
  | 10 => ⟨S256x256, .f32⟩
  | 11 => ⟨S256, .f32⟩
  | 12 => ⟨S256x128, .f32⟩
  | 13 => ⟨S128, .f32⟩
  | 14 => ⟨S1x400000, .i32⟩
  | 15 => ⟨S400000, .i32⟩
  | 16 => ⟨S1x400000, .i32⟩
  | 17 => ⟨S400000, .i32⟩
  | 18 => ⟨S50000, .i32⟩
  | 19 => ⟨S450000, .i32⟩
  | 20 => ⟨S450000, .i32⟩
  | 21 => ⟨S_, .f32⟩
  | 22 => ⟨S50000, .f32⟩
  | 23 => ⟨S_, .i32⟩
  | 24 => ⟨S450000, .i32⟩
  | 25 => ⟨S450000, .i1⟩
  | 26 => ⟨S_, .i32⟩
  | 27 => ⟨S450000, .i32⟩
  | 28 => ⟨S450000, .i32⟩
  | 29 => ⟨S450000, .i32⟩
  | 30 => ⟨S450000x1, .i32⟩
  | 31 => ⟨S_, .f32⟩
  | 32 => ⟨S450000, .f32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S50000x1, .f32⟩
  | 43 => ⟨S50000x256, .f32⟩
  | 44 => ⟨S50000x256, .f32⟩
  | 45 => ⟨S_, .i32⟩
  | 46 => ⟨S450000, .i32⟩
  | 47 => ⟨S450000, .i1⟩
  | 48 => ⟨S_, .i32⟩
  | 49 => ⟨S450000, .i32⟩
  | 50 => ⟨S450000, .i32⟩
  | 51 => ⟨S450000, .i32⟩
  | 52 => ⟨S450000x1, .i32⟩
  | 53 => ⟨S450000x256, .f32⟩
  | 54 => ⟨S_, .f32⟩
  | 55 => ⟨S50000x256, .f32⟩
  | 56 => ⟨S450000x1, .i32⟩
  | 57 => ⟨S50000x256, .f32⟩
  | 58 => ⟨S50000x1, .f32⟩
  | 59 => ⟨S50000x256, .f32⟩
  | 60 => ⟨S50000x256, .f32⟩
  | 61 => ⟨S256x512, .f32⟩
  | 62 => ⟨S256x512, .bf16⟩
  | 63 => ⟨S512, .f32⟩
  | 64 => ⟨S1x512, .f32⟩
  | 65 => ⟨S50000x512, .f32⟩
  | 66 => ⟨S50000x256, .f32⟩
  | 67 => ⟨S50000x256, .f32⟩
  | 68 => ⟨S50000x1, .f32⟩
  | 69 => ⟨S50000x256, .f32⟩
  | 70 => ⟨S50000x256, .f32⟩
  | 71 => ⟨S_, .i32⟩
  | 72 => ⟨S450000, .i32⟩
  | 73 => ⟨S450000, .i1⟩
  | 74 => ⟨S_, .i32⟩
  | 75 => ⟨S450000, .i32⟩
  | 76 => ⟨S450000, .i32⟩
  | 77 => ⟨S450000, .i32⟩
  | 78 => ⟨S450000x1, .i32⟩
  | 79 => ⟨S450000x256, .f32⟩
  | 80 => ⟨S_, .f32⟩
  | 81 => ⟨S50000x256, .f32⟩
  | 82 => ⟨S450000x1, .i32⟩
  | 83 => ⟨S50000x256, .f32⟩
  | 84 => ⟨S50000x1, .f32⟩
  | 85 => ⟨S50000x256, .f32⟩
  | 86 => ⟨S50000x256, .f32⟩
  | 87 => ⟨S256x256, .bf16⟩
  | 88 => ⟨S1x256, .f32⟩
  | 89 => ⟨S50000x256, .f32⟩
  | 90 => ⟨S50000x1, .f32⟩
  | 91 => ⟨S50000x256, .f32⟩
  | 92 => ⟨S50000x256, .f32⟩
  | 93 => ⟨S_, .i32⟩
  | 94 => ⟨S450000, .i32⟩
  | 95 => ⟨S450000, .i1⟩
  | 96 => ⟨S_, .i32⟩
  | 97 => ⟨S450000, .i32⟩
  | 98 => ⟨S450000, .i32⟩
  | 99 => ⟨S450000, .i32⟩
  | 100 => ⟨S450000x1, .i32⟩
  | 101 => ⟨S450000x256, .f32⟩
  | 102 => ⟨S_, .f32⟩
  | 103 => ⟨S50000x256, .f32⟩
  | 104 => ⟨S450000x1, .i32⟩
  | 105 => ⟨S50000x256, .f32⟩
  | 106 => ⟨S50000x1, .f32⟩
  | 107 => ⟨S50000x256, .f32⟩
  | 108 => ⟨S50000x256, .f32⟩
  | 109 => ⟨S256x256, .bf16⟩
  | 110 => ⟨S1x256, .f32⟩
  | 111 => ⟨S50000x256, .f32⟩
  | 112 => ⟨S50000x1, .f32⟩
  | 113 => ⟨S50000x256, .f32⟩
  | 114 => ⟨S50000x256, .f32⟩
  | 115 => ⟨S_, .i32⟩
  | 116 => ⟨S450000, .i32⟩
  | 117 => ⟨S450000, .i1⟩
  | 118 => ⟨S_, .i32⟩
  | 119 => ⟨S450000, .i32⟩
  | 120 => ⟨S450000, .i32⟩
  | 121 => ⟨S450000, .i32⟩
  | 122 => ⟨S450000x1, .i32⟩
  | 123 => ⟨S450000x256, .f32⟩
  | 124 => ⟨S_, .f32⟩
  | 125 => ⟨S50000x256, .f32⟩
  | 126 => ⟨S450000x1, .i32⟩
  | 127 => ⟨S50000x256, .f32⟩
  | _ => ⟨S50000x256, .f32⟩

abbrev hbmTy0_1 (i : Nat) : BufTy := match i % 128 with
  | 0 => ⟨S50000x1, .f32⟩
  | 1 => ⟨S50000x256, .f32⟩
  | 2 => ⟨S50000x256, .f32⟩
  | 3 => ⟨S256x128, .bf16⟩
  | 4 => ⟨S1x128, .f32⟩
  | 5 => ⟨S50000x128, .f32⟩
  | 6 => ⟨S50000x1, .f32⟩
  | 7 => ⟨S50000x256, .f32⟩
  | 8 => ⟨S50000x256, .f32⟩
  | 9 => ⟨S_, .i32⟩
  | 10 => ⟨S450000, .i32⟩
  | 11 => ⟨S450000, .i1⟩
  | 12 => ⟨S_, .i32⟩
  | 13 => ⟨S450000, .i32⟩
  | 14 => ⟨S450000, .i32⟩
  | 15 => ⟨S450000, .i32⟩
  | 16 => ⟨S450000x1, .i32⟩
  | 17 => ⟨S450000x256, .f32⟩
  | 18 => ⟨S_, .f32⟩
  | 19 => ⟨S50000x256, .f32⟩
  | 20 => ⟨S450000x1, .i32⟩
  | 21 => ⟨S50000x256, .f32⟩
  | 22 => ⟨S50000x1, .f32⟩
  | 23 => ⟨S50000x256, .f32⟩
  | 24 => ⟨S50000x256, .f32⟩
  | 25 => ⟨S256x128, .bf16⟩
  | 26 => ⟨S1x128, .f32⟩
  | 27 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .bf16⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .bf16⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x128, .bf16⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x256, .f32⟩
  | .local _ .vmem, ⟨25, _⟩ => ⟨S2000x256, .f32⟩
  | .local _ .vmem, ⟨26, _⟩ => ⟨S256x128, .bf16⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_10 : Ref sig .tc := ⟨.hbm, 93, rfl⟩
abbrev main_v65 : Ref sig .tc := ⟨.hbm, 94, rfl⟩
abbrev main_v66 : Ref sig .tc := ⟨.hbm, 95, rfl⟩
abbrev main_c_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_13 : Ref sig .tc := ⟨.hbm, 115, rfl⟩
abbrev main_v84 : Ref sig .tc := ⟨.hbm, 116, rfl⟩
abbrev main_v85 : Ref sig .tc := ⟨.hbm, 117, rfl⟩
abbrev main_c_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_16 : Ref sig .tc := ⟨.hbm, 137, rfl⟩
abbrev main_v103 : Ref sig .tc := ⟨.hbm, 138, rfl⟩
abbrev main_v104 : Ref sig .tc := ⟨.hbm, 139, rfl⟩
abbrev main_c_17 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_18 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  concatenates_S256x256_S256x256_S256x512_d1 : Shape.Concatenates [S256x256, S256x256] S256x512 1
  bitsLt_bf16_f32 : FTy.bits .bf16 < FTy.bits .f32
  concatenates_S256_S256_S512_d0 : Shape.Concatenates [S256, S256] S512 0
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x256_0_0 : S50000x512.Slices ![0, 0] S50000x256
  slices_S50000x512_S50000x256_0_256 : S50000x512.Slices ![0, 256] S50000x256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S450000x1_S450000_n_0_0_1_wf : ScatterDims.WF S50000 S450000x1 S450000 [] [0] [0] 1
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x512_S2000x512_1_0_0_1_n_n_wf : DotDims.WF S2000x256 S256x512 S2000x512 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .bf16 = 32 ∨ (Rect.block (s := S256x128) S256x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .bf16 = 32 ∨ (Rect.block (s := S256x128) S256x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v35) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v77) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v96) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v115) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v116) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v117) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v118) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩
abbrev S50000x128 : Shape := ⟨2, ![50000, 128]⟩
abbrev S450000x128 : Shape := ⟨2, ![450000, 128]⟩
abbrev S1x128 : Shape := ⟨2, ![1, 128]⟩

abbrev nBuf : Space → Nat
  | .hbm => 193
  | .vmem => 0
  | .smem => 0
  | _ => 0

abbrev hbmTy0_0 (i : Nat) : BufTy := match i % 128 with
  | 0 => ⟨S50000x256, .f32⟩
  | 1 => ⟨S2x400000, .i32⟩
  | 2 => ⟨S256x256, .f32⟩
  | 3 => ⟨S256, .f32⟩
  | 4 => ⟨S256x256, .f32⟩
  | 5 => ⟨S256, .f32⟩
  | 6 => ⟨S256x128, .f32⟩
  | 7 => ⟨S128, .f32⟩
  | 8 => ⟨S256x256, .f32⟩
  | 9 => ⟨S256, .f32⟩
  | 10 => ⟨S256x256, .f32⟩
  | 11 => ⟨S256, .f32⟩
  | 12 => ⟨S256x128, .f32⟩
  | 13 => ⟨S128, .f32⟩
  | 14 => ⟨S1x400000, .i32⟩
  | 15 => ⟨S400000, .i32⟩
  | 16 => ⟨S1x400000, .i32⟩
  | 17 => ⟨S400000, .i32⟩
  | 18 => ⟨S50000, .i32⟩
  | 19 => ⟨S450000, .i32⟩
  | 20 => ⟨S450000, .i32⟩
  | 21 => ⟨S_, .f32⟩
  | 22 => ⟨S50000, .f32⟩
  | 23 => ⟨S_, .i32⟩
  | 24 => ⟨S450000, .i32⟩
  | 25 => ⟨S450000, .i1⟩
  | 26 => ⟨S_, .i32⟩
  | 27 => ⟨S450000, .i32⟩
  | 28 => ⟨S450000, .i32⟩
  | 29 => ⟨S450000, .i32⟩
  | 30 => ⟨S450000x1, .i32⟩
  | 31 => ⟨S_, .f32⟩
  | 32 => ⟨S450000, .f32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S450000, .i32⟩
  | 44 => ⟨S450000, .i1⟩
  | 45 => ⟨S_, .i32⟩
  | 46 => ⟨S450000, .i32⟩
  | 47 => ⟨S450000, .i32⟩
  | 48 => ⟨S450000, .i32⟩
  | 49 => ⟨S450000x1, .i32⟩
  | 50 => ⟨S450000, .f32⟩
  | 51 => ⟨S_, .i32⟩
  | 52 => ⟨S450000, .i32⟩
  | 53 => ⟨S450000, .i1⟩
  | 54 => ⟨S_, .i32⟩
  | 55 => ⟨S450000, .i32⟩
  | 56 => ⟨S450000, .i32⟩
  | 57 => ⟨S450000, .i32⟩
  | 58 => ⟨S450000x1, .i32⟩
  | 59 => ⟨S450000, .f32⟩
  | 60 => ⟨S450000, .f32⟩
  | 61 => ⟨S50000x256, .f32⟩
  | 62 => ⟨S_, .i32⟩
  | 63 => ⟨S450000, .i32⟩
  | 64 => ⟨S450000, .i1⟩
  | 65 => ⟨S_, .i32⟩
  | 66 => ⟨S450000, .i32⟩
  | 67 => ⟨S450000, .i32⟩
  | 68 => ⟨S450000, .i32⟩
  | 69 => ⟨S450000x1, .i32⟩
  | 70 => ⟨S450000x256, .f32⟩
  | 71 => ⟨S450000x1, .f32⟩
  | 72 => ⟨S450000x256, .f32⟩
  | 73 => ⟨S450000x256, .f32⟩
  | 74 => ⟨S_, .f32⟩
  | 75 => ⟨S50000x256, .f32⟩
  | 76 => ⟨S450000x1, .i32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S50000x256, .f32⟩
  | 85 => ⟨S_, .i32⟩
  | 86 => ⟨S450000, .i32⟩
  | 87 => ⟨S450000, .i1⟩
  | 88 => ⟨S_, .i32⟩
  | 89 => ⟨S450000, .i32⟩
  | 90 => ⟨S450000, .i32⟩
  | 91 => ⟨S450000, .i32⟩
  | 92 => ⟨S450000x1, .i32⟩
  | 93 => ⟨S450000x256, .f32⟩
  | 94 => ⟨S450000x1, .f32⟩
  | 95 => ⟨S450000x256, .f32⟩
  | 96 => ⟨S450000x256, .f32⟩
  | 97 => ⟨S_, .f32⟩
  | 98 => ⟨S50000x256, .f32⟩
  | 99 => ⟨S450000x1, .i32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S50000x128, .f32⟩
  | 108 => ⟨S_, .i32⟩
  | 109 => ⟨S450000, .i32⟩
  | 110 => ⟨S450000, .i1⟩
  | 111 => ⟨S_, .i32⟩
  | 112 => ⟨S450000, .i32⟩
  | 113 => ⟨S450000, .i32⟩
  | 114 => ⟨S450000, .i32⟩
  | 115 => ⟨S450000x1, .i32⟩
  | 116 => ⟨S450000x128, .f32⟩
  | 117 => ⟨S450000x1, .f32⟩
  | 118 => ⟨S450000x128, .f32⟩
  | 119 => ⟨S450000x128, .f32⟩
  | 120 => ⟨S_, .f32⟩
  | 121 => ⟨S50000x128, .f32⟩
  | 122 => ⟨S450000x1, .i32⟩
  | 123 => ⟨S50000x128, .f32⟩
  | 124 => ⟨S1x128, .f32⟩
  | 125 => ⟨S50000x128, .f32⟩
  | 126 => ⟨S50000x128, .f32⟩
  | 127 => ⟨S50000x256, .f32⟩
  | _ => ⟨S50000x256, .f32⟩

abbrev hbmTy0_1 (i : Nat) : BufTy := match i % 128 with
  | 0 => ⟨S_, .i32⟩
  | 1 => ⟨S450000, .i32⟩
  | 2 => ⟨S450000, .i1⟩
  | 3 => ⟨S_, .i32⟩
  | 4 => ⟨S450000, .i32⟩
  | 5 => ⟨S450000, .i32⟩
  | 6 => ⟨S450000, .i32⟩
  | 7 => ⟨S450000x1, .i32⟩
  | 8 => ⟨S450000x256, .f32⟩
  | 9 => ⟨S450000x1, .f32⟩
  | 10 => ⟨S450000x256, .f32⟩
  | 11 => ⟨S450000x256, .f32⟩
  | 12 => ⟨S_, .f32⟩
  | 13 => ⟨S50000x256, .f32⟩
  | 14 => ⟨S450000x1, .i32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S50000x256, .f32⟩
  | 23 => ⟨S_, .i32⟩
  | 24 => ⟨S450000, .i32⟩
  | 25 => ⟨S450000, .i1⟩
  | 26 => ⟨S_, .i32⟩
  | 27 => ⟨S450000, .i32⟩
  | 28 => ⟨S450000, .i32⟩
  | 29 => ⟨S450000, .i32⟩
  | 30 => ⟨S450000x1, .i32⟩
  | 31 => ⟨S450000x256, .f32⟩
  | 32 => ⟨S450000x1, .f32⟩
  | 33 => ⟨S450000x256, .f32⟩
  | 34 => ⟨S450000x256, .f32⟩
  | 35 => ⟨S_, .f32⟩
  | 36 => ⟨S50000x256, .f32⟩
  | 37 => ⟨S450000x1, .i32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S50000x128, .f32⟩
  | 46 => ⟨S_, .i32⟩
  | 47 => ⟨S450000, .i32⟩
  | 48 => ⟨S450000, .i1⟩
  | 49 => ⟨S_, .i32⟩
  | 50 => ⟨S450000, .i32⟩
  | 51 => ⟨S450000, .i32⟩
  | 52 => ⟨S450000, .i32⟩
  | 53 => ⟨S450000x1, .i32⟩
  | 54 => ⟨S450000x128, .f32⟩
  | 55 => ⟨S450000x1, .f32⟩
  | 56 => ⟨S450000x128, .f32⟩
  | 57 => ⟨S450000x128, .f32⟩
  | 58 => ⟨S_, .f32⟩
  | 59 => ⟨S50000x128, .f32⟩
  | 60 => ⟨S450000x1, .i32⟩
  | 61 => ⟨S50000x128, .f32⟩
  | 62 => ⟨S1x128, .f32⟩
  | 63 => ⟨S50000x128, .f32⟩
  | 64 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call1_cst : Ref sig .tc := ⟨.hbm, 81, rfl⟩
abbrev main_call1_v0 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call2_cst : Ref sig .tc := ⟨.hbm, 104, rfl⟩
abbrev main_call2_v0 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_17 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call3_cst : Ref sig .tc := ⟨.hbm, 147, rfl⟩
abbrev main_call3_v0 : Ref sig .tc := ⟨.hbm, 148, rfl⟩
abbrev main_v105 : Ref sig .tc := ⟨.hbm, 149, rfl⟩
abbrev main_v106 : Ref sig .tc := ⟨.hbm, 150, rfl⟩
abbrev main_c_20 : Ref sig .tc := ⟨.hbm, 151, rfl⟩
abbrev main_v107 : Ref sig .tc := ⟨.hbm, 152, rfl⟩
abbrev main_v108 : Ref sig .tc := ⟨.hbm, 153, rfl⟩
abbrev main_c_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_call4_cst : Ref sig .tc := ⟨.hbm, 170, rfl⟩
abbrev main_call4_v0 : Ref sig .tc := ⟨.hbm, 171, rfl⟩
abbrev main_v123 : Ref sig .tc := ⟨.hbm, 172, rfl⟩
abbrev main_v124 : Ref sig .tc := ⟨.hbm, 173, rfl⟩
abbrev main_c_23 : Ref sig .tc := ⟨.hbm, 174, rfl⟩
abbrev main_v125 : Ref sig .tc := ⟨.hbm, 175, rfl⟩
abbrev main_v126 : Ref sig .tc := ⟨.hbm, 176, rfl⟩
abbrev main_c_24 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_25 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x256_S256x256_S50000x256_1_0_0_1_n_n_wf : DotDims.WF S50000x256 S256x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x128_S50000x128_1_0_0_1_n_n_wf : DotDims.WF S50000x256 S256x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf

class Facts : Prop extends Facts₀ where

variable [Facts]
-- ==== Proof.KRun.lean ====
/-
  The idealized kernel's run with its two results named.

  The program is twelve segments: seven stretches of host operations and five pipelined regions. The buffer contents at each
  boundary are a fold from the launch memory (`W0` … `W12` of the generated frame module). The generated frame theorem
  reads only the argument arrays off the last boundary; the same run also leaves every other unscoped buffer at the last
  boundary's contents, in particular the two result arrays, which is what is stated here.
-/
import proofs.«152770_j22333829939968_2_alg».proof.Proof.Gen.KernelIdeal.Frame

set_option maxRecDepth 16384

noncomputable section

namespace Cert.KernelIdeal.KVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Every weakly fair execution of the program terminates, nothing faulting, with the two result arrays at the last
    boundary's contents and the argument arrays as launched. -/
theorem run_values : θ_run defs (onTc (τ := τ) (main (F := F))) ⟨m, fun _ => 0, ρ⟩ (fun r => ∀ c : Dev nD,
      r.2.mem ((c.tc : Thread nD τ).loc main_v99) = W12 m ρ c (Proc.devRef .tc main_v99)
      ∧ r.2.mem ((c.tc : Thread nD τ).loc main_v118) = W12 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v99 (by decide)), h c _ (mem_uc main_v118 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.KVal

end
-- ==== Proof.LibRowGather.lean ====
/-
  A gather of whole rows of a matrix, read by coordinates, for any extents.

  An `[n, c]` matrix is gathered at `e` start indices laid out as a column `[e, 1]`: every start index names a row,
  the whole row (a `1 × c` slice) is taken, and the result is the `[e, c]` matrix of the taken rows. In gather's
  dimension numbers: the result's axis 1 is the offset axis, the operand's axis 0 is collapsed and is the one axis the
  start index addresses, there are no batching axes, the index vector lies along axis 1 of the start indices, and the
  slice sizes are `[1, c]`. For ANY extents `n`, `e`, `c` (with `n` positive) and any index width, entry `(p, q)` of
  the result is entry `(r, q)` of the operand, where `r` is start index `p` read as a signed integer and clamped into
  `[0, n − 1]` (`rowAt`, `gather_row_apply`). A program's printed gather record with these lists is `rowDims n e c _`
  by `rfl`.
-/
import Idealize.ShloMosaic.PureOps.ShapeOps
import Idealize.ShloMosaic.PureOps.Dims
import Idealize.ShloMosaic.Lib.ValueIdx

namespace Cert.RowGather

open Idealize.ShloMosaic Idealize.ShloMosaic.ValueIdx

variable {α : Type}

/-- The dimension numbers of a gather of whole rows: operand `[n, c]`, start indices `[e, 1]`, result `[e, c]`.
    Their side conditions `wf` are decided on a program's literal extents. -/
abbrev rowDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- The row that start index `p` names: the index read as a signed integer, clamped into `[0, n − 1]`. -/
def rowAt {n e w : Nat} (hn : 0 < n) (idx : IVec ⟨2, ![e, 1]⟩ w) (p : Fin e) : Fin n :=
  ⟨min (idx (ix2 p 0)).toInt.toNat (n - 1), by omega⟩

/-- THE ROW GATHER READ AT `(p, q)`: the operand's entry in column `q` of the row that start index `p` names. -/
theorem gather_row_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowDims n e c wf) x idx (ix2 p q) = x (ix2 (rowAt hn idx p) q) := by
  unfold Host.gather
  congr 1
  funext a
  refine Fin.ext ?_
  match a with
  | ⟨0, _⟩ =>
    show (rowDims n e c wf).start (ix2 p q) idx 0 + (rowDims n e c wf).batchCoord (ix2 p q) 0
      + (rowDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n e c wf).startIndexMap from List.mem_singleton.mpr rfl)]
    have hsi : (rowDims n e c wf).siIdx (ix2 p q) ⟨List.idxOf (0 : Fin 2) (rowDims n e c wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims n e c wf).start (ix2 p q) idx 1 + (rowDims n e c wf).batchCoord (ix2 p q) 1
      + (rowDims n e c wf).offCoord (ix2 p q) 1 = q.val
    have hk : (1 : Fin 2) ∈ (rowDims n e c wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start
    rw [dif_neg (show (1 : Fin 2) ∉ (rowDims n e c wf).startIndexMap from
      fun h => absurd (List.mem_singleton.mp h) (show ¬ (1 : Fin 2) = 0 by decide))]
    unfold GatherDims.offCoord
    rw [dif_pos hk]
    simp only [Nat.add_zero, Nat.zero_add]
    rfl

end Cert.RowGather
-- ==== Proof.LibRowScatter.lean ====
/-
  An accumulating scatter of whole rows, read at one entry.

  The operand is an n×c matrix, the updates an e×c matrix, and the scatter indices an e×1 column of integers: update
  row r is added into operand row t(r), where t(r) is entry (r, 0) of the indices read as a SIGNED integer and NOT
  clamped; a row whose target is outside [0, n) is dropped. On the extended reals the accumulated result at entry
  (s, q) is therefore the operand's entry plus the sum, over the update rows r whose target is s, of update entry
  (r, q) — written below as a sum over all r of an `if`. Stated for the dimension record `rowDims n e c`
  (update window axis [1], inserted window axis [0], scatter axis to operand axis [0], index vector axis 1), for any
  extents and any integer width; a printed record with those four lists is this record (they differ in a proof field).
-/
import Idealize.ShloMosaic.Lib.ValueIdx
import Idealize.ShloMosaic.PureOps.Ideal.Laws

noncomputable section

open scoped BigOperators

namespace Cert.LibRowScatter

open Idealize.ShloMosaic Idealize.ShloMosaic.ValueIdx

/-- Scatter the rows of an e×c matrix into an n×c matrix at e row numbers laid as a column e×1. -/
def rowDims (n e c : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

variable {n e c w : ℕ} (wf : ScatterDims.WF ⟨2, ![n, c]⟩ ⟨2, ![e, 1]⟩ ⟨2, ![e, c]⟩ [1] [0] [0] 1)

/-- On the row axis the window of update entry (r, q) starts at the r-th scatter index, read signed. -/
theorem start_zero (r : Fin e) (q : Fin c) (idx : IVec ⟨2, ![e, 1]⟩ w) :
    (rowDims n e c wf).start (ix2 r q) idx 0 = (idx (ix2 r 0)).toInt := by
  unfold ScatterDims.start
  rw [dif_pos (show (0 : Fin 2) ∈ (rowDims n e c wf).scatterDimsToOperandDims from List.mem_singleton.mpr rfl)]
  refine congrArg (fun k => (idx k).toInt) ?_
  funext b
  match b with
  | ⟨0, _⟩ => rfl
  | ⟨1, _⟩ => rfl

/-- On the column axis the window starts at 0: no scatter index names that axis. -/
theorem start_one (r : Fin e) (q : Fin c) (idx : IVec ⟨2, ![e, 1]⟩ w) :
    (rowDims n e c wf).start (ix2 r q) idx 1 = 0 := by
  unfold ScatterDims.start
  rw [dif_neg (show ¬ (1 : Fin 2) ∈ (rowDims n e c wf).scatterDimsToOperandDims from by
    intro h; exact absurd (congrArg Fin.val (List.mem_singleton.mp h)) (by decide : ¬ (1 : ℕ) = 0))]

/-- The row axis is an inserted axis: the window has no extent along it. -/
theorem window_zero (r : Fin e) (q : Fin c) : (rowDims n e c wf).window (ix2 r q) 0 = 0 := by
  unfold ScatterDims.window
  rw [dif_neg (show ¬ (0 : Fin 2) ∈ (rowDims n e c wf).sKept from by
    show ¬ (0 : Fin 2) ∈ (List.finRange 2).filter (fun a => a ∉ [(0 : Fin 2)])
    decide)]

/-- Along the column axis the window coordinate of update entry (r, q) is q. -/
theorem window_one (r : Fin e) (q : Fin c) : (rowDims n e c wf).window (ix2 r q) 1 = q.val := by
  unfold ScatterDims.window
  rw [dif_pos (show (1 : Fin 2) ∈ (rowDims n e c wf).sKept from by
    show (1 : Fin 2) ∈ (List.finRange 2).filter (fun a => a ∉ [(0 : Fin 2)])
    decide)]
  rfl

/-- Update entry (r, q') lands on operand entry (s, q) exactly when the r-th scatter index, read signed, is s and
    the columns agree. -/
theorem resultIdx?_eq_some_iff (r : Fin e) (q' : Fin c) (idx : IVec ⟨2, ![e, 1]⟩ w) (s : Fin n) (q : Fin c) :
    (rowDims n e c wf).resultIdx? (ix2 r q') idx = some (ix2 s q)
      ↔ (idx (ix2 r 0)).toInt = (s.val : ℤ) ∧ q' = q := by
  have hs0 := start_zero wf r q' idx
  have hs1 := start_one wf r q' idx
  have hw0 := window_zero wf r q'
  have hw1 := window_one wf r q'
  have hsn : s.val < n := s.isLt
  have hqc : q'.val < c := q'.isLt
  unfold ScatterDims.resultIdx?
  constructor
  · intro h
    split at h
    · have h' := Option.some.inj h
      have h0 : ((rowDims n e c wf).start (ix2 r q') idx 0 + ((rowDims n e c wf).window (ix2 r q') 0 : ℕ)).toNat = s.val :=
        congrArg (fun f : (⟨2, ![n, c]⟩ : Shape).Idx => (f 0).val) h'
      have h1 : ((rowDims n e c wf).start (ix2 r q') idx 1 + ((rowDims n e c wf).window (ix2 r q') 1 : ℕ)).toNat = q.val :=
        congrArg (fun f : (⟨2, ![n, c]⟩ : Shape).Idx => (f 1).val) h'
      rename_i hb
      have hb0 := hb 0
      rw [hs0, hw0] at h0 hb0
      rw [hs1, hw1] at h1
      refine ⟨by omega, Fin.ext (by omega)⟩
    · exact absurd h (by simp)
  · rintro ⟨ht, rfl⟩
    have hall : ∀ a, 0 ≤ (rowDims n e c wf).start (ix2 r q') idx a + ((rowDims n e c wf).window (ix2 r q') a : ℕ)
        ∧ (rowDims n e c wf).start (ix2 r q') idx a + ((rowDims n e c wf).window (ix2 r q') a : ℕ) < (⟨2, ![n, c]⟩ : Shape).size a := by
      intro a
      match a with
      | ⟨0, _⟩ =>
        show 0 ≤ (rowDims n e c wf).start (ix2 r q') idx 0 + ((rowDims n e c wf).window (ix2 r q') 0 : ℕ)
          ∧ (rowDims n e c wf).start (ix2 r q') idx 0 + ((rowDims n e c wf).window (ix2 r q') 0 : ℕ) < (n : ℤ)
        rw [hs0, hw0, ht]; omega
      | ⟨1, _⟩ =>
        show 0 ≤ (rowDims n e c wf).start (ix2 r q') idx 1 + ((rowDims n e c wf).window (ix2 r q') 1 : ℕ)
          ∧ (rowDims n e c wf).start (ix2 r q') idx 1 + ((rowDims n e c wf).window (ix2 r q') 1 : ℕ) < (c : ℤ)
        rw [hs1, hw1]; omega
    rw [dif_pos hall]
    refine congrArg some (funext fun a => Fin.ext ?_)
    match a with
    | ⟨0, _⟩ =>
      show ((rowDims n e c wf).start (ix2 r q') idx 0 + ((rowDims n e c wf).window (ix2 r q') 0 : ℕ)).toNat = s.val
      rw [hs0, hw0, ht]; omega
    | ⟨1, _⟩ =>
      show ((rowDims n e c wf).start (ix2 r q') idx 1 + ((rowDims n e c wf).window (ix2 r q') 1 : ℕ)).toNat = q'.val
      rw [hs1, hw1]; omega

/-- The accumulating row scatter at entry (s, q), on the extended reals: the operand's entry plus the sum over the
    update rows whose signed target is s of their entry in column q. -/
theorem scatterAdd_apply {φ : FTy} (x : FVec Ideal ⟨2, ![n, c]⟩ φ) (idx : IVec ⟨2, ![e, 1]⟩ w)
    (upd : FVec Ideal ⟨2, ![e, c]⟩ φ) (s : Fin n) (q : Fin c) :
    Host.scatterAdd (F := Ideal) (rowDims n e c wf) x idx upd (ix2 s q)
      = x (ix2 s q) + ∑ r : Fin e, if (idx (ix2 r 0)).toInt = (s.val : ℤ) then upd (ix2 r q) else 0 := by
  show x (ix2 s q) + ∑ j ∈ Finset.univ.filter (fun j => (rowDims n e c wf).resultIdx? j idx = some (ix2 s q)), upd j = _
  congr 1
  rw [Finset.sum_filter, sum_idx2]
  refine Finset.sum_congr rfl fun r _ => ?_
  simp only [resultIdx?_eq_some_iff]
  by_cases hc : (idx (ix2 r 0)).toInt = (s.val : ℤ)
  · simp only [hc, true_and]
    rw [Finset.sum_ite_eq' Finset.univ q (fun b => upd (ix2 r b))]
    simp
  · simp [hc]

end Cert.LibRowScatter

end
-- ==== Proof.Spec.lean ====
/-
  A three-layer graph convolution on the extended reals, stated twice.

  A graph on `N` nodes is given by `E` directed edges: edge `e` reads node `src e` and adds into the node whose number is
  the integer `tgt e` (an edge whose target is not a node number adds nowhere). Every node carries a weight `d`.
  One layer maps node features `h` (an `N × K` table) to an `N × C` table through a `K × C` matrix `W` and a bias `b`.

  * `kLayer` AGGREGATES FIRST: the features are scaled by the source node's weight, summed over the edges into each
    target node, scaled by the target node's weight (`aggregate`), and only then multiplied by `W`.
  * `rLayer` TRANSFORMS FIRST: the features are multiplied by `W`, each edge's row is scaled by the product of the
    weights of its source node and of the node `dst e`, and the rows are summed into their target nodes.

  `kNet` and `rNet` are three such layers with `relu` between them. When `dst e` is the target node of every edge
  that has one, and all the numbers are real, the two agree (the proof is in LayerAlgebra.lean): a finite sum of
  real products may be re-associated and the target's weight taken out of the sum.
-/
import Idealize.ShloMosaic.PureOps.Ideal

noncomputable section

open scoped BigOperators

namespace Cert.GcnSpec

variable {N E : ℕ}

/-- `max x 0`. -/
def relu (x : EReal) : EReal := max x 0

/-- Node `j`'s aggregated feature `k`: the sum over the edges into `j` of the source's feature times the source's
    weight, times `j`'s weight. -/
def aggregate (d : Fin N → EReal) (src : Fin E → Fin N) (tgt : Fin E → ℤ) {K : ℕ} (h : Fin N → Fin K → EReal)
    (j : Fin N) (k : Fin K) : EReal :=
  (∑ e : Fin E, if tgt e = (j.val : ℤ) then h (src e) k * d (src e) else 0) * d j

/-- Aggregate, then transform: `(aggregate h) · W + b`. -/
def kLayer (d : Fin N → EReal) (src : Fin E → Fin N) (tgt : Fin E → ℤ) {K C : ℕ} (h : Fin N → Fin K → EReal)
    (W : Fin K → Fin C → EReal) (b : Fin C → EReal) (j : Fin N) (c : Fin C) : EReal :=
  (∑ k : Fin K, aggregate d src tgt h j k * W k c) + b c

/-- Transform, then sum the edges' rows, each scaled by the two end weights, into their targets; add `b`. -/
def rLayer (d : Fin N → EReal) (src dst : Fin E → Fin N) (tgt : Fin E → ℤ) {K C : ℕ} (h : Fin N → Fin K → EReal)
    (W : Fin K → Fin C → EReal) (b : Fin C → EReal) (j : Fin N) (c : Fin C) : EReal :=
  (∑ e : Fin E, if tgt e = (j.val : ℤ) then (∑ k : Fin K, h (src e) k * W k c) * (d (src e) * d (dst e)) else 0) + b c

/-- Three aggregate-first layers, `relu` after the first two. -/
def kNet (d : Fin N → EReal) (src : Fin E → Fin N) (tgt : Fin E → ℤ) {K0 K1 K2 K3 : ℕ}
    (x : Fin N → Fin K0 → EReal) (W0 : Fin K0 → Fin K1 → EReal) (b0 : Fin K1 → EReal)
    (W1 : Fin K1 → Fin K2 → EReal) (b1 : Fin K2 → EReal) (W2 : Fin K2 → Fin K3 → EReal) (b2 : Fin K3 → EReal) :
    Fin N → Fin K3 → EReal :=
  kLayer d src tgt (fun j k => relu (kLayer d src tgt (fun j k => relu (kLayer d src tgt x W0 b0 j k)) W1 b1 j k)) W2 b2

/-- Three transform-first layers, `relu` after the first two. -/
def rNet (d : Fin N → EReal) (src dst : Fin E → Fin N) (tgt : Fin E → ℤ) {K0 K1 K2 K3 : ℕ}
    (x : Fin N → Fin K0 → EReal) (W0 : Fin K0 → Fin K1 → EReal) (b0 : Fin K1 → EReal)
    (W1 : Fin K1 → Fin K2 → EReal) (b1 : Fin K2 → EReal) (W2 : Fin K2 → Fin K3 → EReal) (b2 : Fin K3 → EReal) :
    Fin N → Fin K3 → EReal :=
  rLayer d src dst tgt
    (fun j k => relu (rLayer d src dst tgt (fun j k => relu (rLayer d src dst tgt x W0 b0 j k)) W1 b1 j k)) W2 b2

/-- A number of the extended reals that is a real number. -/
def IsReal (x : EReal) : Prop := ∃ r : ℝ, x = (r : EReal)

end Cert.GcnSpec

end
-- ==== Proof.KAgg.lean ====
/-
  The graph aggregation as the host computes it, read at an entry.

  The features `h` (an `N × K` table) are multiplied row by row by the node weights `dv`; the rows named by the `E` start
  indices `idxR` are gathered (an index is read signed and clamped into the table); the gathered rows are added into
  the rows of a zero table named by the scatter indices `idxC` (read signed; an index outside the table is dropped);
  and the result is multiplied row by row by the weights again. Entry `(j, k)` of the result is therefore
  `(∑ e, if target e = j then h (source e, k) · dv (source e) else 0) · dv j`: the function `aggregate` of Spec.lean.
-/
import Idealize.ShloMosaic.PureOps.Ideal
import Idealize.ShloMosaic.PureOps.Ideal.Laws
import Idealize.ShloMosaic.Lib.ValueIdx
import Idealize.ShloMosaic.Lib.Pipeline.Value
import proofs.«152770_j22333829939968_2_alg».proof.Proof.LibRowGather
import proofs.«152770_j22333829939968_2_alg».proof.Proof.LibRowScatter
import proofs.«152770_j22333829939968_2_alg».proof.Proof.Spec

noncomputable section

open scoped BigOperators

namespace Cert.KAgg

open Idealize.ShloMosaic Idealize.ShloMosaic.ValueIdx Cert.GcnSpec

variable {N E K : ℕ}

/-- A vector of node weights laid as a column and repeated along the rows reads, at `(j, k)`, weight `j`. -/
theorem column_apply (dv : (⟨1, ![N]⟩ : Shape).Idx → EReal)
    (hb1 : (⟨1, ![N]⟩ : Shape).BroadcastsInDim ⟨2, ![N, 1]⟩ (![0] : Fin 1 → Fin 2))
    (hb2 : (⟨2, ![N, 1]⟩ : Shape).BroadcastsInDim ⟨2, ![N, K]⟩ (![0, 1] : Fin 2 → Fin 2)) (j : Fin N) (k : Fin K) :
    broadcastInDim ⟨2, ![N, K]⟩ ![0, 1] hb2 (broadcastInDim ⟨2, ![N, 1]⟩ ![0] hb1 dv) (ix2 j k) = dv (ix1 j) := by
  rw [broadcastInDim_apply ![0, 1] hb2 _ (ix2 j k) (ix2 j (0 : Fin 1)) (fun a => by
    match a with
    | ⟨0, _⟩ =>
      show j.val = if N = 1 then 0 else j.val
      split
      · have := j.isLt; omega
      · rfl
    | ⟨1, _⟩ => show (0 : ℕ) = if (1 : ℕ) = 1 then 0 else k.val; rw [if_pos rfl])]
  exact broadcastInDim_apply ![0] hb1 dv (ix2 j (0 : Fin 1)) (ix1 j) (fun a => by
    match a with
    | ⟨0, _⟩ =>
      show j.val = if N = 1 then 0 else j.val
      split
      · have := j.isLt; omega
      · rfl)

/-- The aggregation as printed: scale, gather, sum into the targets, scale. -/
def aggT (G : GatherDims ⟨2, ![N, K]⟩ ⟨2, ![E, 1]⟩ ⟨2, ![E, K]⟩) (S : ScatterDims ⟨2, ![N, K]⟩ ⟨2, ![E, 1]⟩ ⟨2, ![E, K]⟩)
    (hb0 : (⟨0, ![]⟩ : Shape).BroadcastsInDim ⟨2, ![N, K]⟩ (![] : Fin 0 → Fin 2))
    (hb1 : (⟨1, ![N]⟩ : Shape).BroadcastsInDim ⟨2, ![N, 1]⟩ (![0] : Fin 1 → Fin 2))
    (hb2 : (⟨2, ![N, 1]⟩ : Shape).BroadcastsInDim ⟨2, ![N, K]⟩ (![0, 1] : Fin 2 → Fin 2))
    (h : FVec Ideal ⟨2, ![N, K]⟩ .f32) (dv : FVec Ideal ⟨1, ![N]⟩ .f32) (idxR idxC : IVec ⟨2, ![E, 1]⟩ 32) :
    FVec Ideal ⟨2, ![N, K]⟩ .f32 :=
  mulf (Host.scatterAdd S (broadcastInDim ⟨2, ![N, K]⟩ ![] hb0 (constant (F := Ideal) ⟨0, ![]⟩ .f32 0x00000000#32)) idxC
      (Host.gather G (mulf h (broadcastInDim ⟨2, ![N, K]⟩ ![0, 1] hb2 (broadcastInDim ⟨2, ![N, 1]⟩ ![0] hb1 dv))) idxR))
    (broadcastInDim ⟨2, ![N, K]⟩ ![0, 1] hb2 (broadcastInDim ⟨2, ![N, 1]⟩ ![0] hb1 dv))

/-- The printed aggregation at `(j, k)` is `aggregate` of the weights, the gathered rows' numbers and the targets. -/
theorem aggT_apply (hn : 0 < N) (G : GatherDims ⟨2, ![N, K]⟩ ⟨2, ![E, 1]⟩ ⟨2, ![E, K]⟩)
    (S : ScatterDims ⟨2, ![N, K]⟩ ⟨2, ![E, 1]⟩ ⟨2, ![E, K]⟩)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (hG : G = Cert.RowGather.rowDims N E K wfG) (hS : S = Cert.LibRowScatter.rowDims N E K wfS)
    (hb0 : (⟨0, ![]⟩ : Shape).BroadcastsInDim ⟨2, ![N, K]⟩ (![] : Fin 0 → Fin 2))
    (hb1 : (⟨1, ![N]⟩ : Shape).BroadcastsInDim ⟨2, ![N, 1]⟩ (![0] : Fin 1 → Fin 2))
    (hb2 : (⟨2, ![N, 1]⟩ : Shape).BroadcastsInDim ⟨2, ![N, K]⟩ (![0, 1] : Fin 2 → Fin 2))
    (h : FVec Ideal ⟨2, ![N, K]⟩ .f32) (dv : FVec Ideal ⟨1, ![N]⟩ .f32) (idxR idxC : IVec ⟨2, ![E, 1]⟩ 32)
    (j : Fin N) (k : Fin K) :
    aggT G S hb0 hb1 hb2 h dv idxR idxC (ix2 j k)
      = aggregate (fun j => dv (ix1 j)) (fun e => Cert.RowGather.rowAt hn idxR e) (fun e => (idxC (ix2 e 0)).toInt)
          (fun j k => h (ix2 j k)) j k := by
  unfold aggT aggregate
  have hz : broadcastInDim ⟨2, ![N, K]⟩ ![] hb0 (constant (F := Ideal) ⟨0, ![]⟩ .f32 0x00000000#32) (ix2 j k) = 0 :=
    (broadcastInDim_apply _ hb0 _ (ix2 j k) (fun a => a.elim0) (fun a => a.elim0)).trans Ideal.ofBits_zero_f32
  rw [mulf_apply, column_apply dv hb1 hb2 j k, hS, Cert.LibRowScatter.scatterAdd_apply, hz, zero_add]
  refine congrArg (· * dv (ix1 j)) (Finset.sum_congr rfl fun e _ => ?_)
  refine if_congr Iff.rfl ?_ rfl
  rw [hG, Cert.RowGather.gather_row_apply hn, mulf_apply, column_apply dv hb1 hb2]

end Cert.KAgg

end
-- ==== Proof.KStretch.lean ====
/-
  The host operations between the kernel's regions, read as functions of what the previous boundary holds.

  Before each region the host scales the previous layer's output by the node weights, gathers the edges' source rows,
  sums them into the target rows and scales again (`agg`: Proof/KAgg.lean's `aggT` at this program's shapes), rounds the
  layer's weight matrix to the matrix unit's format (the identity on the extended reals) and lays the bias as a row.
  Every statement below is about ONE stretch of host operations run from an arbitrary valuation `Win` of the buffers:
  what the stretch leaves in the three arrays the next region reads, and that it leaves alone the buffers later stretches
  still need (the two index vectors, the weights `d`, earlier outputs and the arguments).
-/
import proofs.«152770_j22333829939968_2_alg».proof.Proof.Gen.KernelIdeal.Launch
import proofs.«152770_j22333829939968_2_alg».proof.Proof.KAgg
import Idealize.ShloMosaic.Lib.StableHlo.Run
import Idealize.ShloMosaic.PureOps.Ideal

noncomputable section

namespace Cert.KernelIdeal.KVal

open Cert.KernelIdeal Cert.KernelIdeal.Gen Idealize.ShloMosaic Idealize.ShloMosaic.TcCoe Idealize.SL.Sem
open Idealize.ShloMosaic.StableHlo

/-- A valuation of the TensorCore's buffers at the exact instance. -/
abbrev Val := Valuation τ sig (Elt Ideal)

/-- Gather start indices from a vector of node numbers: a negative number counts from the end; laid as a column. -/
def rowIdx (v : IVec S450000 32) : IVec S450000x1 32 :=
  broadcastInDim S450000x1 ![0] bcast_S450000_S450000x1_0
    (select (cmpi .slt v (broadcastInDim S450000 ![] bcast_S_S450000 (constantI S_ 32 0#32)))
      (addi v (broadcastInDim S450000 ![] bcast_S_S450000 (constantI S_ 32 50000#32))) v)

/-- Scatter indices from a vector of node numbers: the numbers as they are, laid as a column. -/
def colIdx (v : IVec S450000 32) : IVec S450000x1 32 :=
  broadcastInDim S450000x1 ![0] bcast_S450000_S450000x1_0 v

/-- The aggregation at this program's shapes. -/
def agg (h : FVec Ideal S50000x256 .f32) (dv : FVec Ideal S50000 .f32) (v5 v6 : IVec S450000 32) :
    FVec Ideal S50000x256 .f32 :=
  Cert.KAgg.aggT gather_S50000x256_S450000x1_S450000x256_1_0_n_n_0_1_1256 scatter_S50000x256_S450000x1_S450000x256_1_0_0_1
    bcast_S_S50000x256 bcast_S50000_S50000x1_0 bcast_S50000x1_S50000x256_0_1 h dv (rowIdx v5) (colIdx v6)

variable (Win : Val)

/-! ## The stretch before region 1 -/

theorem s1_v58 : @Eq (FVec Ideal S50000x256 .f32) (StableHlo.after (hostOps1 (F := Ideal)) Win (Proc.devRef .tc main_v58))
    (agg (extractStridedSlice S50000x256 ![0, 0] (Win (Proc.devRef .tc main_v40)) slices_S50000x512_S50000x256_0_0)
      (Win (Proc.devRef .tc main_v19)) (Win (Proc.devRef .tc main_v5)) (Win (Proc.devRef .tc main_v6))) := by
  after_results_simp; rfl
theorem s1_v59 : @Eq (FVec Ideal S256x256 .bf16) (StableHlo.after (hostOps1 (F := Ideal)) Win (Proc.devRef .tc main_v59))
    (truncf .bf16 (Win (Proc.devRef .tc main_arg4)) bitsLt_bf16_f32) := by
  after_results_simp
theorem s1_v60 : @Eq (FVec Ideal S1x256 .f32) (StableHlo.after (hostOps1 (F := Ideal)) Win (Proc.devRef .tc main_v60))
    (shapeCast S1x256 (Win (Proc.devRef .tc main_arg5)) shapeCasts_S256_S1x256) := by
  after_results_simp; rfl
theorem s1_v42 : @Eq (FVec Ideal S50000x256 .f32) (StableHlo.after (hostOps1 (F := Ideal)) Win (Proc.devRef .tc main_v42))
    (extractStridedSlice S50000x256 ![0, 256] (Win (Proc.devRef .tc main_v40)) slices_S50000x512_S50000x256_0_256) := by
  after_results_simp
theorem s1_v5 : StableHlo.after (hostOps1 (F := Ideal)) Win (Proc.devRef .tc main_v5) = Win (Proc.devRef .tc main_v5) := by after_results_simp
theorem s1_v6 : StableHlo.after (hostOps1 (F := Ideal)) Win (Proc.devRef .tc main_v6) = Win (Proc.devRef .tc main_v6) := by after_results_simp
theorem s1_v19 : StableHlo.after (hostOps1 (F := Ideal)) Win (Proc.devRef .tc main_v19) = Win (Proc.devRef .tc main_v19) := by after_results_simp
theorem s1_a6 : StableHlo.after (hostOps1 (F := Ideal)) Win (Proc.devRef .tc main_arg6) = Win (Proc.devRef .tc main_arg6) := by after_results_simp
theorem s1_a7 : StableHlo.after (hostOps1 (F := Ideal)) Win (Proc.devRef .tc main_arg7) = Win (Proc.devRef .tc main_arg7) := by after_results_simp
theorem s1_a10 : StableHlo.after (hostOps1 (F := Ideal)) Win (Proc.devRef .tc main_arg10) = Win (Proc.devRef .tc main_arg10) := by after_results_simp
theorem s1_a11 : StableHlo.after (hostOps1 (F := Ideal)) Win (Proc.devRef .tc main_arg11) = Win (Proc.devRef .tc main_arg11) := by after_results_simp
theorem s1_a12 : StableHlo.after (hostOps1 (F := Ideal)) Win (Proc.devRef .tc main_arg12) = Win (Proc.devRef .tc main_arg12) := by after_results_simp
theorem s1_a13 : StableHlo.after (hostOps1 (F := Ideal)) Win (Proc.devRef .tc main_arg13) = Win (Proc.devRef .tc main_arg13) := by after_results_simp

/-! ## The stretch before region 2 -/

theorem s2_v77 : @Eq (FVec Ideal S50000x256 .f32) (StableHlo.after (hostOps2 (F := Ideal)) Win (Proc.devRef .tc main_v77))
    (agg (Win (Proc.devRef .tc main_v42)) (Win (Proc.devRef .tc main_v19)) (Win (Proc.devRef .tc main_v5))
      (Win (Proc.devRef .tc main_v6))) := by
  after_results_simp; rfl
theorem s2_v78 : @Eq (FVec Ideal S256x256 .bf16) (StableHlo.after (hostOps2 (F := Ideal)) Win (Proc.devRef .tc main_v78))
    (truncf .bf16 (Win (Proc.devRef .tc main_arg10)) bitsLt_bf16_f32) := by
  after_results_simp
theorem s2_v79 : @Eq (FVec Ideal S1x256 .f32) (StableHlo.after (hostOps2 (F := Ideal)) Win (Proc.devRef .tc main_v79))
    (shapeCast S1x256 (Win (Proc.devRef .tc main_arg11)) shapeCasts_S256_S1x256) := by
  after_results_simp; rfl
theorem s2_v5 : StableHlo.after (hostOps2 (F := Ideal)) Win (Proc.devRef .tc main_v5) = Win (Proc.devRef .tc main_v5) := by after_results_simp
theorem s2_v6 : StableHlo.after (hostOps2 (F := Ideal)) Win (Proc.devRef .tc main_v6) = Win (Proc.devRef .tc main_v6) := by after_results_simp
theorem s2_v19 : StableHlo.after (hostOps2 (F := Ideal)) Win (Proc.devRef .tc main_v19) = Win (Proc.devRef .tc main_v19) := by after_results_simp
theorem s2_v61 : StableHlo.after (hostOps2 (F := Ideal)) Win (Proc.devRef .tc main_v61) = Win (Proc.devRef .tc main_v61) := by after_results_simp
theorem s2_a6 : StableHlo.after (hostOps2 (F := Ideal)) Win (Proc.devRef .tc main_arg6) = Win (Proc.devRef .tc main_arg6) := by after_results_simp
theorem s2_a7 : StableHlo.after (hostOps2 (F := Ideal)) Win (Proc.devRef .tc main_arg7) = Win (Proc.devRef .tc main_arg7) := by after_results_simp
theorem s2_a12 : StableHlo.after (hostOps2 (F := Ideal)) Win (Proc.devRef .tc main_arg12) = Win (Proc.devRef .tc main_arg12) := by after_results_simp
theorem s2_a13 : StableHlo.after (hostOps2 (F := Ideal)) Win (Proc.devRef .tc main_arg13) = Win (Proc.devRef .tc main_arg13) := by after_results_simp

/-! ## The stretch before region 3 -/

theorem s3_v96 : @Eq (FVec Ideal S50000x256 .f32) (StableHlo.after (hostOps3 (F := Ideal)) Win (Proc.devRef .tc main_v96))
    (agg (Win (Proc.devRef .tc main_v61)) (Win (Proc.devRef .tc main_v19)) (Win (Proc.devRef .tc main_v5))
      (Win (Proc.devRef .tc main_v6))) := by
  after_results_simp; rfl
theorem s3_v97 : @Eq (FVec Ideal S256x128 .bf16) (StableHlo.after (hostOps3 (F := Ideal)) Win (Proc.devRef .tc main_v97))
    (truncf .bf16 (Win (Proc.devRef .tc main_arg6)) bitsLt_bf16_f32) := by
  after_results_simp
theorem s3_v98 : @Eq (FVec Ideal S1x128 .f32) (StableHlo.after (hostOps3 (F := Ideal)) Win (Proc.devRef .tc main_v98))
    (shapeCast S1x128 (Win (Proc.devRef .tc main_arg7)) shapeCasts_S128_S1x128) := by
  after_results_simp; rfl
theorem s3_v5 : StableHlo.after (hostOps3 (F := Ideal)) Win (Proc.devRef .tc main_v5) = Win (Proc.devRef .tc main_v5) := by after_results_simp
theorem s3_v6 : StableHlo.after (hostOps3 (F := Ideal)) Win (Proc.devRef .tc main_v6) = Win (Proc.devRef .tc main_v6) := by after_results_simp
theorem s3_v19 : StableHlo.after (hostOps3 (F := Ideal)) Win (Proc.devRef .tc main_v19) = Win (Proc.devRef .tc main_v19) := by after_results_simp
theorem s3_v80 : StableHlo.after (hostOps3 (F := Ideal)) Win (Proc.devRef .tc main_v80) = Win (Proc.devRef .tc main_v80) := by after_results_simp
theorem s3_a12 : StableHlo.after (hostOps3 (F := Ideal)) Win (Proc.devRef .tc main_arg12) = Win (Proc.devRef .tc main_arg12) := by after_results_simp
theorem s3_a13 : StableHlo.after (hostOps3 (F := Ideal)) Win (Proc.devRef .tc main_arg13) = Win (Proc.devRef .tc main_arg13) := by after_results_simp

/-! ## The stretch before region 4 -/

theorem s4_v115 : @Eq (FVec Ideal S50000x256 .f32) (StableHlo.after (hostOps4 (F := Ideal)) Win (Proc.devRef .tc main_v115))
    (agg (Win (Proc.devRef .tc main_v80)) (Win (Proc.devRef .tc main_v19)) (Win (Proc.devRef .tc main_v5))
      (Win (Proc.devRef .tc main_v6))) := by
  after_results_simp; rfl
theorem s4_v116 : @Eq (FVec Ideal S256x128 .bf16) (StableHlo.after (hostOps4 (F := Ideal)) Win (Proc.devRef .tc main_v116))
    (truncf .bf16 (Win (Proc.devRef .tc main_arg12)) bitsLt_bf16_f32) := by
  after_results_simp
theorem s4_v117 : @Eq (FVec Ideal S1x128 .f32) (StableHlo.after (hostOps4 (F := Ideal)) Win (Proc.devRef .tc main_v117))
    (shapeCast S1x128 (Win (Proc.devRef .tc main_arg13)) shapeCasts_S128_S1x128) := by
  after_results_simp; rfl
theorem s4_v99 : StableHlo.after (hostOps4 (F := Ideal)) Win (Proc.devRef .tc main_v99) = Win (Proc.devRef .tc main_v99) := by after_results_simp

end Cert.KernelIdeal.KVal

end
-- ==== Proof.KPre.lean ====
/-
  What the host leaves before the kernel's first region, as functions of the argument arrays.

  From the edge list `x1` (two rows of node numbers) the host forms the source vector `rowT` and the target vector `colT`
  (each row followed by the numbers 0 … 49999: one self loop per node), the degree of every node (one is added for every
  target, a negative number counting from the end) and the node weights `dinvT`: `degree^(-1/2)` where the degree is
  positive, else 0. The first region then reads the aggregated input features, the two first-layer matrices side by
  side, and the two first-layer biases end to end as one row.
-/
import proofs.«152770_j22333829939968_2_alg».proof.Proof.Gen.KernelIdeal.Frame
import proofs.«152770_j22333829939968_2_alg».proof.Proof.KStretch

noncomputable section

namespace Cert.KernelIdeal.KVal

open Cert.KernelIdeal Cert.KernelIdeal.Gen Idealize.ShloMosaic Idealize.ShloMosaic.TcCoe Idealize.SL.Sem
open Idealize.ShloMosaic.StableHlo

/-- The source vector: row 0 of the edge list, then every node's number. -/
def rowT (x1 : IVec S2x400000 32) : IVec S450000 32 :=
  concatenate S450000 0
    [⟨S400000, shapeCast S400000 (extractStridedSlice S1x400000 ![0, 0] x1 slices_S2x400000_S1x400000_0_0) shapeCasts_S1x400000_S400000⟩,
     ⟨S50000, iotaInDim S50000 32 0⟩] concatenates_S400000_S50000_S450000_d0

/-- The target vector: row 1 of the edge list, then every node's number. -/
def colT (x1 : IVec S2x400000 32) : IVec S450000 32 :=
  concatenate S450000 0
    [⟨S400000, shapeCast S400000 (extractStridedSlice S1x400000 ![1, 0] x1 slices_S2x400000_S1x400000_1_0) shapeCasts_S1x400000_S400000⟩,
     ⟨S50000, iotaInDim S50000 32 0⟩] concatenates_S400000_S50000_S450000_d0

/-- Every node's degree from the target vector: one added per target (a negative number counting from the end). -/
def degOf (v6 : IVec S450000 32) : FVec Ideal S50000 .f32 :=
  Host.scatterAdd scatter_S50000_S450000x1_S450000_n_0_0_1
    (broadcastInDim S50000 ![] bcast_S_S50000 (constant (F := Ideal) S_ .f32 0x00000000#32)) (rowIdx v6)
    (broadcastInDim S450000 ![] bcast_S_S450000 (constant (F := Ideal) S_ .f32 0x3F800000#32))

/-- The node weights from the target vector: `degree^(-1/2)` where the degree is positive, else 0. -/
def dinvOf (v6 : IVec S450000 32) : FVec Ideal S50000 .f32 :=
  select (cmpf .ogt (degOf v6) (broadcastInDim S50000 ![] bcast_S_S50000 (constant (F := Ideal) S_ .f32 0x00000000#32)))
    (Host.rsqrt (degOf v6)) (broadcastInDim S50000 ![] bcast_S_S50000 (constant (F := Ideal) S_ .f32 0x00000000#32))

/-- The node weights of an edge list. -/
def dinvT (x1 : IVec S2x400000 32) : FVec Ideal S50000 .f32 := dinvOf (colT x1)

/-- The host operations before the first region, after the seven that form the two index vectors, run from any
    valuation: the weights are `dinvOf` of the target vector found there … -/
theorem tail_v19 (Wm : Val) : @Eq (FVec Ideal S50000 .f32)
    (StableHlo.after (hostOps0_2 (F := Ideal)) (StableHlo.after (hostOps0_1 (F := Ideal)) (StableHlo.after (List.drop 7 (hostOps0 (F := Ideal))) Wm))
      (Proc.devRef .tc main_v19)) (dinvOf (Wm (Proc.devRef .tc main_v6))) := by
  simp only [hostOps0, List.drop_succ_cons, List.drop_zero]
  after_results_simp
  simp only [cast_eq, id]
  unfold dinvOf degOf rowIdx
  rfl
/-- … and the first region's input the aggregation of the features found there. -/
theorem tail_v35 (Wm : Val) : @Eq (FVec Ideal S50000x256 .f32)
    (StableHlo.after (hostOps0_2 (F := Ideal)) (StableHlo.after (hostOps0_1 (F := Ideal)) (StableHlo.after (List.drop 7 (hostOps0 (F := Ideal))) Wm))
      (Proc.devRef .tc main_v35))
    (agg (Wm (Proc.devRef .tc main_arg0)) (dinvOf (Wm (Proc.devRef .tc main_v6))) (Wm (Proc.devRef .tc main_v5))
      (Wm (Proc.devRef .tc main_v6))) := by
  simp only [hostOps0, List.drop_succ_cons, List.drop_zero]
  after_results_simp
  simp only [cast_eq, id]
  unfold agg Cert.KAgg.aggT dinvOf degOf rowIdx colIdx
  rfl
/-- The seven operations that form the index vectors, run from any valuation. -/
theorem head_v5 (Win : Val) : @Eq (IVec S450000 32) (StableHlo.after (List.take 7 (hostOps0 (F := Ideal))) Win (Proc.devRef .tc main_v5))
    (rowT (Win (Proc.devRef .tc main_arg1))) := by
  simp only [hostOps0, List.take_succ_cons, List.take_zero]
  after_results_simp <;> rfl
theorem head_v6 (Win : Val) : @Eq (IVec S450000 32) (StableHlo.after (List.take 7 (hostOps0 (F := Ideal))) Win (Proc.devRef .tc main_v6))
    (colT (Win (Proc.devRef .tc main_arg1))) := by
  simp only [hostOps0, List.take_succ_cons, List.take_zero]
  after_results_simp <;> rfl
theorem head_a0 (Win : Val) : StableHlo.after (List.take 7 (hostOps0 (F := Ideal))) Win (Proc.devRef .tc main_arg0) = Win (Proc.devRef .tc main_arg0) := by
  simp only [hostOps0, List.take_succ_cons, List.take_zero]
  after_results_simp
/-- A list of operations run in two parts. -/
theorem split0 (Win : Val) : StableHlo.after (hostOps0 (F := Ideal)) Win
    = StableHlo.after (List.drop 7 (hostOps0 (F := Ideal))) (StableHlo.after (List.take 7 (hostOps0 (F := Ideal))) Win) := rfl

variable (m : (ℓ : Loc nD τ sig) → Buf (Elt Ideal) ℓ) (ρ : Dev nD → PrngReg) (c : Dev nD)

theorem w3_v5 : @Eq (IVec S450000 32) (W3 m ρ c (Proc.devRef .tc main_v5)) (rowT (m ((c : Thread nD τ).loc main_arg1))) := by
  show StableHlo.after hostOps0_2 (StableHlo.after hostOps0_1 (StableHlo.after hostOps0 (W0 m ρ c))) _ = _
  after_results_simp <;> rfl
theorem w3_v6 : @Eq (IVec S450000 32) (W3 m ρ c (Proc.devRef .tc main_v6)) (colT (m ((c : Thread nD τ).loc main_arg1))) := by
  show StableHlo.after hostOps0_2 (StableHlo.after hostOps0_1 (StableHlo.after hostOps0 (W0 m ρ c))) _ = _
  after_results_simp <;> rfl
theorem w3_v19 : @Eq (FVec Ideal S50000 .f32) (W3 m ρ c (Proc.devRef .tc main_v19)) (dinvT (m ((c : Thread nD τ).loc main_arg1))) := by
  show StableHlo.after hostOps0_2 (StableHlo.after hostOps0_1 (StableHlo.after hostOps0 (W0 m ρ c))) _ = _
  rw [split0, tail_v19, head_v6]
  rfl
theorem w3_v35 : @Eq (FVec Ideal S50000x256 .f32) (W3 m ρ c (Proc.devRef .tc main_v35))
    (agg (m ((c : Thread nD τ).loc main_arg0)) (dinvT (m ((c : Thread nD τ).loc main_arg1)))
      (rowT (m ((c : Thread nD τ).loc main_arg1))) (colT (m ((c : Thread nD τ).loc main_arg1)))) := by
  show StableHlo.after hostOps0_2 (StableHlo.after hostOps0_1 (StableHlo.after hostOps0 (W0 m ρ c))) _ = _
  rw [split0, tail_v35, head_v6, head_v5, head_a0]
  rfl
theorem w3_v37 : @Eq (FVec Ideal S256x512 .bf16) (W3 m ρ c (Proc.devRef .tc main_v37))
    (truncf .bf16 (concatenate S256x512 1 [⟨S256x256, m ((c : Thread nD τ).loc main_arg2)⟩, ⟨S256x256, m ((c : Thread nD τ).loc main_arg8)⟩]
      concatenates_S256x256_S256x256_S256x512_d1) bitsLt_bf16_f32) := by
  show StableHlo.after hostOps0_2 (StableHlo.after hostOps0_1 (StableHlo.after hostOps0 (W0 m ρ c))) _ = _
  after_results_simp <;> rfl
theorem w3_v39 : @Eq (FVec Ideal S1x512 .f32) (W3 m ρ c (Proc.devRef .tc main_v39))
    (shapeCast S1x512 (concatenate S512 0 [⟨S256, m ((c : Thread nD τ).loc main_arg3)⟩, ⟨S256, m ((c : Thread nD τ).loc main_arg9)⟩]
      concatenates_S256_S256_S512_d0) shapeCasts_S512_S1x512) := by
  show StableHlo.after hostOps0_2 (StableHlo.after hostOps0_1 (StableHlo.after hostOps0 (W0 m ρ c))) _ = _
  after_results_simp <;> rfl
theorem w3_a4 : W3 m ρ c (Proc.devRef .tc main_arg4) = m ((c : Thread nD τ).loc main_arg4) := by
  show StableHlo.after hostOps0_2 (StableHlo.after hostOps0_1 (StableHlo.after hostOps0 (W0 m ρ c))) _ = _
  after_results_simp <;> rfl
theorem w3_a5 : W3 m ρ c (Proc.devRef .tc main_arg5) = m ((c : Thread nD τ).loc main_arg5) := by
  show StableHlo.after hostOps0_2 (StableHlo.after hostOps0_1 (StableHlo.after hostOps0 (W0 m ρ c))) _ = _
  after_results_simp <;> rfl
theorem w3_a6 : W3 m ρ c (Proc.devRef .tc main_arg6) = m ((c : Thread nD τ).loc main_arg6) := by
  show StableHlo.after hostOps0_2 (StableHlo.after hostOps0_1 (StableHlo.after hostOps0 (W0 m ρ c))) _ = _
  after_results_simp <;> rfl
theorem w3_a7 : W3 m ρ c (Proc.devRef .tc main_arg7) = m ((c : Thread nD τ).loc main_arg7) := by
  show StableHlo.after hostOps0_2 (StableHlo.after hostOps0_1 (StableHlo.after hostOps0 (W0 m ρ c))) _ = _
  after_results_simp <;> rfl
theorem w3_a10 : W3 m ρ c (Proc.devRef .tc main_arg10) = m ((c : Thread nD τ).loc main_arg10) := by
  show StableHlo.after hostOps0_2 (StableHlo.after hostOps0_1 (StableHlo.after hostOps0 (W0 m ρ c))) _ = _
  after_results_simp <;> rfl
theorem w3_a11 : W3 m ρ c (Proc.devRef .tc main_arg11) = m ((c : Thread nD τ).loc main_arg11) := by
  show StableHlo.after hostOps0_2 (StableHlo.after hostOps0_1 (StableHlo.after hostOps0 (W0 m ρ c))) _ = _
  after_results_simp <;> rfl
theorem w3_a12 : W3 m ρ c (Proc.devRef .tc main_arg12) = m ((c : Thread nD τ).loc main_arg12) := by
  show StableHlo.after hostOps0_2 (StableHlo.after hostOps0_1 (StableHlo.after hostOps0 (W0 m ρ c))) _ = _
  after_results_simp <;> rfl
theorem w3_a13 : W3 m ρ c (Proc.devRef .tc main_arg13) = m ((c : Thread nD τ).loc main_arg13) := by
  show StableHlo.after hostOps0_2 (StableHlo.after hostOps0_1 (StableHlo.after hostOps0 (W0 m ρ c))) _ = _
  after_results_simp <;> rfl

end Cert.KernelIdeal.KVal

end
-- ==== Proof.KKeep.lean ====
/-
  The buffers that outlive a region: the two index vectors, the node weights and the arguments a later layer reads hold,
  at every later boundary, what they held before the first region — no region has them among its arrays and no later host
  operation writes them.
-/
import proofs.«152770_j22333829939968_2_alg».proof.Proof.KPre

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem w4_v5 : @Eq (IVec S450000 32) (W4 m ρ c (Proc.devRef .tc main_v5)) (rowT (m ((c : Thread nD τ).loc main_arg1))) :=
  (W4_of_ne m ρ c main_v5 (by decide)).trans (w3_v5 m ρ c)
theorem w4_v6 : @Eq (IVec S450000 32) (W4 m ρ c (Proc.devRef .tc main_v6)) (colT (m ((c : Thread nD τ).loc main_arg1))) :=
  (W4_of_ne m ρ c main_v6 (by decide)).trans (w3_v6 m ρ c)
theorem w4_v19 : @Eq (FVec Ideal S50000 .f32) (W4 m ρ c (Proc.devRef .tc main_v19)) (dinvT (m ((c : Thread nD τ).loc main_arg1))) :=
  (W4_of_ne m ρ c main_v19 (by decide)).trans (w3_v19 m ρ c)
theorem w4_a4 : @Eq (FVec Ideal S256x256 .f32) (W4 m ρ c (Proc.devRef .tc main_arg4)) (m ((c : Thread nD τ).loc main_arg4)) :=
  (W4_of_ne m ρ c main_arg4 (by decide)).trans (w3_a4 m ρ c)
theorem w4_a5 : @Eq (FVec Ideal S256 .f32) (W4 m ρ c (Proc.devRef .tc main_arg5)) (m ((c : Thread nD τ).loc main_arg5)) :=
  (W4_of_ne m ρ c main_arg5 (by decide)).trans (w3_a5 m ρ c)
theorem w4_a6 : @Eq (FVec Ideal S256x128 .f32) (W4 m ρ c (Proc.devRef .tc main_arg6)) (m ((c : Thread nD τ).loc main_arg6)) :=
  (W4_of_ne m ρ c main_arg6 (by decide)).trans (w3_a6 m ρ c)
theorem w4_a7 : @Eq (FVec Ideal S128 .f32) (W4 m ρ c (Proc.devRef .tc main_arg7)) (m ((c : Thread nD τ).loc main_arg7)) :=
  (W4_of_ne m ρ c main_arg7 (by decide)).trans (w3_a7 m ρ c)
theorem w4_a10 : @Eq (FVec Ideal S256x256 .f32) (W4 m ρ c (Proc.devRef .tc main_arg10)) (m ((c : Thread nD τ).loc main_arg10)) :=
  (W4_of_ne m ρ c main_arg10 (by decide)).trans (w3_a10 m ρ c)
theorem w4_a11 : @Eq (FVec Ideal S256 .f32) (W4 m ρ c (Proc.devRef .tc main_arg11)) (m ((c : Thread nD τ).loc main_arg11)) :=
  (W4_of_ne m ρ c main_arg11 (by decide)).trans (w3_a11 m ρ c)
theorem w4_a12 : @Eq (FVec Ideal S256x128 .f32) (W4 m ρ c (Proc.devRef .tc main_arg12)) (m ((c : Thread nD τ).loc main_arg12)) :=
  (W4_of_ne m ρ c main_arg12 (by decide)).trans (w3_a12 m ρ c)
theorem w4_a13 : @Eq (FVec Ideal S128 .f32) (W4 m ρ c (Proc.devRef .tc main_arg13)) (m ((c : Thread nD τ).loc main_arg13)) :=
  (W4_of_ne m ρ c main_arg13 (by decide)).trans (w3_a13 m ρ c)
theorem w5_v5 : @Eq (IVec S450000 32) (W5 m ρ c (Proc.devRef .tc main_v5)) (rowT (m ((c : Thread nD τ).loc main_arg1))) :=
  (s1_v5 (W4 m ρ c)).trans (w4_v5 m ρ c)
theorem w5_v6 : @Eq (IVec S450000 32) (W5 m ρ c (Proc.devRef .tc main_v6)) (colT (m ((c : Thread nD τ).loc main_arg1))) :=
  (s1_v6 (W4 m ρ c)).trans (w4_v6 m ρ c)
theorem w5_v19 : @Eq (FVec Ideal S50000 .f32) (W5 m ρ c (Proc.devRef .tc main_v19)) (dinvT (m ((c : Thread nD τ).loc main_arg1))) :=
  (s1_v19 (W4 m ρ c)).trans (w4_v19 m ρ c)
theorem w5_a6 : @Eq (FVec Ideal S256x128 .f32) (W5 m ρ c (Proc.devRef .tc main_arg6)) (m ((c : Thread nD τ).loc main_arg6)) :=
  (s1_a6 (W4 m ρ c)).trans (w4_a6 m ρ c)
theorem w5_a7 : @Eq (FVec Ideal S128 .f32) (W5 m ρ c (Proc.devRef .tc main_arg7)) (m ((c : Thread nD τ).loc main_arg7)) :=
  (s1_a7 (W4 m ρ c)).trans (w4_a7 m ρ c)
theorem w5_a10 : @Eq (FVec Ideal S256x256 .f32) (W5 m ρ c (Proc.devRef .tc main_arg10)) (m ((c : Thread nD τ).loc main_arg10)) :=
  (s1_a10 (W4 m ρ c)).trans (w4_a10 m ρ c)
theorem w5_a11 : @Eq (FVec Ideal S256 .f32) (W5 m ρ c (Proc.devRef .tc main_arg11)) (m ((c : Thread nD τ).loc main_arg11)) :=
  (s1_a11 (W4 m ρ c)).trans (w4_a11 m ρ c)
theorem w5_a12 : @Eq (FVec Ideal S256x128 .f32) (W5 m ρ c (Proc.devRef .tc main_arg12)) (m ((c : Thread nD τ).loc main_arg12)) :=
  (s1_a12 (W4 m ρ c)).trans (w4_a12 m ρ c)
theorem w5_a13 : @Eq (FVec Ideal S128 .f32) (W5 m ρ c (Proc.devRef .tc main_arg13)) (m ((c : Thread nD τ).loc main_arg13)) :=
  (s1_a13 (W4 m ρ c)).trans (w4_a13 m ρ c)
theorem w6_v5 : @Eq (IVec S450000 32) (W6 m ρ c (Proc.devRef .tc main_v5)) (rowT (m ((c : Thread nD τ).loc main_arg1))) :=
  (W6_of_ne m ρ c main_v5 (by decide)).trans (w5_v5 m ρ c)
theorem w6_v6 : @Eq (IVec S450000 32) (W6 m ρ c (Proc.devRef .tc main_v6)) (colT (m ((c : Thread nD τ).loc main_arg1))) :=
  (W6_of_ne m ρ c main_v6 (by decide)).trans (w5_v6 m ρ c)
theorem w6_v19 : @Eq (FVec Ideal S50000 .f32) (W6 m ρ c (Proc.devRef .tc main_v19)) (dinvT (m ((c : Thread nD τ).loc main_arg1))) :=
  (W6_of_ne m ρ c main_v19 (by decide)).trans (w5_v19 m ρ c)
theorem w6_a6 : @Eq (FVec Ideal S256x128 .f32) (W6 m ρ c (Proc.devRef .tc main_arg6)) (m ((c : Thread nD τ).loc main_arg6)) :=
  (W6_of_ne m ρ c main_arg6 (by decide)).trans (w5_a6 m ρ c)
theorem w6_a7 : @Eq (FVec Ideal S128 .f32) (W6 m ρ c (Proc.devRef .tc main_arg7)) (m ((c : Thread nD τ).loc main_arg7)) :=
  (W6_of_ne m ρ c main_arg7 (by decide)).trans (w5_a7 m ρ c)
theorem w6_a10 : @Eq (FVec Ideal S256x256 .f32) (W6 m ρ c (Proc.devRef .tc main_arg10)) (m ((c : Thread nD τ).loc main_arg10)) :=
  (W6_of_ne m ρ c main_arg10 (by decide)).trans (w5_a10 m ρ c)
theorem w6_a11 : @Eq (FVec Ideal S256 .f32) (W6 m ρ c (Proc.devRef .tc main_arg11)) (m ((c : Thread nD τ).loc main_arg11)) :=
  (W6_of_ne m ρ c main_arg11 (by decide)).trans (w5_a11 m ρ c)
theorem w6_a12 : @Eq (FVec Ideal S256x128 .f32) (W6 m ρ c (Proc.devRef .tc main_arg12)) (m ((c : Thread nD τ).loc main_arg12)) :=
  (W6_of_ne m ρ c main_arg12 (by decide)).trans (w5_a12 m ρ c)
theorem w6_a13 : @Eq (FVec Ideal S128 .f32) (W6 m ρ c (Proc.devRef .tc main_arg13)) (m ((c : Thread nD τ).loc main_arg13)) :=
  (W6_of_ne m ρ c main_arg13 (by decide)).trans (w5_a13 m ρ c)
theorem w7_v5 : @Eq (IVec S450000 32) (W7 m ρ c (Proc.devRef .tc main_v5)) (rowT (m ((c : Thread nD τ).loc main_arg1))) :=
  (s2_v5 (W6 m ρ c)).trans (w6_v5 m ρ c)
theorem w7_v6 : @Eq (IVec S450000 32) (W7 m ρ c (Proc.devRef .tc main_v6)) (colT (m ((c : Thread nD τ).loc main_arg1))) :=
  (s2_v6 (W6 m ρ c)).trans (w6_v6 m ρ c)
theorem w7_v19 : @Eq (FVec Ideal S50000 .f32) (W7 m ρ c (Proc.devRef .tc main_v19)) (dinvT (m ((c : Thread nD τ).loc main_arg1))) :=
  (s2_v19 (W6 m ρ c)).trans (w6_v19 m ρ c)
theorem w7_a6 : @Eq (FVec Ideal S256x128 .f32) (W7 m ρ c (Proc.devRef .tc main_arg6)) (m ((c : Thread nD τ).loc main_arg6)) :=
  (s2_a6 (W6 m ρ c)).trans (w6_a6 m ρ c)
theorem w7_a7 : @Eq (FVec Ideal S128 .f32) (W7 m ρ c (Proc.devRef .tc main_arg7)) (m ((c : Thread nD τ).loc main_arg7)) :=
  (s2_a7 (W6 m ρ c)).trans (w6_a7 m ρ c)
theorem w7_a12 : @Eq (FVec Ideal S256x128 .f32) (W7 m ρ c (Proc.devRef .tc main_arg12)) (m ((c : Thread nD τ).loc main_arg12)) :=
  (s2_a12 (W6 m ρ c)).trans (w6_a12 m ρ c)
theorem w7_a13 : @Eq (FVec Ideal S128 .f32) (W7 m ρ c (Proc.devRef .tc main_arg13)) (m ((c : Thread nD τ).loc main_arg13)) :=
  (s2_a13 (W6 m ρ c)).trans (w6_a13 m ρ c)
theorem w8_v5 : @Eq (IVec S450000 32) (W8 m ρ c (Proc.devRef .tc main_v5)) (rowT (m ((c : Thread nD τ).loc main_arg1))) :=
  (W8_of_ne m ρ c main_v5 (by decide)).trans (w7_v5 m ρ c)
theorem w8_v6 : @Eq (IVec S450000 32) (W8 m ρ c (Proc.devRef .tc main_v6)) (colT (m ((c : Thread nD τ).loc main_arg1))) :=
  (W8_of_ne m ρ c main_v6 (by decide)).trans (w7_v6 m ρ c)
theorem w8_v19 : @Eq (FVec Ideal S50000 .f32) (W8 m ρ c (Proc.devRef .tc main_v19)) (dinvT (m ((c : Thread nD τ).loc main_arg1))) :=
  (W8_of_ne m ρ c main_v19 (by decide)).trans (w7_v19 m ρ c)
theorem w8_a6 : @Eq (FVec Ideal S256x128 .f32) (W8 m ρ c (Proc.devRef .tc main_arg6)) (m ((c : Thread nD τ).loc main_arg6)) :=
  (W8_of_ne m ρ c main_arg6 (by decide)).trans (w7_a6 m ρ c)
theorem w8_a7 : @Eq (FVec Ideal S128 .f32) (W8 m ρ c (Proc.devRef .tc main_arg7)) (m ((c : Thread nD τ).loc main_arg7)) :=
  (W8_of_ne m ρ c main_arg7 (by decide)).trans (w7_a7 m ρ c)
theorem w8_a12 : @Eq (FVec Ideal S256x128 .f32) (W8 m ρ c (Proc.devRef .tc main_arg12)) (m ((c : Thread nD τ).loc main_arg12)) :=
  (W8_of_ne m ρ c main_arg12 (by decide)).trans (w7_a12 m ρ c)
theorem w8_a13 : @Eq (FVec Ideal S128 .f32) (W8 m ρ c (Proc.devRef .tc main_arg13)) (m ((c : Thread nD τ).loc main_arg13)) :=
  (W8_of_ne m ρ c main_arg13 (by decide)).trans (w7_a13 m ρ c)
theorem w9_v5 : @Eq (IVec S450000 32) (W9 m ρ c (Proc.devRef .tc main_v5)) (rowT (m ((c : Thread nD τ).loc main_arg1))) :=
  (s3_v5 (W8 m ρ c)).trans (w8_v5 m ρ c)
theorem w9_v6 : @Eq (IVec S450000 32) (W9 m ρ c (Proc.devRef .tc main_v6)) (colT (m ((c : Thread nD τ).loc main_arg1))) :=
  (s3_v6 (W8 m ρ c)).trans (w8_v6 m ρ c)
theorem w9_v19 : @Eq (FVec Ideal S50000 .f32) (W9 m ρ c (Proc.devRef .tc main_v19)) (dinvT (m ((c : Thread nD τ).loc main_arg1))) :=
  (s3_v19 (W8 m ρ c)).trans (w8_v19 m ρ c)
theorem w9_a12 : @Eq (FVec Ideal S256x128 .f32) (W9 m ρ c (Proc.devRef .tc main_arg12)) (m ((c : Thread nD τ).loc main_arg12)) :=
  (s3_a12 (W8 m ρ c)).trans (w8_a12 m ρ c)
theorem w9_a13 : @Eq (FVec Ideal S128 .f32) (W9 m ρ c (Proc.devRef .tc main_arg13)) (m ((c : Thread nD τ).loc main_arg13)) :=
  (s3_a13 (W8 m ρ c)).trans (w8_a13 m ρ c)
theorem w10_v5 : @Eq (IVec S450000 32) (W10 m ρ c (Proc.devRef .tc main_v5)) (rowT (m ((c : Thread nD τ).loc main_arg1))) :=
  (W10_of_ne m ρ c main_v5 (by decide)).trans (w9_v5 m ρ c)
theorem w10_v6 : @Eq (IVec S450000 32) (W10 m ρ c (Proc.devRef .tc main_v6)) (colT (m ((c : Thread nD τ).loc main_arg1))) :=
  (W10_of_ne m ρ c main_v6 (by decide)).trans (w9_v6 m ρ c)
theorem w10_v19 : @Eq (FVec Ideal S50000 .f32) (W10 m ρ c (Proc.devRef .tc main_v19)) (dinvT (m ((c : Thread nD τ).loc main_arg1))) :=
  (W10_of_ne m ρ c main_v19 (by decide)).trans (w9_v19 m ρ c)
theorem w10_a12 : @Eq (FVec Ideal S256x128 .f32) (W10 m ρ c (Proc.devRef .tc main_arg12)) (m ((c : Thread nD τ).loc main_arg12)) :=
  (W10_of_ne m ρ c main_arg12 (by decide)).trans (w9_a12 m ρ c)
theorem w10_a13 : @Eq (FVec Ideal S128 .f32) (W10 m ρ c (Proc.devRef .tc main_arg13)) (m ((c : Thread nD τ).loc main_arg13)) :=
  (W10_of_ne m ρ c main_arg13 (by decide)).trans (w9_a13 m ρ c)

end Cert.KernelIdeal.KVal

end
-- ==== Proof.KLayer.lean ====
/-
  A kernel layer in the specification's words.

  The node weights, the edges' source nodes and the edges' targets are read off the kernel's buffers (`dK`, `srcK`,
  `tgtK`); the aggregation the host computes is then `aggregate` at every entry (`agg_apply`), and the aggregation
  followed by the region's product with a matrix and bias row is `kLayer` (`dense_agg`). A layer's column `c` uses only
  column `c` of the matrix and entry `c` of the bias (`kLayer_col_congr`): two first-layer matrices laid side by side
  give the two first layers' columns side by side.
-/
import proofs.«152770_j22333829939968_2_alg».proof.Proof.KStretch

noncomputable section

open scoped BigOperators

namespace Cert.GcnSpec

/-- Column `c` of a layer depends on the matrix and the bias through their column `c` only. -/
theorem kLayer_col_congr {N E K C C' : ℕ} (d : Fin N → EReal) (src : Fin E → Fin N) (tgt : Fin E → ℤ)
    (h : Fin N → Fin K → EReal) (W : Fin K → Fin C → EReal) (b : Fin C → EReal) (W' : Fin K → Fin C' → EReal)
    (b' : Fin C' → EReal) (c : Fin C) (c' : Fin C') (hW : ∀ k, W k c = W' k c') (hb : b c = b' c') (j : Fin N) :
    kLayer d src tgt h W b j c = kLayer d src tgt h W' b' j c' := by
  unfold kLayer
  rw [hb]
  exact congrArg (· + b' c') (Finset.sum_congr rfl fun k _ => by rw [hW k])

end Cert.GcnSpec

namespace Cert.KernelIdeal.KVal

open Cert.KernelIdeal Cert.KernelIdeal.Gen Idealize.ShloMosaic Idealize.ShloMosaic.ValueIdx Cert.GcnSpec

/-- The node weights as a function of the node. -/
def dK (dv : FVec Ideal S50000 .f32) : Fin 50000 → EReal := fun j => dv (ix1 j)
/-- Edge `e`'s source node: its start index read signed and clamped into the node numbers. -/
def srcK (v5 : IVec S450000 32) : Fin 450000 → Fin 50000 := fun e => Cert.RowGather.rowAt (n := 50000) (by decide) (rowIdx v5) e
/-- Edge `e`'s target: its scatter index read signed. -/
def tgtK (v6 : IVec S450000 32) : Fin 450000 → ℤ := fun e => (colIdx v6 (ix2 e 0)).toInt

/-- The host's aggregation at an entry. -/
theorem agg_apply (h : FVec Ideal S50000x256 .f32) (dv : FVec Ideal S50000 .f32) (v5 v6 : IVec S450000 32)
    (j : Fin 50000) (k : Fin 256) :
    agg h dv v5 v6 (ix2 j k) = aggregate (dK dv) (srcK v5) (tgtK v6) (fun j k => h (ix2 j k)) j k :=
  Cert.KAgg.aggT_apply (by decide) _ _ gather_S50000x256_S450000x1_S450000x256_1_0_n_n_0_1_1256_wf scatter_S50000x256_S450000x1_S450000x256_1_0_0_1_wf rfl rfl _ _ _ h dv (rowIdx v5) (colIdx v6) j k

/-- The aggregation followed by a matrix and a bias row is a layer. -/
theorem dense_agg {C : ℕ} (h : FVec Ideal S50000x256 .f32) (dv : FVec Ideal S50000 .f32) (v5 v6 : IVec S450000 32)
    (w : (⟨2, ![256, C]⟩ : Shape).Idx → EReal) (b : (⟨2, ![1, C]⟩ : Shape).Idx → EReal) (j : Fin 50000) (q : Fin C) :
    (∑ k : Fin 256, agg h dv v5 v6 (ix2 j k) * w (ix2 k q)) + b (ix2 (0 : Fin 1) q)
      = kLayer (dK dv) (srcK v5) (tgtK v6) (fun j k => h (ix2 j k)) (fun k q => w (ix2 k q))
          (fun q => b (ix2 (0 : Fin 1) q)) j q := by
  unfold kLayer
  simp only [agg_apply]

end Cert.KernelIdeal.KVal

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KDense.lean ====
/-
  A dense layer on a block of rows, read at an entry.

  The block `x` is an `M × K` table of extended reals, `w` a `K × C` matrix, `b` a `1 × C` row. The body multiplies the
  block by the matrix (into a zero accumulator), adds the row to every row of the product and, for a hidden layer, takes the
  maximum with zero. Changing the number format of an operand, or casting an array to its own shape, changes nothing on
  the extended reals. So entry `(p, q)` of the result is `(∑ k, x (p, k) · w (k, q)) + b (0, q)`, or `relu` of that.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«152770_j22333829939968_2_alg».proof.Proof.LibPlainDot
import proofs.«152770_j22333829939968_2_alg».proof.Proof.Spec

noncomputable section

open scoped BigOperators

namespace Cert.KDense

open Idealize.ShloMosaic Idealize.ShloMosaic.ValueIdx Cert.GcnSpec

variable {M K C : ℕ}

/-- The affine part: product with the matrix plus the bias row. -/
theorem affine_apply (D : DotDims ⟨2, ![M, K]⟩ ⟨2, ![K, C]⟩ ⟨2, ![M, C]⟩) (hD : D = DotDims.plain M K C)
    (x : FVec Ideal ⟨2, ![M, K]⟩ .f32) (w : FVec Ideal ⟨2, ![K, C]⟩ .bf16) (b : FVec Ideal ⟨2, ![1, C]⟩ .f32)
    (h1 : (⟨2, ![M, K]⟩ : Shape).ShapeCasts ⟨2, ![M, K]⟩) (h2 : (⟨2, ![K, C]⟩ : Shape).ShapeCasts ⟨2, ![K, C]⟩)
    (h3 : (⟨2, ![1, C]⟩ : Shape).ShapeCasts ⟨2, ![1, C]⟩) (hb : FTy.bf16.bits < FTy.f32.bits)
    (hbc : (⟨2, ![1, C]⟩ : Shape).Broadcasts ⟨2, ![M, C]⟩) (p : Fin M) (q : Fin C) :
    addf (matmul D none (truncf .bf16 (shapeCast ⟨2, ![M, K]⟩ x h1) hb) (shapeCast ⟨2, ![K, C]⟩ w h2)
        (constant ⟨2, ![M, C]⟩ .f32 0x00000000#32)) (broadcastTo ⟨2, ![M, C]⟩ (shapeCast ⟨2, ![1, C]⟩ b h3) hbc) (ix2 p q)
      = (∑ k : Fin K, x (ix2 p k) * w (ix2 k q)) + b (ix2 (0 : Fin 1) q) := by
  subst hD
  rw [addf_apply, shapeCast_self, shapeCast_self, shapeCast_self, broadcastTo_1b_ab_apply]
  refine congrArg (· + b (ix2 (0 : Fin 1) q)) ?_
  exact Cert.LibPlainDot.matmul_zero_apply M K C none _ w (ix2 p q)

/-- A hidden layer: the affine part, then the maximum with zero. -/
theorem hidden_apply (D : DotDims ⟨2, ![M, K]⟩ ⟨2, ![K, C]⟩ ⟨2, ![M, C]⟩) (hD : D = DotDims.plain M K C)
    (x : FVec Ideal ⟨2, ![M, K]⟩ .f32) (w : FVec Ideal ⟨2, ![K, C]⟩ .bf16) (b : FVec Ideal ⟨2, ![1, C]⟩ .f32)
    (h1 : (⟨2, ![M, K]⟩ : Shape).ShapeCasts ⟨2, ![M, K]⟩) (h2 : (⟨2, ![K, C]⟩ : Shape).ShapeCasts ⟨2, ![K, C]⟩)
    (h3 : (⟨2, ![1, C]⟩ : Shape).ShapeCasts ⟨2, ![1, C]⟩) (hb : FTy.bf16.bits < FTy.f32.bits)
    (hbc : (⟨2, ![1, C]⟩ : Shape).Broadcasts ⟨2, ![M, C]⟩) (p : Fin M) (q : Fin C) :
    maximumf (addf (matmul D none (truncf .bf16 (shapeCast ⟨2, ![M, K]⟩ x h1) hb) (shapeCast ⟨2, ![K, C]⟩ w h2)
        (constant ⟨2, ![M, C]⟩ .f32 0x00000000#32)) (broadcastTo ⟨2, ![M, C]⟩ (shapeCast ⟨2, ![1, C]⟩ b h3) hbc))
        (broadcast ⟨2, ![M, C]⟩ (Scalar.ofBits (F := Ideal) .f32 0x00000000#32)) (ix2 p q)
      = relu ((∑ k : Fin K, x (ix2 p k) * w (ix2 k q)) + b (ix2 (0 : Fin 1) q)) := by
  rw [maximumf_apply, affine_apply D hD x w b h1 h2 h3 hb hbc p q, broadcast_apply]
  unfold relu
  refine congrArg (max _) ?_
  exact Ideal.ofBits_zero_f32

end Cert.KDense

end
-- ==== Proof.KRegion0.lean ====
/-
  Region 0: a dense layer over the 50000 rows, 2000 rows at a time.

  The grid has 25 points. At point `t` the body reads rows `2000 t … 2000 t + 1999` of the input array, the whole
  weight matrix and the whole bias row, and leaves in the output block the product of its rows with the matrix plus the
  bias row, then the maximum with zero. The output block of point `t` is written back to rows `2000 t … 2000 t + 1999` of
  the output array, and the 25 blocks cover the array, so after the region entry `(j, q)` of the output array is
  relu ((∑ k, a (j, k) · w (k, q)) + b (0, q)) of the arrays `a`, `w`, `b` the region finds.
-/
import proofs.«152770_j22333829939968_2_alg».proof.Proof.Gen.KernelIdeal.Frame
import proofs.«152770_j22333829939968_2_alg».proof.Proof.KDense
import proofs.«152770_j22333829939968_2_alg».proof.Proof.Spec
import Idealize.ShloMosaic.Lib.Pipeline.Value

set_option maxRecDepth 16384

noncomputable section

open scoped BigOperators

namespace Cert.KernelIdeal.KVal

open Cert.KernelIdeal Cert.KernelIdeal.Gen Cert.GcnSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The zero offset. -/
theorem hz0 : (![0, 0] : Fin 2 → Nat) = fun _ => 0 := funext fun a => by fin_cases a <;> rfl

/-- The body's value at an entry of its block of rows: the product with the matrix plus the bias row, then the maximum with zero. -/
theorem pay0_apply (x0 : Vec Ideal S2000x256 .f32) (x1 : Vec Ideal S256x512 .bf16) (x2 : Vec Ideal S1x512 .f32)
    (p : Fin 2000) (q : Fin 512) :
    k0_pay1 x0 x1 x2 (ix2 p q) = relu ((∑ k : Fin 256, x0 (ix2 p k) * x1 (ix2 k q)) + x2 (ix2 (0 : Fin 1) q)) := by
  unfold k0_pay1
  exact Cert.KDense.hidden_apply _ rfl x0 x1 x2 _ _ _ _ _ p q

/-- The dense layer of the whole array: row `j` of `a` times `w`, plus the row `b`, then the maximum with zero. -/
def G0 (a : S50000x256.Idx → EReal) (w : S256x512.Idx → EReal) (b : S1x512.Idx → EReal) : S50000x512.Idx → EReal :=
  fun i => relu ((∑ k : Fin 256, a (ix2 (⟨(i 0).val, (i 0).isLt⟩ : Fin 50000) k) * w (ix2 k (⟨(i 1).val, (i 1).isLt⟩ : Fin 512)))
    + b (ix2 (0 : Fin 1) (⟨(i 1).val, (i 1).isLt⟩ : Fin 512)))

/-- The block indices at grid point `t`: the input rows and the output rows move with `t`, the matrix and the bias
    row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `2000 t … 2000 t + 1999` of the input array. -/
theorem iblk0_0_apply (c : Dev nD) (t : Fin cfg0.N) (p : Fin 2000) (k : Fin 256) (j : Fin 50000)
    (hj : j.val = 2000 * t.val + p.val) :
    iblk0 (F := Ideal) V c 0 t (ix2 p k) = V c main_v35 (ix2 j k) := by
  obtain ⟨e0, e1, -⟩ := idx_facts0 t
  unfold iblk0
  rw [View.read_apply]
  show V c main_v35 _ = V c main_v35 _
  congr 1
  funext a
  apply Fin.ext
  match a with
  | ⟨0, _⟩ => show win0_0.index t (0 : Fin 2) * 2000 + 1 * p.val = j.val; rw [e0, hj]; omega
  | ⟨1, _⟩ => show win0_0.index t (1 : Fin 2) * 256 + 1 * k.val = k.val; rw [e1]; omega

/-- The matrix block at every point is the whole matrix. -/
theorem iblk0_1_apply (c : Dev nD) (t : Fin cfg0.N) (k : Fin 256) (q Q : Fin 512) (hQ : Q.val = q.val) :
    iblk0 (F := Ideal) V c 1 t (ix2 k q) = V c main_v37 (ix2 k Q) := by
  obtain ⟨-, -, e2, e3, -⟩ := idx_facts0 t
  unfold iblk0
  rw [View.read_apply]
  show V c main_v37 _ = V c main_v37 _
  congr 1
  funext a
  apply Fin.ext
  match a with
  | ⟨0, _⟩ => show win0_1.index t (0 : Fin 2) * 256 + 1 * k.val = k.val; rw [e2]; omega
  | ⟨1, _⟩ => show win0_1.index t (1 : Fin 2) * 512 + 1 * q.val = Q.val; rw [e3, hQ]; omega

/-- The bias block at every point is the whole bias row. -/
theorem iblk0_2_apply (c : Dev nD) (t : Fin cfg0.N) (q Q : Fin 512) (hQ : Q.val = q.val) :
    iblk0 (F := Ideal) V c 2 t (ix2 (0 : Fin 1) q) = V c main_v39 (ix2 (0 : Fin 1) Q) := by
  obtain ⟨-, -, -, -, e4, e5, -⟩ := idx_facts0 t
  unfold iblk0
  rw [View.read_apply]
  show V c main_v39 _ = V c main_v39 _
  congr 1
  funext a
  apply Fin.ext
  match a with
  | ⟨0, _⟩ => show win0_2.index t (0 : Fin 2) * 1 + 1 * 0 = 0; rw [e4]
  | ⟨1, _⟩ => show win0_2.index t (1 : Fin 2) * 512 + 1 * q.val = Q.val; rw [e5, hQ]; omega

/-- What the body leaves at an entry of the output block of point `t` is `G0` at that entry's place in the array. -/
theorem block0_apply (c : Dev nD) (t : Fin cfg0.N) (y : S2000x512.Idx) :
    k0_pay1 (iblk0 (F := Ideal) V c 0 t) (iblk0 V c 1 t) (iblk0 V c 2 t) y
      = G0 (V c main_v35) (V c main_v37) (V c main_v39) (((cfg0.win 3).blk t).view.emb y) := by
  obtain ⟨p, q, rfl⟩ : ∃ (p : Fin 2000) (q : Fin 512), y = ix2 p q := ⟨y 0, y 1, eq_ix2 y⟩
  obtain ⟨-, -, -, -, -, -, e6, e7⟩ := idx_facts0 t
  have hr : ((((cfg0.win 3).blk t).view.emb (ix2 p q)) 0).val = 2000 * t.val + p.val := by
    show win0_3.index t (0 : Fin 2) * 2000 + 1 * p.val = _
    rw [e6]; omega
  have hc : ((((cfg0.win 3).blk t).view.emb (ix2 p q)) 1).val = q.val := by
    show win0_3.index t (1 : Fin 2) * 512 + 1 * q.val = _
    rw [e7]; omega
  refine (pay0_apply _ _ _ p q).trans ?_
  unfold G0
  refine congrArg relu (congrArg₂ (· + ·) (Finset.sum_congr rfl fun k _ => congrArg₂ (· * ·)
    (iblk0_0_apply V c t p k _ hr) (iblk0_1_apply V c t k q _ hc)) (iblk0_2_apply V c t q _ hc))

/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_v35) (V c main_v37) (V c main_v39)) := by
  show (cfg0.win 3).cut (grid0.coords t) ((dat0 V c).after 3 t) = _
  rw [after0_3]
  unfold out0_3
  rw [View.canon_unit_zero hz0]
  simp only [View.ld_unit_zero (S := S2000x256) hz0, View.ld_unit_zero (S := S256x512) hz0, View.ld_unit_zero (S := S1x512) hz0]
  funext y
  exact block0_apply V c t y

/-- An index of the output array is in point `t`'s block iff each coordinate is in the block's range on its axis. -/
theorem mem_blk0 (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v40).slice (win0_3.rect t)).set ↔ _
  rw [View.set_slice_whole, Rect.mem_set_unit]
  exact Iff.rfl

/-- Every index of the output array is in the block of the point `row / 2000`. -/
theorem cover0 (i : S50000x512.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 512 := (i 1).isLt
  have ht : (i 0).val / 2000 < cfg0.N := by rw [hN]; omega
  refine ⟨⟨(i 0).val / 2000, ht⟩, flush0_3 _, ?_⟩
  obtain ⟨-, -, -, -, -, -, e6, e7⟩ := idx_facts0 ⟨(i 0).val / 2000, ht⟩
  rw [mem_blk0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, ht⟩ (1 : Fin 2) * 512 ≤ (i 1).val
      ∧ (i 1).val < win0_3.index ⟨(i 0).val / 2000, ht⟩ (1 : Fin 2) * 512 + 512
    rw [e7]
    omega

/-- The output array after the region is `G0` of the arrays as the region finds them. -/
theorem arr0_all (c : Dev nD) :
    (dat0 (F := Ideal) V c).arrAt 3 cfg0.N = G0 (V c main_v35) (V c main_v37) (V c main_v39) :=
  (dat0 V c).arrAt_eq_of_cover 3 (G0 (V c main_v35) (V c main_v37) (V c main_v39)) (fun t _ => flushed0_eq V c t) cover0

/-- The output array after the region, entry by entry. -/
theorem arr0 (c : Dev nD) (a : S50000x256.Idx → EReal) (w : S256x512.Idx → EReal) (b : S1x512.Idx → EReal)
    (ha : V c main_v35 = a) (hw : V c main_v37 = w) (hb : V c main_v39 = b) (j : Fin 50000) (q : Fin 512) :
    (dat0 (F := Ideal) V c).arrAt 3 cfg0.N (ix2 j q)
      = relu ((∑ k : Fin 256, a (ix2 j k) * w (ix2 k q)) + b (ix2 (0 : Fin 1) q)) := by
  subst ha hw hb
  exact congrFun (arr0_all V c) (ix2 j q)

end Cert.KernelIdeal.KVal
end
-- ==== Proof.KRegion1.lean ====
/-
  Region 1: a dense layer over the 50000 rows, 2000 rows at a time.

  The grid has 25 points. At point `t` the body reads rows `2000 t … 2000 t + 1999` of the input array, the whole
  weight matrix and the whole bias row, and leaves in the output block the product of its rows with the matrix plus the
  bias row, then the maximum with zero. The output block of point `t` is written back to rows `2000 t … 2000 t + 1999` of
  the output array, and the 25 blocks cover the array, so after the region entry `(j, q)` of the output array is
  relu ((∑ k, a (j, k) · w (k, q)) + b (0, q)) of the arrays `a`, `w`, `b` the region finds.
-/
import proofs.«152770_j22333829939968_2_alg».proof.Proof.Gen.KernelIdeal.Frame
import proofs.«152770_j22333829939968_2_alg».proof.Proof.KDense
import proofs.«152770_j22333829939968_2_alg».proof.Proof.Spec
import Idealize.ShloMosaic.Lib.Pipeline.Value

set_option maxRecDepth 16384

noncomputable section

open scoped BigOperators

namespace Cert.KernelIdeal.KVal

open Cert.KernelIdeal Cert.KernelIdeal.Gen Cert.GcnSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The zero offset. -/
theorem hz1 : (![0, 0] : Fin 2 → Nat) = fun _ => 0 := funext fun a => by fin_cases a <;> rfl

/-- The body's value at an entry of its block of rows: the product with the matrix plus the bias row, then the maximum with zero. -/
theorem pay1_apply (x0 : Vec Ideal S2000x256 .f32) (x1 : Vec Ideal S256x256 .bf16) (x2 : Vec Ideal S1x256 .f32)
    (p : Fin 2000) (q : Fin 256) :
    k1_pay1 x0 x1 x2 (ix2 p q) = relu ((∑ k : Fin 256, x0 (ix2 p k) * x1 (ix2 k q)) + x2 (ix2 (0 : Fin 1) q)) := by
  unfold k1_pay1
  exact Cert.KDense.hidden_apply _ rfl x0 x1 x2 _ _ _ _ _ p q

/-- The dense layer of the whole array: row `j` of `a` times `w`, plus the row `b`, then the maximum with zero. -/
def G1 (a : S50000x256.Idx → EReal) (w : S256x256.Idx → EReal) (b : S1x256.Idx → EReal) : S50000x256.Idx → EReal :=
  fun i => relu ((∑ k : Fin 256, a (ix2 (⟨(i 0).val, (i 0).isLt⟩ : Fin 50000) k) * w (ix2 k (⟨(i 1).val, (i 1).isLt⟩ : Fin 256)))
    + b (ix2 (0 : Fin 1) (⟨(i 1).val, (i 1).isLt⟩ : Fin 256)))

/-- The block indices at grid point `t`: the input rows and the output rows move with `t`, the matrix and the bias
    row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point `t` is rows `2000 t … 2000 t + 1999` of the input array. -/
theorem iblk1_0_apply (c : Dev nD) (t : Fin cfg1.N) (p : Fin 2000) (k : Fin 256) (j : Fin 50000)
    (hj : j.val = 2000 * t.val + p.val) :
    iblk1 (F := Ideal) V c 0 t (ix2 p k) = V c main_v58 (ix2 j k) := by
  obtain ⟨e0, e1, -⟩ := idx_facts1 t
  unfold iblk1
  rw [View.read_apply]
  show V c main_v58 _ = V c main_v58 _
  congr 1
  funext a
  apply Fin.ext
  match a with
  | ⟨0, _⟩ => show win1_0.index t (0 : Fin 2) * 2000 + 1 * p.val = j.val; rw [e0, hj]; omega
  | ⟨1, _⟩ => show win1_0.index t (1 : Fin 2) * 256 + 1 * k.val = k.val; rw [e1]; omega

/-- The matrix block at every point is the whole matrix. -/
theorem iblk1_1_apply (c : Dev nD) (t : Fin cfg1.N) (k : Fin 256) (q Q : Fin 256) (hQ : Q.val = q.val) :
    iblk1 (F := Ideal) V c 1 t (ix2 k q) = V c main_v59 (ix2 k Q) := by
  obtain ⟨-, -, e2, e3, -⟩ := idx_facts1 t
  unfold iblk1
  rw [View.read_apply]
  show V c main_v59 _ = V c main_v59 _
  congr 1
  funext a
  apply Fin.ext
  match a with
  | ⟨0, _⟩ => show win1_1.index t (0 : Fin 2) * 256 + 1 * k.val = k.val; rw [e2]; omega
  | ⟨1, _⟩ => show win1_1.index t (1 : Fin 2) * 256 + 1 * q.val = Q.val; rw [e3, hQ]; omega

/-- The bias block at every point is the whole bias row. -/
theorem iblk1_2_apply (c : Dev nD) (t : Fin cfg1.N) (q Q : Fin 256) (hQ : Q.val = q.val) :
    iblk1 (F := Ideal) V c 2 t (ix2 (0 : Fin 1) q) = V c main_v60 (ix2 (0 : Fin 1) Q) := by
  obtain ⟨-, -, -, -, e4, e5, -⟩ := idx_facts1 t
  unfold iblk1
  rw [View.read_apply]
  show V c main_v60 _ = V c main_v60 _
  congr 1
  funext a
  apply Fin.ext
  match a with
  | ⟨0, _⟩ => show win1_2.index t (0 : Fin 2) * 1 + 1 * 0 = 0; rw [e4]
  | ⟨1, _⟩ => show win1_2.index t (1 : Fin 2) * 256 + 1 * q.val = Q.val; rw [e5, hQ]; omega

/-- What the body leaves at an entry of the output block of point `t` is `G1` at that entry's place in the array. -/
theorem block1_apply (c : Dev nD) (t : Fin cfg1.N) (y : S2000x256.Idx) :
    k1_pay1 (iblk1 (F := Ideal) V c 0 t) (iblk1 V c 1 t) (iblk1 V c 2 t) y
      = G1 (V c main_v58) (V c main_v59) (V c main_v60) (((cfg1.win 3).blk t).view.emb y) := by
  obtain ⟨p, q, rfl⟩ : ∃ (p : Fin 2000) (q : Fin 256), y = ix2 p q := ⟨y 0, y 1, eq_ix2 y⟩
  obtain ⟨-, -, -, -, -, -, e6, e7⟩ := idx_facts1 t
  have hr : ((((cfg1.win 3).blk t).view.emb (ix2 p q)) 0).val = 2000 * t.val + p.val := by
    show win1_3.index t (0 : Fin 2) * 2000 + 1 * p.val = _
    rw [e6]; omega
  have hc : ((((cfg1.win 3).blk t).view.emb (ix2 p q)) 1).val = q.val := by
    show win1_3.index t (1 : Fin 2) * 256 + 1 * q.val = _
    rw [e7]; omega
  refine (pay1_apply _ _ _ p q).trans ?_
  unfold G1
  refine congrArg relu (congrArg₂ (· + ·) (Finset.sum_congr rfl fun k _ => congrArg₂ (· * ·)
    (iblk1_0_apply V c t p k _ hr) (iblk1_1_apply V c t k q _ hc)) (iblk1_2_apply V c t q _ hc))

/-- What point `t` writes back is block `t` of `G1` of the arrays as the region finds them. -/
theorem flushed1_eq (c : Dev nD) (t : Fin cfg1.N) :
    (dat1 (F := Ideal) V c).flushed 3 t
      = ((cfg1.win 3).blk t).view.read (Elt Ideal) (G1 (V c main_v58) (V c main_v59) (V c main_v60)) := by
  show (cfg1.win 3).cut (grid1.coords t) ((dat1 V c).after 3 t) = _
  rw [after1_3]
  unfold out1_3
  rw [View.canon_unit_zero hz1]
  simp only [View.ld_unit_zero (S := S2000x256) hz1, View.ld_unit_zero (S := S256x256) hz1, View.ld_unit_zero (S := S1x256) hz1]
  funext y
  exact block1_apply V c t y

/-- An index of the output array is in point `t`'s block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v61).slice (win1_3.rect t)).set ↔ _
  rw [View.set_slice_whole, Rect.mem_set_unit]
  exact Iff.rfl

/-- Every index of the output array is in the block of the point `row / 2000`. -/
theorem cover1 (i : S50000x256.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 256 := (i 1).isLt
  have ht : (i 0).val / 2000 < cfg1.N := by rw [hN]; omega
  refine ⟨⟨(i 0).val / 2000, ht⟩, flush1_3 _, ?_⟩
  obtain ⟨-, -, -, -, -, -, e6, e7⟩ := idx_facts1 ⟨(i 0).val / 2000, ht⟩
  rw [mem_blk1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e7]
    omega

/-- The output array after the region is `G1` of the arrays as the region finds them. -/
theorem arr1_all (c : Dev nD) :
    (dat1 (F := Ideal) V c).arrAt 3 cfg1.N = G1 (V c main_v58) (V c main_v59) (V c main_v60) :=
  (dat1 V c).arrAt_eq_of_cover 3 (G1 (V c main_v58) (V c main_v59) (V c main_v60)) (fun t _ => flushed1_eq V c t) cover1

/-- The output array after the region, entry by entry. -/
theorem arr1 (c : Dev nD) (a : S50000x256.Idx → EReal) (w : S256x256.Idx → EReal) (b : S1x256.Idx → EReal)
    (ha : V c main_v58 = a) (hw : V c main_v59 = w) (hb : V c main_v60 = b) (j : Fin 50000) (q : Fin 256) :
    (dat1 (F := Ideal) V c).arrAt 3 cfg1.N (ix2 j q)
      = relu ((∑ k : Fin 256, a (ix2 j k) * w (ix2 k q)) + b (ix2 (0 : Fin 1) q)) := by
  subst ha hw hb
  exact congrFun (arr1_all V c) (ix2 j q)

end Cert.KernelIdeal.KVal
end
-- ==== Proof.KRegion2.lean ====
/-
  Region 2: a dense layer over the 50000 rows, 2000 rows at a time.

  The grid has 25 points. At point `t` the body reads rows `2000 t … 2000 t + 1999` of the input array, the whole
  weight matrix and the whole bias row, and leaves in the output block the product of its rows with the matrix plus the
  bias row, then the maximum with zero. The output block of point `t` is written back to rows `2000 t … 2000 t + 1999` of
  the output array, and the 25 blocks cover the array, so after the region entry `(j, q)` of the output array is
  relu ((∑ k, a (j, k) · w (k, q)) + b (0, q)) of the arrays `a`, `w`, `b` the region finds.
-/
import proofs.«152770_j22333829939968_2_alg».proof.Proof.Gen.KernelIdeal.Frame
import proofs.«152770_j22333829939968_2_alg».proof.Proof.KDense
import proofs.«152770_j22333829939968_2_alg».proof.Proof.Spec
import Idealize.ShloMosaic.Lib.Pipeline.Value

set_option maxRecDepth 16384

noncomputable section

open scoped BigOperators

namespace Cert.KernelIdeal.KVal

open Cert.KernelIdeal Cert.KernelIdeal.Gen Cert.GcnSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The zero offset. -/
theorem hz2 : (![0, 0] : Fin 2 → Nat) = fun _ => 0 := funext fun a => by fin_cases a <;> rfl

/-- The body's value at an entry of its block of rows: the product with the matrix plus the bias row, then the maximum with zero. -/
theorem pay2_apply (x0 : Vec Ideal S2000x256 .f32) (x1 : Vec Ideal S256x256 .bf16) (x2 : Vec Ideal S1x256 .f32)
    (p : Fin 2000) (q : Fin 256) :
    k2_pay1 x0 x1 x2 (ix2 p q) = relu ((∑ k : Fin 256, x0 (ix2 p k) * x1 (ix2 k q)) + x2 (ix2 (0 : Fin 1) q)) := by
  unfold k2_pay1
  exact Cert.KDense.hidden_apply _ rfl x0 x1 x2 _ _ _ _ _ p q

/-- The dense layer of the whole array: row `j` of `a` times `w`, plus the row `b`, then the maximum with zero. -/
def G2 (a : S50000x256.Idx → EReal) (w : S256x256.Idx → EReal) (b : S1x256.Idx → EReal) : S50000x256.Idx → EReal :=
  fun i => relu ((∑ k : Fin 256, a (ix2 (⟨(i 0).val, (i 0).isLt⟩ : Fin 50000) k) * w (ix2 k (⟨(i 1).val, (i 1).isLt⟩ : Fin 256)))
    + b (ix2 (0 : Fin 1) (⟨(i 1).val, (i 1).isLt⟩ : Fin 256)))

/-- The block indices at grid point `t`: the input rows and the output rows move with `t`, the matrix and the bias
    row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` is rows `2000 t … 2000 t + 1999` of the input array. -/
theorem iblk2_0_apply (c : Dev nD) (t : Fin cfg2.N) (p : Fin 2000) (k : Fin 256) (j : Fin 50000)
    (hj : j.val = 2000 * t.val + p.val) :
    iblk2 (F := Ideal) V c 0 t (ix2 p k) = V c main_v77 (ix2 j k) := by
  obtain ⟨e0, e1, -⟩ := idx_facts2 t
  unfold iblk2
  rw [View.read_apply]
  show V c main_v77 _ = V c main_v77 _
  congr 1
  funext a
  apply Fin.ext
  match a with
  | ⟨0, _⟩ => show win2_0.index t (0 : Fin 2) * 2000 + 1 * p.val = j.val; rw [e0, hj]; omega
  | ⟨1, _⟩ => show win2_0.index t (1 : Fin 2) * 256 + 1 * k.val = k.val; rw [e1]; omega

/-- The matrix block at every point is the whole matrix. -/
theorem iblk2_1_apply (c : Dev nD) (t : Fin cfg2.N) (k : Fin 256) (q Q : Fin 256) (hQ : Q.val = q.val) :
    iblk2 (F := Ideal) V c 1 t (ix2 k q) = V c main_v78 (ix2 k Q) := by
  obtain ⟨-, -, e2, e3, -⟩ := idx_facts2 t
  unfold iblk2
  rw [View.read_apply]
  show V c main_v78 _ = V c main_v78 _
  congr 1
  funext a
  apply Fin.ext
  match a with
  | ⟨0, _⟩ => show win2_1.index t (0 : Fin 2) * 256 + 1 * k.val = k.val; rw [e2]; omega
  | ⟨1, _⟩ => show win2_1.index t (1 : Fin 2) * 256 + 1 * q.val = Q.val; rw [e3, hQ]; omega

/-- The bias block at every point is the whole bias row. -/
theorem iblk2_2_apply (c : Dev nD) (t : Fin cfg2.N) (q Q : Fin 256) (hQ : Q.val = q.val) :
    iblk2 (F := Ideal) V c 2 t (ix2 (0 : Fin 1) q) = V c main_v79 (ix2 (0 : Fin 1) Q) := by
  obtain ⟨-, -, -, -, e4, e5, -⟩ := idx_facts2 t
  unfold iblk2
  rw [View.read_apply]
  show V c main_v79 _ = V c main_v79 _
  congr 1
  funext a
  apply Fin.ext
  match a with
  | ⟨0, _⟩ => show win2_2.index t (0 : Fin 2) * 1 + 1 * 0 = 0; rw [e4]
  | ⟨1, _⟩ => show win2_2.index t (1 : Fin 2) * 256 + 1 * q.val = Q.val; rw [e5, hQ]; omega

/-- What the body leaves at an entry of the output block of point `t` is `G2` at that entry's place in the array. -/
theorem block2_apply (c : Dev nD) (t : Fin cfg2.N) (y : S2000x256.Idx) :
    k2_pay1 (iblk2 (F := Ideal) V c 0 t) (iblk2 V c 1 t) (iblk2 V c 2 t) y
      = G2 (V c main_v77) (V c main_v78) (V c main_v79) (((cfg2.win 3).blk t).view.emb y) := by
  obtain ⟨p, q, rfl⟩ : ∃ (p : Fin 2000) (q : Fin 256), y = ix2 p q := ⟨y 0, y 1, eq_ix2 y⟩
  obtain ⟨-, -, -, -, -, -, e6, e7⟩ := idx_facts2 t
  have hr : ((((cfg2.win 3).blk t).view.emb (ix2 p q)) 0).val = 2000 * t.val + p.val := by
    show win2_3.index t (0 : Fin 2) * 2000 + 1 * p.val = _
    rw [e6]; omega
  have hc : ((((cfg2.win 3).blk t).view.emb (ix2 p q)) 1).val = q.val := by
    show win2_3.index t (1 : Fin 2) * 256 + 1 * q.val = _
    rw [e7]; omega
  refine (pay2_apply _ _ _ p q).trans ?_
  unfold G2
  refine congrArg relu (congrArg₂ (· + ·) (Finset.sum_congr rfl fun k _ => congrArg₂ (· * ·)
    (iblk2_0_apply V c t p k _ hr) (iblk2_1_apply V c t k q _ hc)) (iblk2_2_apply V c t q _ hc))

/-- What point `t` writes back is block `t` of `G2` of the arrays as the region finds them. -/
theorem flushed2_eq (c : Dev nD) (t : Fin cfg2.N) :
    (dat2 (F := Ideal) V c).flushed 3 t
      = ((cfg2.win 3).blk t).view.read (Elt Ideal) (G2 (V c main_v77) (V c main_v78) (V c main_v79)) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S256x256) hz2, View.ld_unit_zero (S := S1x256) hz2]
  funext y
  exact block2_apply V c t y

/-- An index of the output array is in point `t`'s block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v80).slice (win2_3.rect t)).set ↔ _
  rw [View.set_slice_whole, Rect.mem_set_unit]
  exact Iff.rfl

/-- Every index of the output array is in the block of the point `row / 2000`. -/
theorem cover2 (i : S50000x256.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 256 := (i 1).isLt
  have ht : (i 0).val / 2000 < cfg2.N := by rw [hN]; omega
  refine ⟨⟨(i 0).val / 2000, ht⟩, flush2_3 _, ?_⟩
  obtain ⟨-, -, -, -, -, -, e6, e7⟩ := idx_facts2 ⟨(i 0).val / 2000, ht⟩
  rw [mem_blk2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win2_3.index ⟨(i 0).val / 2000, ht⟩ (1 : Fin 2) * 256 ≤ (i 1).val
      ∧ (i 1).val < win2_3.index ⟨(i 0).val / 2000, ht⟩ (1 : Fin 2) * 256 + 256
    rw [e7]
    omega

/-- The output array after the region is `G2` of the arrays as the region finds them. -/
theorem arr2_all (c : Dev nD) :
    (dat2 (F := Ideal) V c).arrAt 3 cfg2.N = G2 (V c main_v77) (V c main_v78) (V c main_v79) :=
  (dat2 V c).arrAt_eq_of_cover 3 (G2 (V c main_v77) (V c main_v78) (V c main_v79)) (fun t _ => flushed2_eq V c t) cover2

/-- The output array after the region, entry by entry. -/
theorem arr2 (c : Dev nD) (a : S50000x256.Idx → EReal) (w : S256x256.Idx → EReal) (b : S1x256.Idx → EReal)
    (ha : V c main_v77 = a) (hw : V c main_v78 = w) (hb : V c main_v79 = b) (j : Fin 50000) (q : Fin 256) :
    (dat2 (F := Ideal) V c).arrAt 3 cfg2.N (ix2 j q)
      = relu ((∑ k : Fin 256, a (ix2 j k) * w (ix2 k q)) + b (ix2 (0 : Fin 1) q)) := by
  subst ha hw hb
  exact congrFun (arr2_all V c) (ix2 j q)

end Cert.KernelIdeal.KVal
end
-- ==== Proof.KRegion3.lean ====
/-
  Region 3: a dense layer over the 50000 rows, 2000 rows at a time.

  The grid has 25 points. At point `t` the body reads rows `2000 t … 2000 t + 1999` of the input array, the whole
  weight matrix and the whole bias row, and leaves in the output block the product of its rows with the matrix plus the
  bias row. The output block of point `t` is written back to rows `2000 t … 2000 t + 1999` of
  the output array, and the 25 blocks cover the array, so after the region entry `(j, q)` of the output array is
  (∑ k, a (j, k) · w (k, q)) + b (0, q) of the arrays `a`, `w`, `b` the region finds.
-/
import proofs.«152770_j22333829939968_2_alg».proof.Proof.Gen.KernelIdeal.Frame
import proofs.«152770_j22333829939968_2_alg».proof.Proof.KDense
import proofs.«152770_j22333829939968_2_alg».proof.Proof.Spec
import Idealize.ShloMosaic.Lib.Pipeline.Value

set_option maxRecDepth 16384

noncomputable section

open scoped BigOperators

namespace Cert.KernelIdeal.KVal

open Cert.KernelIdeal Cert.KernelIdeal.Gen Cert.GcnSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The zero offset. -/
theorem hz3 : (![0, 0] : Fin 2 → Nat) = fun _ => 0 := funext fun a => by fin_cases a <;> rfl

/-- The body's value at an entry of its block of rows: the product with the matrix plus the bias row. -/
theorem pay3_apply (x0 : Vec Ideal S2000x256 .f32) (x1 : Vec Ideal S256x128 .bf16) (x2 : Vec Ideal S1x128 .f32)
    (p : Fin 2000) (q : Fin 128) :
    k3_pay1 x0 x1 x2 (ix2 p q) = (∑ k : Fin 256, x0 (ix2 p k) * x1 (ix2 k q)) + x2 (ix2 (0 : Fin 1) q) := by
  unfold k3_pay1
  exact Cert.KDense.affine_apply _ rfl x0 x1 x2 _ _ _ _ _ p q

/-- The dense layer of the whole array: row `j` of `a` times `w`, plus the row `b`. -/
def G3 (a : S50000x256.Idx → EReal) (w : S256x128.Idx → EReal) (b : S1x128.Idx → EReal) : S50000x128.Idx → EReal :=
  fun i => (∑ k : Fin 256, a (ix2 (⟨(i 0).val, (i 0).isLt⟩ : Fin 50000) k) * w (ix2 k (⟨(i 1).val, (i 1).isLt⟩ : Fin 128)))
    + b (ix2 (0 : Fin 1) (⟨(i 1).val, (i 1).isLt⟩ : Fin 128))

/-- The block indices at grid point `t`: the input rows and the output rows move with `t`, the matrix and the bias
    row stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input block at point `t` is rows `2000 t … 2000 t + 1999` of the input array. -/
theorem iblk3_0_apply (c : Dev nD) (t : Fin cfg3.N) (p : Fin 2000) (k : Fin 256) (j : Fin 50000)
    (hj : j.val = 2000 * t.val + p.val) :
    iblk3 (F := Ideal) V c 0 t (ix2 p k) = V c main_v96 (ix2 j k) := by
  obtain ⟨e0, e1, -⟩ := idx_facts3 t
  unfold iblk3
  rw [View.read_apply]
  show V c main_v96 _ = V c main_v96 _
  congr 1
  funext a
  apply Fin.ext
  match a with
  | ⟨0, _⟩ => show win3_0.index t (0 : Fin 2) * 2000 + 1 * p.val = j.val; rw [e0, hj]; omega
  | ⟨1, _⟩ => show win3_0.index t (1 : Fin 2) * 256 + 1 * k.val = k.val; rw [e1]; omega

/-- The matrix block at every point is the whole matrix. -/
theorem iblk3_1_apply (c : Dev nD) (t : Fin cfg3.N) (k : Fin 256) (q Q : Fin 128) (hQ : Q.val = q.val) :
    iblk3 (F := Ideal) V c 1 t (ix2 k q) = V c main_v97 (ix2 k Q) := by
  obtain ⟨-, -, e2, e3, -⟩ := idx_facts3 t
  unfold iblk3
  rw [View.read_apply]
  show V c main_v97 _ = V c main_v97 _
  congr 1
  funext a
  apply Fin.ext
  match a with
  | ⟨0, _⟩ => show win3_1.index t (0 : Fin 2) * 256 + 1 * k.val = k.val; rw [e2]; omega
  | ⟨1, _⟩ => show win3_1.index t (1 : Fin 2) * 128 + 1 * q.val = Q.val; rw [e3, hQ]; omega

/-- The bias block at every point is the whole bias row. -/
theorem iblk3_2_apply (c : Dev nD) (t : Fin cfg3.N) (q Q : Fin 128) (hQ : Q.val = q.val) :
    iblk3 (F := Ideal) V c 2 t (ix2 (0 : Fin 1) q) = V c main_v98 (ix2 (0 : Fin 1) Q) := by
  obtain ⟨-, -, -, -, e4, e5, -⟩ := idx_facts3 t
  unfold iblk3
  rw [View.read_apply]
  show V c main_v98 _ = V c main_v98 _
  congr 1
  funext a
  apply Fin.ext
  match a with
  | ⟨0, _⟩ => show win3_2.index t (0 : Fin 2) * 1 + 1 * 0 = 0; rw [e4]
  | ⟨1, _⟩ => show win3_2.index t (1 : Fin 2) * 128 + 1 * q.val = Q.val; rw [e5, hQ]; omega

/-- What the body leaves at an entry of the output block of point `t` is `G3` at that entry's place in the array. -/
theorem block3_apply (c : Dev nD) (t : Fin cfg3.N) (y : S2000x128.Idx) :
    k3_pay1 (iblk3 (F := Ideal) V c 0 t) (iblk3 V c 1 t) (iblk3 V c 2 t) y
      = G3 (V c main_v96) (V c main_v97) (V c main_v98) (((cfg3.win 3).blk t).view.emb y) := by
  obtain ⟨p, q, rfl⟩ : ∃ (p : Fin 2000) (q : Fin 128), y = ix2 p q := ⟨y 0, y 1, eq_ix2 y⟩
  obtain ⟨-, -, -, -, -, -, e6, e7⟩ := idx_facts3 t
  have hr : ((((cfg3.win 3).blk t).view.emb (ix2 p q)) 0).val = 2000 * t.val + p.val := by
    show win3_3.index t (0 : Fin 2) * 2000 + 1 * p.val = _
    rw [e6]; omega
  have hc : ((((cfg3.win 3).blk t).view.emb (ix2 p q)) 1).val = q.val := by
    show win3_3.index t (1 : Fin 2) * 128 + 1 * q.val = _
    rw [e7]; omega
  refine (pay3_apply _ _ _ p q).trans ?_
  unfold G3
  refine congrArg₂ (· + ·) (Finset.sum_congr rfl fun k _ => congrArg₂ (· * ·)
    (iblk3_0_apply V c t p k _ hr) (iblk3_1_apply V c t k q _ hc)) (iblk3_2_apply V c t q _ hc)

/-- What point `t` writes back is block `t` of `G3` of the arrays as the region finds them. -/
theorem flushed3_eq (c : Dev nD) (t : Fin cfg3.N) :
    (dat3 (F := Ideal) V c).flushed 3 t
      = ((cfg3.win 3).blk t).view.read (Elt Ideal) (G3 (V c main_v96) (V c main_v97) (V c main_v98)) := by
  show (cfg3.win 3).cut (grid3.coords t) ((dat3 V c).after 3 t) = _
  rw [after3_3]
  unfold out3_3
  rw [View.canon_unit_zero hz3]
  simp only [View.ld_unit_zero (S := S2000x256) hz3, View.ld_unit_zero (S := S256x128) hz3, View.ld_unit_zero (S := S1x128) hz3]
  funext y
  exact block3_apply V c t y

/-- An index of the output array is in point `t`'s block iff each coordinate is in the block's range on its axis. -/
theorem mem_blk3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v99).slice (win3_3.rect t)).set ↔ _
  rw [View.set_slice_whole, Rect.mem_set_unit]
  exact Iff.rfl

/-- Every index of the output array is in the block of the point `row / 2000`. -/
theorem cover3 (i : S50000x128.Idx) :
    ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  have ht : (i 0).val / 2000 < cfg3.N := by rw [hN]; omega
  refine ⟨⟨(i 0).val / 2000, ht⟩, flush3_3 _, ?_⟩
  obtain ⟨-, -, -, -, -, -, e6, e7⟩ := idx_facts3 ⟨(i 0).val / 2000, ht⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e7]
    omega

/-- The output array after the region is `G3` of the arrays as the region finds them. -/
theorem arr3_all (c : Dev nD) :
    (dat3 (F := Ideal) V c).arrAt 3 cfg3.N = G3 (V c main_v96) (V c main_v97) (V c main_v98) :=
  (dat3 V c).arrAt_eq_of_cover 3 (G3 (V c main_v96) (V c main_v97) (V c main_v98)) (fun t _ => flushed3_eq V c t) cover3

/-- The output array after the region, entry by entry. -/
theorem arr3 (c : Dev nD) (a : S50000x256.Idx → EReal) (w : S256x128.Idx → EReal) (b : S1x128.Idx → EReal)
    (ha : V c main_v96 = a) (hw : V c main_v97 = w) (hb : V c main_v98 = b) (j : Fin 50000) (q : Fin 128) :
    (dat3 (F := Ideal) V c).arrAt 3 cfg3.N (ix2 j q)
      = (∑ k : Fin 256, a (ix2 j k) * w (ix2 k q)) + b (ix2 (0 : Fin 1) q) := by
  subst ha hw hb
  exact congrFun (arr3_all V c) (ix2 j q)

end Cert.KernelIdeal.KVal
end
-- ==== Proof.KRegion4.lean ====
/-
  Region 4: a dense layer over the 50000 rows, 2000 rows at a time.

  The grid has 25 points. At point `t` the body reads rows `2000 t … 2000 t + 1999` of the input array, the whole
  weight matrix and the whole bias row, and leaves in the output block the product of its rows with the matrix plus the
  bias row. The output block of point `t` is written back to rows `2000 t … 2000 t + 1999` of
  the output array, and the 25 blocks cover the array, so after the region entry `(j, q)` of the output array is
  (∑ k, a (j, k) · w (k, q)) + b (0, q) of the arrays `a`, `w`, `b` the region finds.
-/
import proofs.«152770_j22333829939968_2_alg».proof.Proof.Gen.KernelIdeal.Frame
import proofs.«152770_j22333829939968_2_alg».proof.Proof.KDense
import proofs.«152770_j22333829939968_2_alg».proof.Proof.Spec
import Idealize.ShloMosaic.Lib.Pipeline.Value

set_option maxRecDepth 16384

noncomputable section

open scoped BigOperators

namespace Cert.KernelIdeal.KVal

open Cert.KernelIdeal Cert.KernelIdeal.Gen Cert.GcnSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The zero offset. -/
theorem hz4 : (![0, 0] : Fin 2 → Nat) = fun _ => 0 := funext fun a => by fin_cases a <;> rfl

/-- The body's value at an entry of its block of rows: the product with the matrix plus the bias row. -/
theorem pay4_apply (x0 : Vec Ideal S2000x256 .f32) (x1 : Vec Ideal S256x128 .bf16) (x2 : Vec Ideal S1x128 .f32)
    (p : Fin 2000) (q : Fin 128) :
    k4_pay1 x0 x1 x2 (ix2 p q) = (∑ k : Fin 256, x0 (ix2 p k) * x1 (ix2 k q)) + x2 (ix2 (0 : Fin 1) q) := by
  unfold k4_pay1
  exact Cert.KDense.affine_apply _ rfl x0 x1 x2 _ _ _ _ _ p q

/-- The dense layer of the whole array: row `j` of `a` times `w`, plus the row `b`. -/
def G4 (a : S50000x256.Idx → EReal) (w : S256x128.Idx → EReal) (b : S1x128.Idx → EReal) : S50000x128.Idx → EReal :=
  fun i => (∑ k : Fin 256, a (ix2 (⟨(i 0).val, (i 0).isLt⟩ : Fin 50000) k) * w (ix2 k (⟨(i 1).val, (i 1).isLt⟩ : Fin 128)))
    + b (ix2 (0 : Fin 1) (⟨(i 1).val, (i 1).isLt⟩ : Fin 128))

/-- The block indices at grid point `t`: the input rows and the output rows move with `t`, the matrix and the bias
    row stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input block at point `t` is rows `2000 t … 2000 t + 1999` of the input array. -/
theorem iblk4_0_apply (c : Dev nD) (t : Fin cfg4.N) (p : Fin 2000) (k : Fin 256) (j : Fin 50000)
    (hj : j.val = 2000 * t.val + p.val) :
    iblk4 (F := Ideal) V c 0 t (ix2 p k) = V c main_v115 (ix2 j k) := by
  obtain ⟨e0, e1, -⟩ := idx_facts4 t
  unfold iblk4
  rw [View.read_apply]
  show V c main_v115 _ = V c main_v115 _
  congr 1
  funext a
  apply Fin.ext
  match a with
  | ⟨0, _⟩ => show win4_0.index t (0 : Fin 2) * 2000 + 1 * p.val = j.val; rw [e0, hj]; omega
  | ⟨1, _⟩ => show win4_0.index t (1 : Fin 2) * 256 + 1 * k.val = k.val; rw [e1]; omega

/-- The matrix block at every point is the whole matrix. -/
theorem iblk4_1_apply (c : Dev nD) (t : Fin cfg4.N) (k : Fin 256) (q Q : Fin 128) (hQ : Q.val = q.val) :
    iblk4 (F := Ideal) V c 1 t (ix2 k q) = V c main_v116 (ix2 k Q) := by
  obtain ⟨-, -, e2, e3, -⟩ := idx_facts4 t
  unfold iblk4
  rw [View.read_apply]
  show V c main_v116 _ = V c main_v116 _
  congr 1
  funext a
  apply Fin.ext
  match a with
  | ⟨0, _⟩ => show win4_1.index t (0 : Fin 2) * 256 + 1 * k.val = k.val; rw [e2]; omega
  | ⟨1, _⟩ => show win4_1.index t (1 : Fin 2) * 128 + 1 * q.val = Q.val; rw [e3, hQ]; omega

/-- The bias block at every point is the whole bias row. -/
theorem iblk4_2_apply (c : Dev nD) (t : Fin cfg4.N) (q Q : Fin 128) (hQ : Q.val = q.val) :
    iblk4 (F := Ideal) V c 2 t (ix2 (0 : Fin 1) q) = V c main_v117 (ix2 (0 : Fin 1) Q) := by
  obtain ⟨-, -, -, -, e4, e5, -⟩ := idx_facts4 t
  unfold iblk4
  rw [View.read_apply]
  show V c main_v117 _ = V c main_v117 _
  congr 1
  funext a
  apply Fin.ext
  match a with
  | ⟨0, _⟩ => show win4_2.index t (0 : Fin 2) * 1 + 1 * 0 = 0; rw [e4]
  | ⟨1, _⟩ => show win4_2.index t (1 : Fin 2) * 128 + 1 * q.val = Q.val; rw [e5, hQ]; omega

/-- What the body leaves at an entry of the output block of point `t` is `G4` at that entry's place in the array. -/
theorem block4_apply (c : Dev nD) (t : Fin cfg4.N) (y : S2000x128.Idx) :
    k4_pay1 (iblk4 (F := Ideal) V c 0 t) (iblk4 V c 1 t) (iblk4 V c 2 t) y
      = G4 (V c main_v115) (V c main_v116) (V c main_v117) (((cfg4.win 3).blk t).view.emb y) := by
  obtain ⟨p, q, rfl⟩ : ∃ (p : Fin 2000) (q : Fin 128), y = ix2 p q := ⟨y 0, y 1, eq_ix2 y⟩
  obtain ⟨-, -, -, -, -, -, e6, e7⟩ := idx_facts4 t
  have hr : ((((cfg4.win 3).blk t).view.emb (ix2 p q)) 0).val = 2000 * t.val + p.val := by
    show win4_3.index t (0 : Fin 2) * 2000 + 1 * p.val = _
    rw [e6]; omega
  have hc : ((((cfg4.win 3).blk t).view.emb (ix2 p q)) 1).val = q.val := by
    show win4_3.index t (1 : Fin 2) * 128 + 1 * q.val = _
    rw [e7]; omega
  refine (pay4_apply _ _ _ p q).trans ?_
  unfold G4
  refine congrArg₂ (· + ·) (Finset.sum_congr rfl fun k _ => congrArg₂ (· * ·)
    (iblk4_0_apply V c t p k _ hr) (iblk4_1_apply V c t k q _ hc)) (iblk4_2_apply V c t q _ hc)

/-- What point `t` writes back is block `t` of `G4` of the arrays as the region finds them. -/
theorem flushed4_eq (c : Dev nD) (t : Fin cfg4.N) :
    (dat4 (F := Ideal) V c).flushed 3 t
      = ((cfg4.win 3).blk t).view.read (Elt Ideal) (G4 (V c main_v115) (V c main_v116) (V c main_v117)) := by
  show (cfg4.win 3).cut (grid4.coords t) ((dat4 V c).after 3 t) = _
  rw [after4_3]
  unfold out4_3
  rw [View.canon_unit_zero hz4]
  simp only [View.ld_unit_zero (S := S2000x256) hz4, View.ld_unit_zero (S := S256x128) hz4, View.ld_unit_zero (S := S1x128) hz4]
  funext y
  exact block4_apply V c t y

/-- An index of the output array is in point `t`'s block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v118).slice (win4_3.rect t)).set ↔ _
  rw [View.set_slice_whole, Rect.mem_set_unit]
  exact Iff.rfl

/-- Every index of the output array is in the block of the point `row / 2000`. -/
theorem cover4 (i : S50000x128.Idx) :
    ∃ t : Fin cfg4.N, (cfg4.win 3).flush t = true ∧ i ∈ ((cfg4.win 3).blk t).view.set := by
  have hN : cfg4.N = 25 := N_4
  have hi0 : (i 0).val < 50000 := (i 0).isLt
  have hi1 : (i 1).val < 128 := (i 1).isLt
  have ht : (i 0).val / 2000 < cfg4.N := by rw [hN]; omega
  refine ⟨⟨(i 0).val / 2000, ht⟩, flush4_3 _, ?_⟩
  obtain ⟨-, -, -, -, -, -, e6, e7⟩ := idx_facts4 ⟨(i 0).val / 2000, ht⟩
  rw [mem_blk4]
  intro a
  match a with
  | ⟨0, _⟩ =>
    show win4_3.index ⟨(i 0).val / 2000, ht⟩ (0 : Fin 2) * 2000 ≤ (i 0).val
      ∧ (i 0).val < win4_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win4_3.index ⟨(i 0).val / 2000, ht⟩ (1 : Fin 2) * 128 ≤ (i 1).val
      ∧ (i 1).val < win4_3.index ⟨(i 0).val / 2000, ht⟩ (1 : Fin 2) * 128 + 128
    rw [e7]
    omega

/-- The output array after the region is `G4` of the arrays as the region finds them. -/
theorem arr4_all (c : Dev nD) :
    (dat4 (F := Ideal) V c).arrAt 3 cfg4.N = G4 (V c main_v115) (V c main_v116) (V c main_v117) :=
  (dat4 V c).arrAt_eq_of_cover 3 (G4 (V c main_v115) (V c main_v116) (V c main_v117)) (fun t _ => flushed4_eq V c t) cover4

/-- The output array after the region, entry by entry. -/
theorem arr4 (c : Dev nD) (a : S50000x256.Idx → EReal) (w : S256x128.Idx → EReal) (b : S1x128.Idx → EReal)
    (ha : V c main_v115 = a) (hw : V c main_v116 = w) (hb : V c main_v117 = b) (j : Fin 50000) (q : Fin 128) :
    (dat4 (F := Ideal) V c).arrAt 3 cfg4.N (ix2 j q)
      = (∑ k : Fin 256, a (ix2 j k) * w (ix2 k q)) + b (ix2 (0 : Fin 1) q) := by
  subst ha hw hb
  exact congrFun (arr4_all V c) (ix2 j q)

end Cert.KernelIdeal.KVal
end
-- ==== Proof.LibSideBySide.lean ====
/-
  Two arrays laid side by side, and a vector seen as a one-row matrix, read by coordinates.

  Concatenating two arrays along an axis keeps every other coordinate; along the joined axis a position below the first
  piece's extent reads the first piece at that position, and a position at or past it reads the second piece at the
  position less that extent. Stated here for two matrices with the same number of rows joined along the columns, and for
  two vectors, for any extents. The last lemma reads a vector reshaped to a matrix of one row: entry (0, q) is entry q,
  both having row-major position q.
-/
import Idealize.ShloMosaic.Lib.Pipeline.Value
import Idealize.ShloMosaic.Lib.ValueIdx

namespace Cert.LibSideBySide

open Idealize.ShloMosaic Idealize.ShloMosaic.ValueIdx

variable {α : Type}

/-- Two matrices joined along the columns, at a column inside the first: the first matrix at that column. -/
theorem cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₁) (col : Fin n)
    (hc : col.val = q.val) :
    concatenate ⟨2, ![a, n]⟩ 1 [⟨⟨2, ![a, b₁]⟩, x₁⟩, ⟨⟨2, ![a, b₂]⟩, x₂⟩] h (ix2 k col) = x₁ (ix2 k q) :=
  concatenate_pair_apply_left (1 : Fin 2) x₁ x₂ h (ix2 k col) rfl (ix2 k q) fun b => by
    match b with
    | ⟨0, _⟩ => rfl
    | ⟨1, _⟩ => exact hc.symm

/-- Two matrices joined along the columns, at a column past the first: the second matrix at the column less the first
    matrix's width. -/
theorem cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₂) (col : Fin n)
    (hc : col.val = b₁ + q.val) :
    concatenate ⟨2, ![a, n]⟩ 1 [⟨⟨2, ![a, b₁]⟩, x₁⟩, ⟨⟨2, ![a, b₂]⟩, x₂⟩] h (ix2 k col) = x₂ (ix2 k q) :=
  concatenate_pair_apply_right (1 : Fin 2) x₁ x₂ h (ix2 k col) rfl rfl (ix2 k q)
    (fun b hb => by
      match b, hb with
      | ⟨0, _⟩, _ => rfl
      | ⟨1, _⟩, hb => exact absurd rfl hb)
    (by show q.val + b₁ = col.val; omega)

/-- Two vectors joined, at a position inside the first: the first vector at that position. -/
theorem vec_left {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₁) (pos : Fin n) (hc : pos.val = q.val) :
    concatenate ⟨1, ![n]⟩ 0 [⟨⟨1, ![b₁]⟩, x₁⟩, ⟨⟨1, ![b₂]⟩, x₂⟩] h (ix1 pos) = x₁ (ix1 q) :=
  concatenate_pair_apply_left (0 : Fin 1) x₁ x₂ h (ix1 pos) rfl (ix1 q) fun b => by
    match b with
    | ⟨0, _⟩ => exact hc.symm

/-- Two vectors joined, at a position past the first: the second vector at the position less the first's length. -/
theorem vec_right {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₂) (pos : Fin n) (hc : pos.val = b₁ + q.val) :
    concatenate ⟨1, ![n]⟩ 0 [⟨⟨1, ![b₁]⟩, x₁⟩, ⟨⟨1, ![b₂]⟩, x₂⟩] h (ix1 pos) = x₂ (ix1 q) :=
  concatenate_pair_apply_right (0 : Fin 1) x₁ x₂ h (ix1 pos) rfl rfl (ix1 q)
    (fun b hb => by
      match b, hb with
      | ⟨0, _⟩, hb => exact absurd rfl hb)
    (by show q.val + b₁ = pos.val; omega)

/-- A vector reshaped to a matrix of one row reads, at (0, q), the vector at q. -/
theorem row_apply {n : ℕ} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_one, Shape.rowMajor_val_two]
    show q.val = (0 : Fin 1).val * n + q.val
    simp)

end Cert.LibSideBySide
-- ==== Proof.KNet.lean ====
/-
  The kernel's two results as the three-layer network `kNet`.

  Region by region: the array a region reads is the aggregation (by the host stretch before it) of the previous layer's
  output, its matrix the layer's weights and its row the layer's bias, so the array it writes is a layer of the
  specification applied to the previous layer's table (`relu` of it for a hidden layer). The first region computes both
  branches' first layers at once, side by side in 512 columns; the left half feeds the first branch and the right half
  the second. Composing three layers per branch gives `kNet` of the branch's six parameter arrays.
-/
import proofs.«152770_j22333829939968_2_alg».proof.Proof.KKeep
import proofs.«152770_j22333829939968_2_alg».proof.Proof.KLayer
import proofs.«152770_j22333829939968_2_alg».proof.Proof.KRegion0
import proofs.«152770_j22333829939968_2_alg».proof.Proof.KRegion1
import proofs.«152770_j22333829939968_2_alg».proof.Proof.KRegion2
import proofs.«152770_j22333829939968_2_alg».proof.Proof.KRegion3
import proofs.«152770_j22333829939968_2_alg».proof.Proof.KRegion4
import proofs.«152770_j22333829939968_2_alg».proof.Proof.LibSideBySide
import Idealize.ShloMosaic.Lib.ValueLayout

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.GcnSpec

/-- A layer's matrix rounded to the matrix unit's format and its bias laid as a row are, entry by entry, the arguments. -/
theorem layer_form {C : ℕ} (hin : FVec Ideal S50000x256 .f32) (dv : FVec Ideal S50000 .f32) (v5 v6 : IVec S450000 32)
    (xw : FVec Ideal ⟨2, ![256, C]⟩ .f32) (xb : FVec Ideal ⟨1, ![C]⟩ .f32) (hbl : FTy.bf16.bits < FTy.f32.bits)
    (hsc : (⟨1, ![C]⟩ : Shape).ShapeCasts ⟨2, ![1, C]⟩) (j : Fin 50000) (q : Fin C) :
    (∑ k : Fin 256, agg hin dv v5 v6 (ix2 j k) * (truncf .bf16 xw hbl : FVec Ideal ⟨2, ![256, C]⟩ .bf16) (ix2 k q))
        + shapeCast ⟨2, ![1, C]⟩ xb hsc (ix2 (0 : Fin 1) q)
      = kLayer (dK dv) (srcK v5) (tgtK v6) (fun j k => hin (ix2 j k)) (fun k q => xw (ix2 k q)) (fun q => xb (ix1 q)) j q := by
  rw [dense_agg]
  exact kLayer_col_congr _ _ _ _ _ _ _ _ q q (fun k => rfl) (shapeCast_a_1a_apply xb hsc 0 q) j

variable (m : (ℓ : Loc nD τ sig) → Buf (Elt Ideal) ℓ) (ρ : Dev nD → PrngReg) (c : Dev nD)

/-- The node weights, source nodes and targets of the launch's edge list. -/
abbrev dX : Fin 50000 → EReal := dK (dinvT (m ((c : Thread nD τ).loc main_arg1)))
abbrev sX : Fin 450000 → Fin 50000 := srcK (rowT (m ((c : Thread nD τ).loc main_arg1)))
abbrev tX : Fin 450000 → ℤ := tgtK (colT (m ((c : Thread nD τ).loc main_arg1)))
/-- The input features as a table. -/
abbrev X0 : Fin 50000 → Fin 256 → EReal := fun j k => (m ((c : Thread nD τ).loc main_arg0) : S50000x256.Idx → EReal) (ix2 j k)
/-- A matrix argument and a vector argument as tables. -/
abbrev Wt {K C : ℕ} (x : (⟨2, ![K, C]⟩ : Shape).Idx → EReal) : Fin K → Fin C → EReal := fun k q => x (ix2 k q)
abbrev Bt {C : ℕ} (x : (⟨1, ![C]⟩ : Shape).Idx → EReal) : Fin C → EReal := fun q => x (ix1 q)

/-! ## Region 0: both first layers, side by side -/

/-- The first region's output at `(j, q)`: `relu` of the layer over the two matrices side by side. -/
theorem out0 (j : Fin 50000) (q : Fin 512) :
    (W4 m ρ c (Proc.devRef .tc main_v40) : S50000x512.Idx → EReal) (ix2 j q)
      = relu (kLayer (dX m c) (sX m c) (tX m c) (X0 m c)
          (fun k q => (concatenate S256x512 1 [⟨S256x256, m ((c : Thread nD τ).loc main_arg2)⟩, ⟨S256x256, m ((c : Thread nD τ).loc main_arg8)⟩]
            concatenates_S256x256_S256x256_S256x512_d1 : S256x512.Idx → EReal) (ix2 k q))
          (fun q => (concatenate S512 0 [⟨S256, m ((c : Thread nD τ).loc main_arg3)⟩, ⟨S256, m ((c : Thread nD τ).loc main_arg9)⟩]
            concatenates_S256_S256_S512_d0 : S512.Idx → EReal) (ix1 q)) j q) := by
  refine (congrFun (W4_arr m ρ c 3) (ix2 j q)).trans ?_
  refine (arr0 (V3 m ρ) c _ _ _ (w3_v35 m ρ c) (w3_v37 m ρ c) (w3_v39 m ρ c) j q).trans ?_
  exact congrArg relu (layer_form _ _ _ _ _ _ _ _ j q)

/-- Its left half is the first branch's first layer … -/
theorem out0_left (j : Fin 50000) (k : Fin 256) :
    (W4 m ρ c (Proc.devRef .tc main_v40) : S50000x512.Idx → EReal) (ix2 j ⟨k.val, by omega⟩)
      = relu (kLayer (dX m c) (sX m c) (tX m c) (X0 m c) (Wt (m ((c : Thread nD τ).loc main_arg2)))
          (Bt (m ((c : Thread nD τ).loc main_arg3))) j k) := by
  rw [out0]
  refine congrArg relu (kLayer_col_congr _ _ _ _ _ _ _ _ _ k (fun k0 => ?_) ?_ j)
  · exact Cert.LibSideBySide.cols_left _ _ concatenates_S256x256_S256x256_S256x512_d1 k0 k _ rfl
  · exact Cert.LibSideBySide.vec_left _ _ concatenates_S256_S256_S512_d0 k _ rfl

/-- … and its right half the second branch's. -/
theorem out0_right (j : Fin 50000) (k : Fin 256) :
    (W4 m ρ c (Proc.devRef .tc main_v40) : S50000x512.Idx → EReal) (ix2 j ⟨256 + k.val, by omega⟩)
      = relu (kLayer (dX m c) (sX m c) (tX m c) (X0 m c) (Wt (m ((c : Thread nD τ).loc main_arg8)))
          (Bt (m ((c : Thread nD τ).loc main_arg9))) j k) := by
  rw [out0]
  refine congrArg relu (kLayer_col_congr _ _ _ _ _ _ _ _ _ k (fun k0 => ?_) ?_ j)
  · exact Cert.LibSideBySide.cols_right _ _ concatenates_S256x256_S256x256_S256x512_d1 k0 k _ rfl
  · exact Cert.LibSideBySide.vec_right _ _ concatenates_S256_S256_S512_d0 k _ rfl

/-- The first branch's hidden table after layer 1, and the second branch's. -/
abbrev h1mu : Fin 50000 → Fin 256 → EReal := fun j k =>
  relu (kLayer (dX m c) (sX m c) (tX m c) (X0 m c) (Wt (m ((c : Thread nD τ).loc main_arg2))) (Bt (m ((c : Thread nD τ).loc main_arg3))) j k)
abbrev h1var : Fin 50000 → Fin 256 → EReal := fun j k =>
  relu (kLayer (dX m c) (sX m c) (tX m c) (X0 m c) (Wt (m ((c : Thread nD τ).loc main_arg8))) (Bt (m ((c : Thread nD τ).loc main_arg9))) j k)

/-! ## Regions 1 and 3: the first branch -/

theorem in1 : @Eq (FVec Ideal S50000x256 .f32) (W5 m ρ c (Proc.devRef .tc main_v58))
    (agg (extractStridedSlice S50000x256 ![0, 0] (W4 m ρ c (Proc.devRef .tc main_v40)) slices_S50000x512_S50000x256_0_0)
      (dinvT (m ((c : Thread nD τ).loc main_arg1))) (rowT (m ((c : Thread nD τ).loc main_arg1)))
      (colT (m ((c : Thread nD τ).loc main_arg1)))) := by
  refine (s1_v58 (W4 m ρ c)).trans ?_
  rw [w4_v19 m ρ c, w4_v5 m ρ c, w4_v6 m ρ c]

theorem out1 (j : Fin 50000) (q : Fin 256) :
    (W6 m ρ c (Proc.devRef .tc main_v61) : S50000x256.Idx → EReal) (ix2 j q)
      = relu (kLayer (dX m c) (sX m c) (tX m c) (h1mu m c) (Wt (m ((c : Thread nD τ).loc main_arg4)))
          (Bt (m ((c : Thread nD τ).loc main_arg5))) j q) := by
  refine (congrFun (W6_arr m ρ c 3) (ix2 j q)).trans ?_
  refine (arr1 (V5 m ρ) c _ _ _ (in1 m ρ c) ((s1_v59 (W4 m ρ c)).trans (by rw [w4_a4 m ρ c]))
    ((s1_v60 (W4 m ρ c)).trans (by rw [w4_a5 m ρ c])) j q).trans ?_
  refine congrArg relu ((layer_form _ _ _ _ _ _ _ _ j q).trans ?_)
  refine congrArg (fun h => kLayer (dX m c) (sX m c) (tX m c) h _ _ j q) (funext fun j' => funext fun k => ?_)
  exact (slice2_axis1_apply 0 _ slices_S50000x512_S50000x256_0_0 j' k ⟨k.val, by omega⟩ (by simp)).trans (out0_left m ρ c j' k)

theorem keep61 : W8 m ρ c (Proc.devRef .tc main_v61) = W6 m ρ c (Proc.devRef .tc main_v61) :=
  (W8_of_ne m ρ c main_v61 (by decide)).trans (s2_v61 (W6 m ρ c))

theorem in3 : @Eq (FVec Ideal S50000x256 .f32) (W9 m ρ c (Proc.devRef .tc main_v96))
    (agg (W6 m ρ c (Proc.devRef .tc main_v61)) (dinvT (m ((c : Thread nD τ).loc main_arg1)))
      (rowT (m ((c : Thread nD τ).loc main_arg1))) (colT (m ((c : Thread nD τ).loc main_arg1)))) := by
  refine (s3_v96 (W8 m ρ c)).trans ?_
  rw [w8_v19 m ρ c, w8_v5 m ρ c, w8_v6 m ρ c, keep61 m ρ c]

theorem out3 (j : Fin 50000) (q : Fin 128) :
    (W10 m ρ c (Proc.devRef .tc main_v99) : S50000x128.Idx → EReal) (ix2 j q)
      = kNet (dX m c) (sX m c) (tX m c) (X0 m c) (Wt (m ((c : Thread nD τ).loc main_arg2))) (Bt (m ((c : Thread nD τ).loc main_arg3)))
          (Wt (m ((c : Thread nD τ).loc main_arg4))) (Bt (m ((c : Thread nD τ).loc main_arg5)))
          (Wt (m ((c : Thread nD τ).loc main_arg6))) (Bt (m ((c : Thread nD τ).loc main_arg7))) j q := by
  refine (congrFun (W10_arr m ρ c 3) (ix2 j q)).trans ?_
  refine (arr3 (V9 m ρ) c _ _ _ (in3 m ρ c) ((s3_v97 (W8 m ρ c)).trans (by rw [w8_a6 m ρ c]))
    ((s3_v98 (W8 m ρ c)).trans (by rw [w8_a7 m ρ c])) j q).trans ?_
  refine (layer_form _ _ _ _ _ _ _ _ j q).trans ?_
  unfold kNet
  refine congrArg (fun h => kLayer (dX m c) (sX m c) (tX m c) h _ _ j q) (funext fun j' => funext fun k => ?_)
  exact out1 m ρ c j' k

/-- THE FIRST RESULT after the whole run. -/
theorem res_mu (j : Fin 50000) (q : Fin 128) :
    (W12 m ρ c (Proc.devRef .tc main_v99) : S50000x128.Idx → EReal) (ix2 j q)
      = kNet (dX m c) (sX m c) (tX m c) (X0 m c) (Wt (m ((c : Thread nD τ).loc main_arg2))) (Bt (m ((c : Thread nD τ).loc main_arg3)))
          (Wt (m ((c : Thread nD τ).loc main_arg4))) (Bt (m ((c : Thread nD τ).loc main_arg5)))
          (Wt (m ((c : Thread nD τ).loc main_arg6))) (Bt (m ((c : Thread nD τ).loc main_arg7))) j q := by
  have e : W12 m ρ c (Proc.devRef .tc main_v99) = W10 m ρ c (Proc.devRef .tc main_v99) :=
    (W12_of_ne m ρ c main_v99 (by decide)).trans (s4_v99 (W10 m ρ c))
  rw [e]
  exact out3 m ρ c j q

/-! ## Regions 2 and 4: the second branch -/

theorem keep42 : @Eq (FVec Ideal S50000x256 .f32) (W6 m ρ c (Proc.devRef .tc main_v42))
    (extractStridedSlice S50000x256 ![0, 256] (W4 m ρ c (Proc.devRef .tc main_v40)) slices_S50000x512_S50000x256_0_256) :=
  (W6_of_ne m ρ c main_v42 (by decide)).trans (s1_v42 (W4 m ρ c))

theorem in2 : @Eq (FVec Ideal S50000x256 .f32) (W7 m ρ c (Proc.devRef .tc main_v77))
    (agg (extractStridedSlice S50000x256 ![0, 256] (W4 m ρ c (Proc.devRef .tc main_v40)) slices_S50000x512_S50000x256_0_256)
      (dinvT (m ((c : Thread nD τ).loc main_arg1))) (rowT (m ((c : Thread nD τ).loc main_arg1)))
      (colT (m ((c : Thread nD τ).loc main_arg1)))) := by
  refine (s2_v77 (W6 m ρ c)).trans ?_
  rw [w6_v19 m ρ c, w6_v5 m ρ c, w6_v6 m ρ c, keep42 m ρ c]

theorem out2 (j : Fin 50000) (q : Fin 256) :
    (W8 m ρ c (Proc.devRef .tc main_v80) : S50000x256.Idx → EReal) (ix2 j q)
      = relu (kLayer (dX m c) (sX m c) (tX m c) (h1var m c) (Wt (m ((c : Thread nD τ).loc main_arg10)))
          (Bt (m ((c : Thread nD τ).loc main_arg11))) j q) := by
  refine (congrFun (W8_arr m ρ c 3) (ix2 j q)).trans ?_
  refine (arr2 (V7 m ρ) c _ _ _ (in2 m ρ c) ((s2_v78 (W6 m ρ c)).trans (by rw [w6_a10 m ρ c]))
    ((s2_v79 (W6 m ρ c)).trans (by rw [w6_a11 m ρ c])) j q).trans ?_
  refine congrArg relu ((layer_form _ _ _ _ _ _ _ _ j q).trans ?_)
  refine congrArg (fun h => kLayer (dX m c) (sX m c) (tX m c) h _ _ j q) (funext fun j' => funext fun k => ?_)
  exact (slice2_axis1_apply 256 _ slices_S50000x512_S50000x256_0_256 j' k ⟨256 + k.val, by omega⟩ rfl).trans (out0_right m ρ c j' k)

theorem keep80 : W10 m ρ c (Proc.devRef .tc main_v80) = W8 m ρ c (Proc.devRef .tc main_v80) :=
  (W10_of_ne m ρ c main_v80 (by decide)).trans (s3_v80 (W8 m ρ c))

theorem in4 : @Eq (FVec Ideal S50000x256 .f32) (W11 m ρ c (Proc.devRef .tc main_v115))
    (agg (W8 m ρ c (Proc.devRef .tc main_v80)) (dinvT (m ((c : Thread nD τ).loc main_arg1)))
      (rowT (m ((c : Thread nD τ).loc main_arg1))) (colT (m ((c : Thread nD τ).loc main_arg1)))) := by
  refine (s4_v115 (W10 m ρ c)).trans ?_
  rw [w10_v19 m ρ c, w10_v5 m ρ c, w10_v6 m ρ c, keep80 m ρ c]

/-- THE SECOND RESULT after the whole run. -/
theorem res_var (j : Fin 50000) (q : Fin 128) :
    (W12 m ρ c (Proc.devRef .tc main_v118) : S50000x128.Idx → EReal) (ix2 j q)
      = kNet (dX m c) (sX m c) (tX m c) (X0 m c) (Wt (m ((c : Thread nD τ).loc main_arg8))) (Bt (m ((c : Thread nD τ).loc main_arg9)))
          (Wt (m ((c : Thread nD τ).loc main_arg10))) (Bt (m ((c : Thread nD τ).loc main_arg11)))
          (Wt (m ((c : Thread nD τ).loc main_arg12))) (Bt (m ((c : Thread nD τ).loc main_arg13))) j q := by
  refine (congrFun (W12_arr m ρ c 3) (ix2 j q)).trans ?_
  refine (arr4 (V11 m ρ) c _ _ _ (in4 m ρ c) ((s4_v116 (W10 m ρ c)).trans (by rw [w10_a12 m ρ c]))
    ((s4_v117 (W10 m ρ c)).trans (by rw [w10_a13 m ρ c])) j q).trans ?_
  refine (layer_form _ _ _ _ _ _ _ _ j q).trans ?_
  unfold kNet
  refine congrArg (fun h => kLayer (dX m c) (sX m c) (tX m c) h _ _ j q) (funext fun j' => funext fun k => ?_)
  exact out2 m ρ c j' k

end Cert.KernelIdeal.KVal

end
-- ==== Proof.Finite.lean ====
/-
  Finiteness of the inputs, read back from the precondition.

  The precondition evaluates, for each of the thirteen floating-point arrays, the conjunction over all its entries of
  `|x| < +∞`, and then the conjunction of these thirteen results; it states that the outcome is 1. A conjunction
  of one-bit words is 1 only when every word is 1, so each entry `x` of each array satisfies `max x (-x) < ⊤` on
  the extended reals. Neither `⊤` nor `⊥` does (for both, `max x (-x) = ⊤`), so every entry is a real number.
-/
import proofs.«152770_j22333829939968_2_alg».proof.Pre_finite_inputs
import proofs.«152770_j22333829939968_2_alg».proof.Proof.Spec
import Idealize.ShloMosaic.Lib.ReduceAll
import Idealize.ShloMosaic.Lib.ValueIdx

open Idealize.ShloMosaic
open Idealize.ShloMosaic.ValueIdx
open Cert.Pre_finite_inputs
open Cert.GcnSpec

namespace Cert.Finite

/-- The shape with no axes has one index. -/
instance : Subsingleton S_.Idx := ⟨fun a b => funext fun d => d.elim0⟩

/-- The word `0x7F800000` is the positive infinity. -/
theorem ofBits_inf : Ideal.ofBits .f32 0x7F800000#32 = (⊤ : EReal) := by
  simp [Ideal.ofBits, Ideal.ieee]

/-- An extended real whose absolute value is below the positive infinity is a real number. -/
theorem real_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One `all (|a| < +∞)` that came out 1: every entry of `a` is real. -/
theorem elem_real {s : Shape} (a : FVec Ideal s .f32) (hb : S_.BroadcastsInDim s (![] : Fin 0 → Fin s.rank))
    {axes : List (Fin s.rank)} (hr : s.ReducesTo axes S_) (hu : 0 < S_.numel) (init : IVec S_ 1)
    (e : Host.reduce IntOp.andi (cmpf .olt (Host.absf a) (broadcastInDim s ![] hb (constant S_ .f32 0x7F800000#32)))
          init hr hu ix0 = 1#1) (i : s.Idx) : IsReal (a i) :=
  real_of_abs_lt (a i) (Host.reduce_andi_all _ init hr hu ix0 e i)

/-- A conjunction of two one-bit scalars that is 1 has both 1. -/
theorem andi_split {x y : IVec S_ 1} (h : andi x y ix0 = 1#1) : x ix0 = 1#1 ∧ y ix0 = 1#1 :=
  IntOp.andi_eq_one.1 h

variable [Facts]

/-- The precondition gives the reality of every entry of the thirteen floating-point arrays. -/
theorem of_fn (a0 : FVec Ideal S50000x256 .f32) (a1 : IVec S2x400000 32) (a2 : FVec Ideal S256x256 .f32)
    (a3 : FVec Ideal S256 .f32) (a4 : FVec Ideal S256x256 .f32) (a5 : FVec Ideal S256 .f32)
    (a6 : FVec Ideal S256x128 .f32) (a7 : FVec Ideal S128 .f32) (a8 : FVec Ideal S256x256 .f32)
    (a9 : FVec Ideal S256 .f32) (a10 : FVec Ideal S256x256 .f32) (a11 : FVec Ideal S256 .f32)
    (a12 : FVec Ideal S256x128 .f32) (a13 : FVec Ideal S128 .f32)
    (h : Cert.Pre_finite_inputs.fn (F := Ideal) a0 a1 a2 a3 a4 a5 a6 a7 a8 a9 a10 a11 a12 a13 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i)) := by
  have h0 := congrFun h ix0
  dsimp only [fn, fn_part1, fn_part2, fn_part3] at h0
  obtain ⟨h0, e13⟩ := andi_split h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, e2⟩ := andi_split h0
  exact ⟨elem_real a0 _ _ _ _ e0, elem_real a2 _ _ _ _ e2, elem_real a3 _ _ _ _ e3, elem_real a4 _ _ _ _ e4,
    elem_real a5 _ _ _ _ e5, elem_real a6 _ _ _ _ e6, elem_real a7 _ _ _ _ e7, elem_real a8 _ _ _ _ e8,
    elem_real a9 _ _ _ _ e9, elem_real a10 _ _ _ _ e10, elem_real a11 _ _ _ _ e11, elem_real a12 _ _ _ _ e12,
    elem_real a13 _ _ _ _ e13⟩

end Cert.Finite
-- ==== Proof.LibVecGather.lean ====
/-
  A gather of single entries of a vector, read by coordinates, for any extents.

  An `[n]` vector is gathered at `e` start indices laid out as a column `[e, 1]`: every start index names one entry
  (a slice of size `1`), and the result is the `[e]` vector of the taken entries. In gather's dimension numbers: there
  is no offset axis, the operand's one axis is collapsed and is the axis the start index addresses, there are no
  batching axes, the index vector lies along axis 1 of the start indices, and the slice sizes are `[1]`. For ANY
  extents `n`, `e` (with `n` positive) and any index width, entry `p` of the result is entry `r` of the operand, where
  `r` is start index `p` read as a signed integer and clamped into `[0, n − 1]` (`gather_vec_apply`). A program's
  printed gather record with these lists is `vecDims n e _` by `rfl`.
-/
import Idealize.ShloMosaic.PureOps.ShapeOps
import Idealize.ShloMosaic.PureOps.Dims
import Idealize.ShloMosaic.Lib.ValueIdx

namespace Cert.VecGather

open Idealize.ShloMosaic Idealize.ShloMosaic.ValueIdx

variable {α : Type}

/-- The dimension numbers of a gather of single entries: operand `[n]`, start indices `[e, 1]`, result `[e]`.
    Their side conditions `wf` are decided on a program's literal extents. -/
abbrev vecDims (n e : Nat)
    (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- The entry that start index `p` names: the index read as a signed integer, clamped into `[0, n − 1]`. -/
def entryAt {n e w : Nat} (hn : 0 < n) (idx : IVec ⟨2, ![e, 1]⟩ w) (p : Fin e) : Fin n :=
  ⟨min (idx (ix2 p 0)).toInt.toNat (n - 1), by omega⟩

/-- THE ENTRY GATHER READ AT `p`: the operand's entry that start index `p` names. -/
theorem gather_vec_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e) :
    Host.gather (vecDims n e wf) x idx (ix1 p) = x (ix1 (entryAt hn idx p)) := by
  unfold Host.gather
  congr 1
  funext a
  obtain rfl : a = 0 := Subsingleton.elim _ _
  refine Fin.ext ?_
  show (vecDims n e wf).start (ix1 p) idx 0 + (vecDims n e wf).batchCoord (ix1 p) 0
    + (vecDims n e wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims n e wf).startIndexMap from List.mem_singleton.mpr rfl)]
  have hsi : (vecDims n e wf).siIdx (ix1 p) ⟨List.idxOf (0 : Fin 1) (vecDims n e wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

end Cert.VecGather
-- ==== Proof.RefRead1.lean ====
/-
  The reference program's pieces read as mathematics: the node weights, the three index maps of the edges, and the
  facts about them that do not depend on the features.

  The reference computes, from the integer edge list, a weight per node (the inverse square root of a positive degree,
  zero otherwise), and for every edge a source row (the first endpoint, a negative number counted from the end, read
  clamped into the node range), a second row computed the same way from the second endpoint, and the raw second
  endpoint, which is the node the edge's row is added into. Here: the weight is always a real number, and when the raw
  second endpoint is a node number, the second row is that node.
-/
import proofs.«152770_j22333829939968_2_alg».proof.Proof.RefRead
import proofs.«152770_j22333829939968_2_alg».proof.Proof.Spec
import proofs.«152770_j22333829939968_2_alg».proof.Proof.LibRowGather
import proofs.«152770_j22333829939968_2_alg».proof.Proof.LibVecGather

noncomputable section

open scoped BigOperators

namespace Cert.ReferenceIdeal.RefValue

open Cert.GcnSpec Cert.ReferenceIdeal Cert.ReferenceIdeal.Read Idealize.ShloMosaic Idealize.ShloMosaic.ValueIdx

/-- The weight of node `j`: the reference's normalised inverse square root of the degree. -/
def dW (x1 : (⟨S2x400000, .i32⟩ : BufTy).Contents (Elt Ideal)) : Fin 50000 → EReal :=
  fun j => val_main_v19 (F := Ideal) x1 (ix1 j)

/-- The source node of edge `e`: the first endpoint, counted from the end when negative, clamped into the nodes. -/
def srcW (x1 : (⟨S2x400000, .i32⟩ : BufTy).Contents (Elt Ideal)) : Fin 450000 → Fin 50000 :=
  fun e => Cert.RowGather.rowAt (n := 50000) (by decide) (val_main_v25 (F := Ideal) x1) e

/-- The node whose weight scales edge `e` besides the source's: the second endpoint, read the same way. -/
def dstW (x1 : (⟨S2x400000, .i32⟩ : BufTy).Contents (Elt Ideal)) : Fin 450000 → Fin 50000 :=
  fun e => Cert.RowGather.rowAt (n := 50000) (by decide) (val_main_v32 (F := Ideal) x1) e

/-- The raw second endpoint of edge `e`, a signed integer: the node the edge adds into, if it is a node number. -/
def tgtW (x1 : (⟨S2x400000, .i32⟩ : BufTy).Contents (Elt Ideal)) : Fin 450000 → ℤ :=
  fun e => (val_main_v47 (F := Ideal) x1 (ix2 e 0)).toInt

/-- Whatever the degree `g` is, "the inverse square root of `g` if `g` is positive, else zero" is a real number:
    a positive real has a real inverse square root, and the inverse square root of `+∞` is `0`. -/
theorem isReal_select_rsqrt (g : EReal) :
    IsReal (Scalar.select (Ideal.cmp .ogt g 0) (Ideal.rsqrt g) (0 : EReal)) := by
  show IsReal (if BitVec.ofBool (decide ((0 : EReal) < g)) = 1#1 then Ideal.rsqrt g else 0)
  by_cases h : (0 : EReal) < g
  · have hc : BitVec.ofBool (decide ((0 : EReal) < g)) = 1#1 := by rw [decide_eq_true h]; rfl
    rw [if_pos hc]
    induction g using EReal.rec with
    | bot => exact absurd h (by simp)
    | top => exact ⟨0, by rw [Ideal.rsqrt_top]; exact EReal.coe_zero.symm⟩
    | coe r =>
      have hr : 0 < r := by exact_mod_cast h
      rw [Ideal.rsqrt_coe, if_neg (not_lt.mpr hr.le), if_neg hr.ne']
      exact ⟨_, rfl⟩
  · have hc : ¬ BitVec.ofBool (decide ((0 : EReal) < g)) = 1#1 := by rw [decide_eq_false h]; decide
    rw [if_neg hc]
    exact ⟨0, EReal.coe_zero.symm⟩

/-- Every node weight is a real number. -/
theorem dW_isReal (x1 : (⟨S2x400000, .i32⟩ : BufTy).Contents (Elt Ideal)) (j : Fin 50000) : IsReal (dW x1 j) := by
  unfold dW
  rw [val_main_v19_apply, val_main_v17_apply, val_main_v18_apply, val_main_call0_v1_apply, val_main_call0_v0_apply,
    val_main_cst_3_apply, val_main_v16_apply, val_main_cst_2_apply]
  generalize val_main_v15 (F := Ideal) x1 (ix1 j) = g
  rw [Ideal.ofBits_def, Ideal.ofBits_zero_f32]
  exact isReal_select_rsqrt g

/-- Counting a non-negative endpoint from the end changes nothing. -/
theorem norm_eq_self (cv : BitVec 32) (h : 0 ≤ cv.toInt) :
    Scalar.select (IntOp.cmpi .slt cv 0#32) (IntOp.addi cv 50000#32) cv = cv := by
  have h0 : (0#32 : BitVec 32).toInt = 0 := by decide
  have hc : IntOp.cmpi .slt cv 0#32 = 0#1 := by
    show BitVec.ofBool (cv.slt 0#32) = 0#1
    have : cv.slt 0#32 = false := by
      unfold BitVec.slt; rw [h0]; exact decide_eq_false (not_lt.mpr h)
    rw [this]; rfl
  rw [hc, select_zero]

/-- When the raw second endpoint of an edge is node `j`, the edge's second row is `j`. -/
theorem dst_of_tgt (x1 : (⟨S2x400000, .i32⟩ : BufTy).Contents (Elt Ideal)) (e : Fin 450000) (j : Fin 50000) :
    tgtW x1 e = (j.val : ℤ) → dstW x1 e = j := by
  intro h
  unfold tgtW at h
  rw [val_main_v47_apply] at h
  apply Fin.ext
  show min (val_main_v32 (F := Ideal) x1 (ix2 e 0)).toInt.toNat (50000 - 1) = j.val
  rw [val_main_v32_apply, val_main_v31_apply, val_main_v28_apply, val_main_v30_apply, val_main_v27_apply,
    val_main_c_6_apply, val_main_v29_apply, val_main_c_7_apply]
  have hi : idx_main_v32 (ix2 e 0) = idx_main_v47 (ix2 e 0) := rfl
  rw [hi]
  generalize val_main_v6 (F := Ideal) x1 (idx_main_v47 (ix2 e 0)) = cv at h ⊢
  have hj := j.isLt
  rw [norm_eq_self cv (by omega), h]
  omega

/-- The per-edge scale the reference multiplies a gathered row by: the source's weight times the second row's. -/
theorem nrm_apply (x1 : (⟨S2x400000, .i32⟩ : BufTy).Contents (Elt Ideal)) (r : Fin 450000) :
    val_main_v34 (F := Ideal) x1 (ix1 r) = dW x1 (srcW x1 r) * dW x1 (dstW x1 r) := by
  rw [val_main_v34_apply]
  unfold val_main_v26 val_main_v33
  have hg : gather_S50000_S450000x1_S450000_n_0_n_n_0_1_1
      = Cert.VecGather.vecDims 50000 450000 Facts₀.gather_S50000_S450000x1_S450000_n_0_n_n_0_1_1_wf := rfl
  rw [hg, Cert.VecGather.gather_vec_apply (n := 50000) (by decide), Cert.VecGather.gather_vec_apply (n := 50000) (by decide)]
  rfl

end Cert.ReferenceIdeal.RefValue

end
-- ==== Proof.BridgeIdx.lean ====
/-
  The two programs compute the same index material from the edge list.

  Both programs form, from the edge list, the node weights (the inverse square root of a positive degree, zero
  otherwise), the column of gather start indices of the source vector, and the column of scatter indices of the target
  vector, by the same chain of operations on the same shapes. So the kernel side's node weights, source nodes and
  targets are the reference side's.
-/
import proofs.«152770_j22333829939968_2_alg».proof.Proof.KPre
import proofs.«152770_j22333829939968_2_alg».proof.Proof.KLayer
import proofs.«152770_j22333829939968_2_alg».proof.Proof.RefRead1

noncomputable section

namespace Cert.Bridge

open Idealize.ShloMosaic Idealize.ShloMosaic.ValueIdx
open Cert.KernelIdeal.KVal Cert.ReferenceIdeal.RefValue

/-- The node weights are computed by the same operations in both programs. -/
theorem dinv_eq (x1 : IVec Cert.KernelIdeal.S2x400000 32) :
    @Eq (FVec Ideal Cert.KernelIdeal.S50000 .f32) (dinvT x1) (Cert.ReferenceIdeal.Read.val_main_v19 (F := Ideal) x1) := rfl

/-- The gather start indices of the source vector are computed by the same operations in both programs. -/
theorem rowIdx_eq (x1 : IVec Cert.KernelIdeal.S2x400000 32) :
    @Eq (IVec Cert.KernelIdeal.S450000x1 32) (rowIdx (rowT x1)) (Cert.ReferenceIdeal.Read.val_main_v25 (F := Ideal) x1) := rfl

/-- The scatter indices of the target vector are computed by the same operations in both programs. -/
theorem colIdx_eq (x1 : IVec Cert.KernelIdeal.S2x400000 32) :
    @Eq (IVec Cert.KernelIdeal.S450000x1 32) (colIdx (colT x1)) (Cert.ReferenceIdeal.Read.val_main_v47 (F := Ideal) x1) := rfl

/-- The kernel side's node weights are the reference side's. -/
theorem dK_eq (x1 : IVec Cert.KernelIdeal.S2x400000 32) : dK (dinvT x1) = dW x1 := by
  funext j
  unfold dK dW
  rw [dinv_eq]

/-- The kernel side's source nodes are the reference side's. -/
theorem srcK_eq (x1 : IVec Cert.KernelIdeal.S2x400000 32) : srcK (rowT x1) = srcW x1 := by
  funext e
  unfold srcK srcW
  rw [rowIdx_eq]

/-- The kernel side's targets are the reference side's. -/
theorem tgtK_eq (x1 : IVec Cert.KernelIdeal.S2x400000 32) : tgtK (colT x1) = tgtW x1 := by
  funext e
  unfold tgtK tgtW
  rw [colIdx_eq]

end Cert.Bridge

end
-- ==== Proof.RefLayer.lean ====
/-
  One layer of the reference program read as `rLayer`.

  A layer of the reference is printed as: the features times the weight matrix; a gather of the product's rows at the
  edges' source rows; every gathered row times the edge's scale (broadcast along the row); an accumulating scatter of
  the scaled rows, from the zero matrix, at the edges' raw second endpoints; plus the bias (broadcast down the rows).
  Read at node `j` and feature `c` this is the sum, over the edges whose raw second endpoint is `j`, of the source's
  transformed feature `c` times the edge's scale, plus `b c`: the definition of `rLayer`. Two widths occur, 256
  (the hidden layers) and 128 (the last layer).
-/
import proofs.«152770_j22333829939968_2_alg».proof.Proof.RefRead1
import proofs.«152770_j22333829939968_2_alg».proof.Proof.LibRowScatter
import proofs.«152770_j22333829939968_2_alg».proof.Proof.LibPlainDot

noncomputable section

open scoped BigOperators

namespace Cert.ReferenceIdeal.RefValue

open Cert.GcnSpec Cert.ReferenceIdeal Cert.ReferenceIdeal.Read Idealize.ShloMosaic Idealize.ShloMosaic.ValueIdx

/-- One transform-first layer with 256 output features, as the reference prints it — product with the matrix, rows
    gathered at the edges' sources, scaled edge by edge, added into the edges' targets from zero, bias added — is
    `rLayer` at every node and feature. -/
theorem layer256 (x1 : (⟨S2x400000, .i32⟩ : BufTy).Contents (Elt Ideal)) (h : (⟨S50000x256, .f32⟩ : BufTy).Contents (Elt Ideal)) (W : (⟨S256x256, .f32⟩ : BufTy).Contents (Elt Ideal)) (b : (⟨S256, .f32⟩ : BufTy).Contents (Elt Ideal))
    (j : Fin 50000) (c : Fin 256) :
    addf (F := Ideal) (φ := .f32) (Host.scatterAdd (F := Ideal) (φ := .f32) scatter_S50000x256_S450000x1_S450000x256_1_0_0_1 (val_main_v46 (F := Ideal)) (val_main_v47 (F := Ideal) x1)
        (mulf (F := Ideal) (φ := .f32) (Host.gather gather_S50000x256_S450000x1_S450000x256_1_0_n_n_0_1_1256 (val_main_v35 (F := Ideal) h W) (val_main_v25 (F := Ideal) x1)) (val_main_v44 (F := Ideal) x1)))
      (val_main_v50 (F := Ideal) b) (ix2 j c)
    = rLayer (dW x1) (srcW x1) (dstW x1) (tgtW x1) (fun j k => h (ix2 j k)) (fun k c => W (ix2 k c))
        (fun c => b (ix1 c)) j c := by
  have hs : scatter_S50000x256_S450000x1_S450000x256_1_0_0_1 = Cert.LibRowScatter.rowDims 50000 450000 256 Facts₀.scatter_S50000x256_S450000x1_S450000x256_1_0_0_1_wf := rfl
  have hg : gather_S50000x256_S450000x1_S450000x256_1_0_n_n_0_1_1256 = Cert.RowGather.rowDims 50000 450000 256 Facts₀.gather_S50000x256_S450000x1_S450000x256_1_0_n_n_0_1_1256_wf := rfl
  have key : ∀ r : Fin 450000,
      (mulf (F := Ideal) (φ := .f32) (Host.gather (Cert.RowGather.rowDims 50000 450000 256 Facts₀.gather_S50000x256_S450000x1_S450000x256_1_0_n_n_0_1_1256_wf) (val_main_v35 (F := Ideal) h W)
          (val_main_v25 (F := Ideal) x1)) (val_main_v44 (F := Ideal) x1)) (ix2 r c)
        = (∑ k : Fin 256, h (ix2 (srcW x1 r) k) * W (ix2 k c)) * (dW x1 (srcW x1 r) * dW x1 (dstW x1 r)) := by
    intro r
    rw [mulf_apply, Cert.RowGather.gather_row_apply (n := 50000) (by decide), val_main_v44_apply, val_main_v43_apply]
    have hi : idx_main_v43 (idx_main_v44 (ix2 r c)) = ix1 r := by
      funext a; match a with | ⟨0, _⟩ => rfl
    rw [hi, nrm_apply]
    refine congrArg (fun t => t * (dW x1 (srcW x1 r) * dW x1 (dstW x1 r))) ?_
    show val_main_v35 (F := Ideal) h W (ix2 (srcW x1 r) c) = _
    rw [val_main_v35_apply]
    refine Finset.sum_congr rfl fun k _ => ?_
    have hl : lidx_main_v35 (ix2 (srcW x1 r) c) k = ix2 (srcW x1 r) k := by
      funext a; match a with | ⟨0, _⟩ => rfl | ⟨1, _⟩ => rfl
    have hr : ridx_main_v35 (ix2 (srcW x1 r) c) k = ix2 k c := by
      funext a; match a with | ⟨0, _⟩ => rfl | ⟨1, _⟩ => rfl
    rw [hl, hr]
  have hb : idx_main_v49 (idx_main_v50 (ix2 j c)) = ix1 c := by
    funext a; match a with | ⟨0, _⟩ => rfl
  rw [addf_apply, hs, Cert.LibRowScatter.scatterAdd_apply, val_main_v46_apply, val_main_cst_10_apply, Ideal.ofBits_def,
    Ideal.ofBits_zero_f32, zero_add, val_main_v50_apply, val_main_v49_apply, hb, hg]
  show _ = (∑ e : Fin 450000, if tgtW x1 e = (j.val : ℤ)
      then (∑ k : Fin 256, h (ix2 (srcW x1 e) k) * W (ix2 k c)) * (dW x1 (srcW x1 e) * dW x1 (dstW x1 e)) else 0)
    + b (ix1 c)
  refine congrArg (fun t => t + b (ix1 c)) ?_
  refine Finset.sum_congr rfl fun r _ => ?_
  rw [key r]
  rfl

/-- The features times a 256 × 128 matrix, as the reference prints the last layer's product. -/
def dot128 (h : (⟨S50000x256, .f32⟩ : BufTy).Contents (Elt Ideal)) (W : (⟨S256x128, .f32⟩ : BufTy).Contents (Elt Ideal)) : (⟨S50000x128, .f32⟩ : BufTy).Contents (Elt Ideal) :=
  Host.dotGeneral (F := Ideal) (φ₁ := .f32) (φ₂ := .f32) dot_S50000x256_S256x128_S50000x128_1_0_0_1_n_n none h W

/-- That product at row `s`, column `c`: the sum over the 256 features. -/
theorem dot128_apply (h : (⟨S50000x256, .f32⟩ : BufTy).Contents (Elt Ideal)) (W : (⟨S256x128, .f32⟩ : BufTy).Contents (Elt Ideal)) (s : Fin 50000) (c : Fin 128) :
    dot128 h W (ix2 s c) = ∑ k : Fin 256, h (ix2 s k) * W (ix2 k c) := by
  have hd : dot_S50000x256_S256x128_S50000x128_1_0_0_1_n_n = DotDims.plain 50000 256 128 := rfl
  show FloatOps.dotGeneral (F := Ideal) (φ₁ := .f32) (φ₂ := .f32) dot_S50000x256_S256x128_S50000x128_1_0_0_1_n_n none .single h W (ix2 s c) = _
  rw [hd]
  exact Cert.LibPlainDot.dotGeneral_apply 50000 256 128 none .single h W (ix2 s c)

/-- One transform-first layer with 128 output features, as the reference prints it — product with the matrix, rows
    gathered at the edges' sources, scaled edge by edge, added into the edges' targets from zero, bias added — is
    `rLayer` at every node and feature. -/
theorem layer128 (x1 : (⟨S2x400000, .i32⟩ : BufTy).Contents (Elt Ideal)) (h : (⟨S50000x256, .f32⟩ : BufTy).Contents (Elt Ideal)) (W : (⟨S256x128, .f32⟩ : BufTy).Contents (Elt Ideal)) (b : (⟨S128, .f32⟩ : BufTy).Contents (Elt Ideal))
    (j : Fin 50000) (c : Fin 128) :
    addf (F := Ideal) (φ := .f32) (Host.scatterAdd (F := Ideal) (φ := .f32) scatter_S50000x128_S450000x1_S450000x128_1_0_0_1 (val_main_v82 (F := Ideal)) (val_main_v47 (F := Ideal) x1)
        (mulf (F := Ideal) (φ := .f32) (Host.gather gather_S50000x128_S450000x1_S450000x128_1_0_n_n_0_1_1128 (dot128 h W) (val_main_v25 (F := Ideal) x1)) (val_main_v80 (F := Ideal) x1)))
      (val_main_v86 (F := Ideal) b) (ix2 j c)
    = rLayer (dW x1) (srcW x1) (dstW x1) (tgtW x1) (fun j k => h (ix2 j k)) (fun k c => W (ix2 k c))
        (fun c => b (ix1 c)) j c := by
  have hs : scatter_S50000x128_S450000x1_S450000x128_1_0_0_1 = Cert.LibRowScatter.rowDims 50000 450000 128 Facts₀.scatter_S50000x128_S450000x1_S450000x128_1_0_0_1_wf := rfl
  have hg : gather_S50000x128_S450000x1_S450000x128_1_0_n_n_0_1_1128 = Cert.RowGather.rowDims 50000 450000 128 Facts₀.gather_S50000x128_S450000x1_S450000x128_1_0_n_n_0_1_1128_wf := rfl
  have key : ∀ r : Fin 450000,
      (mulf (F := Ideal) (φ := .f32) (Host.gather (Cert.RowGather.rowDims 50000 450000 128 Facts₀.gather_S50000x128_S450000x1_S450000x128_1_0_n_n_0_1_1128_wf) (dot128 h W)
          (val_main_v25 (F := Ideal) x1)) (val_main_v80 (F := Ideal) x1)) (ix2 r c)
        = (∑ k : Fin 256, h (ix2 (srcW x1 r) k) * W (ix2 k c)) * (dW x1 (srcW x1 r) * dW x1 (dstW x1 r)) := by
    intro r
    rw [mulf_apply, Cert.RowGather.gather_row_apply (n := 50000) (by decide), val_main_v80_apply, val_main_v79_apply]
    have hi : idx_main_v79 (idx_main_v80 (ix2 r c)) = ix1 r := by
      funext a; match a with | ⟨0, _⟩ => rfl
    rw [hi, nrm_apply]
    refine congrArg (fun t => t * (dW x1 (srcW x1 r) * dW x1 (dstW x1 r))) ?_
    show dot128 h W (ix2 (srcW x1 r) c) = _
    rw [dot128_apply]
  have hb : idx_main_v85 (idx_main_v86 (ix2 j c)) = ix1 c := by
    funext a; match a with | ⟨0, _⟩ => rfl
  rw [addf_apply, hs, Cert.LibRowScatter.scatterAdd_apply, val_main_v82_apply, val_main_cst_16_apply, Ideal.ofBits_def,
    Ideal.ofBits_zero_f32, zero_add, val_main_v86_apply, val_main_v85_apply, hb, hg]
  show _ = (∑ e : Fin 450000, if tgtW x1 e = (j.val : ℤ)
      then (∑ k : Fin 256, h (ix2 (srcW x1 e) k) * W (ix2 k c)) * (dW x1 (srcW x1 e) * dW x1 (dstW x1 e)) else 0)
    + b (ix1 c)
  refine congrArg (fun t => t + b (ix1 c)) ?_
  refine Finset.sum_congr rfl fun r _ => ?_
  rw [key r]
  rfl

end Cert.ReferenceIdeal.RefValue

end
-- ==== Proof.RefValue.lean ====
/-
  The reference program's two results read as `rNet`.

  Each result is three transform-first layers over the same graph, with `max · 0` after the first two: the first
  result with the first triple of matrices and biases, the second with the second triple. Layer by layer the printed
  chain is `rLayer` (RefLayer.lean); the printed `maximum` with the zero matrix is `relu`; and the second result is
  the first one's term at the other arguments.
-/
import proofs.«152770_j22333829939968_2_alg».proof.Proof.RefLayer

noncomputable section

open scoped BigOperators

namespace Cert.ReferenceIdeal.RefValue

open Cert.GcnSpec Cert.ReferenceIdeal Cert.ReferenceIdeal.Read Idealize.ShloMosaic Idealize.ShloMosaic.ValueIdx

/-- The printed maximum with the zero matrix is `relu`, entry by entry. -/
theorem relu_apply (v : (⟨S50000x256, .f32⟩ : BufTy).Contents (Elt Ideal)) (j : Fin 50000) (k : Fin 256) :
    maximumf (F := Ideal) (φ := .f32) v (val_main_call1_v0 (F := Ideal)) (ix2 j k) = relu (v (ix2 j k)) := by
  rw [maximumf_apply, val_main_call1_v0_apply, val_main_call1_cst_apply, Ideal.ofBits_def, Ideal.ofBits_zero_f32]
  rfl

/-- The first hidden layer's output. -/
theorem hidden1 (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal))
    (j : Fin 50000) (k : Fin 256) :
    val_main_v52 (F := Ideal) x0 x1 x2 x3 (ix2 j k) = relu (rLayer (dW x1) (srcW x1) (dstW x1) (tgtW x1) (fun j k => x0 (ix2 j k)) (fun k c => x2 (ix2 k c)) (fun c => x3 (ix1 c)) j k) := by
  unfold val_main_v52
  rw [relu_apply]
  exact congrArg relu (layer256 x1 x0 x2 x3 j k)

/-- The second hidden layer's output. -/
theorem hidden2 (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (j : Fin 50000) (k : Fin 256) :
    val_main_v70 (F := Ideal) x0 x1 x2 x3 x4 x5 (ix2 j k)
      = relu (rLayer (dW x1) (srcW x1) (dstW x1) (tgtW x1) (fun j k => relu (rLayer (dW x1) (srcW x1) (dstW x1) (tgtW x1) (fun j k => x0 (ix2 j k)) (fun k c => x2 (ix2 k c)) (fun c => x3 (ix1 c)) j k))
          (fun k c => x4 (ix2 k c)) (fun c => x5 (ix1 c)) j k) := by
  have hz : val_main_call2_v0 (F := Ideal) = val_main_call1_v0 (F := Ideal) := rfl
  have f1 : (fun (j : Fin 50000) (k : Fin 256) => val_main_v52 (F := Ideal) x0 x1 x2 x3 (ix2 j k))
      = fun j k => relu (rLayer (dW x1) (srcW x1) (dstW x1) (tgtW x1) (fun j k => x0 (ix2 j k)) (fun k c => x2 (ix2 k c)) (fun c => x3 (ix1 c)) j k) := by
    funext j k; exact hidden1 x0 x1 x2 x3 j k
  unfold val_main_v70
  rw [hz, relu_apply, ← f1]
  exact congrArg relu (layer256 x1 (val_main_v52 (F := Ideal) x0 x1 x2 x3) x4 x5 j k)

/-- THE FIRST RESULT is the three-layer transform-first network at the first triple of parameters. -/
theorem ref_mu (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (j : Fin 50000) (c : Fin 128) :
    val_main_v87 (F := Ideal) x0 x1 x2 x3 x4 x5 x6 x7 (ix2 j c)
      = rNet (dW x1) (srcW x1) (dstW x1) (tgtW x1) (fun j k => x0 (ix2 j k)) (fun k c => x2 (ix2 k c)) (fun c => x3 (ix1 c))
          (fun k c => x4 (ix2 k c)) (fun c => x5 (ix1 c)) (fun k c => x6 (ix2 k c)) (fun c => x7 (ix1 c)) j c := by
  have f2 : (fun (j : Fin 50000) (k : Fin 256) => val_main_v70 (F := Ideal) x0 x1 x2 x3 x4 x5 (ix2 j k))
      = fun j k => relu (rLayer (dW x1) (srcW x1) (dstW x1) (tgtW x1) (fun j k => relu (rLayer (dW x1) (srcW x1) (dstW x1) (tgtW x1) (fun j k => x0 (ix2 j k)) (fun k c => x2 (ix2 k c)) (fun c => x3 (ix1 c)) j k))
          (fun k c => x4 (ix2 k c)) (fun c => x5 (ix1 c)) j k) := by
    funext j k; exact hidden2 x0 x1 x2 x3 x4 x5 j k
  unfold rNet
  rw [← f2]
  exact layer128 x1 (val_main_v70 (F := Ideal) x0 x1 x2 x3 x4 x5) x6 x7 j c

/-- THE SECOND RESULT is the same network at the second triple of parameters: its printed term is the first
    result's with the other arguments. -/
theorem ref_var (x0 : (⟨S50000x256, .f32⟩ : BufTy).Contents (Elt Ideal)) (x1 : (⟨S2x400000, .i32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal))
    (j : Fin 50000) (c : Fin 128) :
    val_main_v140 (F := Ideal) x0 x1 x8 x9 x10 x11 x12 x13 (ix2 j c)
      = rNet (dW x1) (srcW x1) (dstW x1) (tgtW x1) (fun j k => x0 (ix2 j k)) (fun k c => x8 (ix2 k c)) (fun c => x9 (ix1 c))
          (fun k c => x10 (ix2 k c)) (fun c => x11 (ix1 c)) (fun k c => x12 (ix2 k c)) (fun c => x13 (ix1 c)) j c := by
  have h1 : val_main_v105 (F := Ideal) x0 x1 x8 x9 = val_main_v52 (F := Ideal) x0 x1 x8 x9 := rfl
  have h2 : val_main_v123 (F := Ideal) x0 x1 x8 x9 x10 x11 = val_main_v70 (F := Ideal) x0 x1 x8 x9 x10 x11 := by
    unfold val_main_v123 val_main_v122 val_main_v119 val_main_v116 val_main_v113 val_main_v106
    rw [h1]
    rfl
  have h3 : val_main_v140 (F := Ideal) x0 x1 x8 x9 x10 x11 x12 x13
      = val_main_v87 (F := Ideal) x0 x1 x8 x9 x10 x11 x12 x13 := by
    unfold val_main_v140 val_main_v137 val_main_v134 val_main_v131 val_main_v124
    rw [h2]
    rfl
  rw [h3]
  exact ref_mu x0 x1 x8 x9 x10 x11 x12 x13 j c

end Cert.ReferenceIdeal.RefValue

end
-- ==== Proof.LayerAlgebra.lean ====
/-
  The two forms of a graph-convolution layer agree on real data.

  Every number is assumed real, so each table is the image of a real table under the inclusion of the reals in the
  extended reals. The inclusion commutes with products, finite sums, the maximum with zero and a choice between a value
  and zero, so both layers are the images of real expressions, and the claim becomes an identity of finite real sums:

    Σ_k ((Σ_e [tgt e = j] h(src e, k) · d(src e)) · d j) · W k c
      = Σ_e [tgt e = j] (Σ_k h(src e, k) · W k c) · (d(src e) · d(dst e)).

  On an edge with target `j` the node `dst e` is `j`, so the right side's weight is `d(src e) · d j`; distributing
  the products over the sums and exchanging the two summations gives the left side.
-/
import proofs.«152770_j22333829939968_2_alg».proof.Proof.Spec

noncomputable section

open scoped BigOperators

namespace Cert.GcnSpec

/-- The inclusion of the reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with a choice between a value and zero. -/
theorem coe_ite_zero (p : Prop) [Decidable p] (a : ℝ) :
    ((if p then a else 0 : ℝ) : EReal) = if p then (a : EReal) else 0 := by
  split_ifs <;> simp

/-- `max x 0` of a real number is real. -/
theorem relu_isReal {x : EReal} (hx : IsReal x) : IsReal (relu x) := by
  obtain ⟨r, rfl⟩ := hx
  refine ⟨max r 0, ?_⟩
  unfold relu
  rcases le_total r 0 with h | h
  · rw [max_eq_right h, max_eq_right (by exact_mod_cast h)]; rfl
  · rw [max_eq_left h, max_eq_left (by exact_mod_cast h)]

/-- The aggregate-first layer of real tables is the image of the same expression over the reals. -/
theorem kLayer_coe {N E K C : ℕ} (d : Fin N → ℝ) (src : Fin E → Fin N) (tgt : Fin E → ℤ) (h : Fin N → Fin K → ℝ)
    (W : Fin K → Fin C → ℝ) (b : Fin C → ℝ) (j : Fin N) (c : Fin C) :
    kLayer (fun j => (d j : EReal)) src tgt (fun j k => (h j k : EReal)) (fun k c => (W k c : EReal))
        (fun c => (b c : EReal)) j c
      = ((((∑ k : Fin K, ((∑ e : Fin E, if tgt e = (j.val : ℤ) then h (src e) k * d (src e) else 0) * d j) * W k c)
          + b c : ℝ)) : EReal) := by
  unfold kLayer aggregate
  simp only [EReal.coe_add, EReal.coe_mul, coe_sum_real, coe_ite_zero]

/-- The transform-first layer of real tables is the image of the same expression over the reals. -/
theorem rLayer_coe {N E K C : ℕ} (d : Fin N → ℝ) (src dst : Fin E → Fin N) (tgt : Fin E → ℤ) (h : Fin N → Fin K → ℝ)
    (W : Fin K → Fin C → ℝ) (b : Fin C → ℝ) (j : Fin N) (c : Fin C) :
    rLayer (fun j => (d j : EReal)) src dst tgt (fun j k => (h j k : EReal)) (fun k c => (W k c : EReal))
        (fun c => (b c : EReal)) j c
      = ((((∑ e : Fin E, if tgt e = (j.val : ℤ) then (∑ k : Fin K, h (src e) k * W k c) * (d (src e) * d (dst e)) else 0)
          + b c : ℝ)) : EReal) := by
  unfold rLayer
  simp only [EReal.coe_add, EReal.coe_mul, coe_sum_real, coe_ite_zero]

/-- The identity of real sums behind the agreement of the two layers. -/
theorem real_layer_eq {N E K C : ℕ} (d : Fin N → ℝ) (src dst : Fin E → Fin N) (tgt : Fin E → ℤ)
    (h : Fin N → Fin K → ℝ) (W : Fin K → Fin C → ℝ)
    (hdst : ∀ e (j : Fin N), tgt e = (j.val : ℤ) → dst e = j) (j : Fin N) (c : Fin C) :
    (∑ k : Fin K, ((∑ e : Fin E, if tgt e = (j.val : ℤ) then h (src e) k * d (src e) else 0) * d j) * W k c)
      = ∑ e : Fin E, if tgt e = (j.val : ℤ) then (∑ k : Fin K, h (src e) k * W k c) * (d (src e) * d (dst e)) else 0 := by
  have hR : ∀ e : Fin E,
      (if tgt e = (j.val : ℤ) then (∑ k : Fin K, h (src e) k * W k c) * (d (src e) * d (dst e)) else 0)
        = ∑ k : Fin K, (if tgt e = (j.val : ℤ) then h (src e) k * d (src e) else 0) * d j * W k c := by
    intro e
    split_ifs with he
    · rw [hdst e j he, Finset.sum_mul]
      exact Finset.sum_congr rfl (fun k _ => by ring)
    · simp
  rw [Finset.sum_congr rfl (fun e _ => hR e), Finset.sum_comm]
  refine Finset.sum_congr rfl (fun k _ => ?_)
  rw [Finset.sum_mul, Finset.sum_mul]

/-- An aggregate-first layer of real tables is real. -/
theorem kLayer_isReal {N E K C : ℕ} (d : Fin N → EReal) (src : Fin E → Fin N) (tgt : Fin E → ℤ)
    (h : Fin N → Fin K → EReal) (W : Fin K → Fin C → EReal) (b : Fin C → EReal)
    (hd : ∀ j, IsReal (d j)) (hh : ∀ j k, IsReal (h j k)) (hW : ∀ k c, IsReal (W k c)) (hb : ∀ c, IsReal (b c))
    (j : Fin N) (c : Fin C) : IsReal (kLayer d src tgt h W b j c) := by
  have hd : ∀ j, ∃ r : ℝ, d j = (r : EReal) := hd
  have hh : ∀ j k, ∃ r : ℝ, h j k = (r : EReal) := hh
  have hW : ∀ k c, ∃ r : ℝ, W k c = (r : EReal) := hW
  have hb : ∀ c, ∃ r : ℝ, b c = (r : EReal) := hb
  choose d' hd' using hd
  choose h' hh' using hh
  choose W' hW' using hW
  choose b' hb' using hb
  obtain rfl : d = fun j => (d' j : EReal) := funext hd'
  obtain rfl : h = fun j k => (h' j k : EReal) := funext (fun j => funext (hh' j))
  obtain rfl : W = fun k c => (W' k c : EReal) := funext (fun k => funext (hW' k))
  obtain rfl : b = fun c => (b' c : EReal) := funext hb'
  exact ⟨_, kLayer_coe d' src tgt h' W' b' j c⟩

/-- The two forms of a layer agree when all numbers are real and `dst e` is the target node of every edge that has
    one. -/
theorem layer_eq {N E K C : ℕ} (d : Fin N → EReal) (src dst : Fin E → Fin N) (tgt : Fin E → ℤ)
    (h : Fin N → Fin K → EReal) (W : Fin K → Fin C → EReal) (b : Fin C → EReal)
    (hd : ∀ j, IsReal (d j)) (hh : ∀ j k, IsReal (h j k)) (hW : ∀ k c, IsReal (W k c)) (hb : ∀ c, IsReal (b c))
    (hdst : ∀ e (j : Fin N), tgt e = (j.val : ℤ) → dst e = j) :
    kLayer d src tgt h W b = rLayer d src dst tgt h W b := by
  have hd : ∀ j, ∃ r : ℝ, d j = (r : EReal) := hd
  have hh : ∀ j k, ∃ r : ℝ, h j k = (r : EReal) := hh
  have hW : ∀ k c, ∃ r : ℝ, W k c = (r : EReal) := hW
  have hb : ∀ c, ∃ r : ℝ, b c = (r : EReal) := hb
  choose d' hd' using hd
  choose h' hh' using hh
  choose W' hW' using hW
  choose b' hb' using hb
  obtain rfl : d = fun j => (d' j : EReal) := funext hd'
  obtain rfl : h = fun j k => (h' j k : EReal) := funext (fun j => funext (hh' j))
  obtain rfl : W = fun k c => (W' k c : EReal) := funext (fun k => funext (hW' k))
  obtain rfl : b = fun c => (b' c : EReal) := funext hb'
  funext j c
  rw [kLayer_coe, rLayer_coe, real_layer_eq d' src dst tgt h' W' hdst j c]

/-- The two three-layer networks agree under the same hypotheses. -/
theorem net_eq {N E K0 K1 K2 K3 : ℕ} (d : Fin N → EReal) (src dst : Fin E → Fin N) (tgt : Fin E → ℤ)
    (x : Fin N → Fin K0 → EReal) (W0 : Fin K0 → Fin K1 → EReal) (b0 : Fin K1 → EReal)
    (W1 : Fin K1 → Fin K2 → EReal) (b1 : Fin K2 → EReal) (W2 : Fin K2 → Fin K3 → EReal) (b2 : Fin K3 → EReal)
    (hd : ∀ j, IsReal (d j)) (hx : ∀ j k, IsReal (x j k))
    (hW0 : ∀ k c, IsReal (W0 k c)) (hb0 : ∀ c, IsReal (b0 c))
    (hW1 : ∀ k c, IsReal (W1 k c)) (hb1 : ∀ c, IsReal (b1 c))
    (hW2 : ∀ k c, IsReal (W2 k c)) (hb2 : ∀ c, IsReal (b2 c))
    (hdst : ∀ e (j : Fin N), tgt e = (j.val : ℤ) → dst e = j) :
    kNet d src tgt x W0 b0 W1 b1 W2 b2 = rNet d src dst tgt x W0 b0 W1 b1 W2 b2 := by
  unfold kNet rNet
  have e0 := layer_eq d src dst tgt x W0 b0 hd hx hW0 hb0 hdst
  have r0 : ∀ j k, IsReal (relu (kLayer d src tgt x W0 b0 j k)) :=
    fun j k => relu_isReal (kLayer_isReal d src tgt x W0 b0 hd hx hW0 hb0 j k)
  have e1 := layer_eq d src dst tgt (fun j k => relu (kLayer d src tgt x W0 b0 j k)) W1 b1 hd r0 hW1 hb1 hdst
  have r1 : ∀ j k, IsReal (relu (kLayer d src tgt (fun j k => relu (kLayer d src tgt x W0 b0 j k)) W1 b1 j k)) :=
    fun j k => relu_isReal (kLayer_isReal d src tgt _ W1 b1 hd r0 hW1 hb1 j k)
  have e2 := layer_eq d src dst tgt
    (fun j k => relu (kLayer d src tgt (fun j k => relu (kLayer d src tgt x W0 b0 j k)) W1 b1 j k)) W2 b2
    hd r1 hW2 hb2 hdst
  rw [e2, e1, e0]

end Cert.GcnSpec

end
-- ==== Proof.BridgeCore.lean ====
/-
  The reference's two results are the aggregate-first network of the kernel side's index material.

  Each result of the reference is the transform-first network `rNet` over the reference's node weights, source nodes,
  second rows and targets. These are the kernel side's node weights, source nodes and targets; the node weights are
  real numbers, the second row of an edge whose target is a node is that node, and the features, matrices and biases are
  real by hypothesis. So the two forms of the network agree, and each result is `kNet` of the same arguments.
-/
import proofs.«152770_j22333829939968_2_alg».proof.Proof.BridgeIdx
import proofs.«152770_j22333829939968_2_alg».proof.Proof.RefValue
import proofs.«152770_j22333829939968_2_alg».proof.Proof.LayerAlgebra

noncomputable section

namespace Cert.Bridge

open Idealize.ShloMosaic Idealize.ShloMosaic.ValueIdx Cert.GcnSpec
open Cert.KernelIdeal.KVal Cert.ReferenceIdeal.RefValue

/-- The first result. -/
theorem core_mu (x0 : (⟨Cert.ReferenceIdeal.S50000x256, .f32⟩ : BufTy).Contents (Elt Ideal)) (x1 : (⟨Cert.ReferenceIdeal.S2x400000, .i32⟩ : BufTy).Contents (Elt Ideal))
    (x2 : (⟨Cert.ReferenceIdeal.S256x256, .f32⟩ : BufTy).Contents (Elt Ideal)) (x3 : (⟨Cert.ReferenceIdeal.S256, .f32⟩ : BufTy).Contents (Elt Ideal))
    (x4 : (⟨Cert.ReferenceIdeal.S256x256, .f32⟩ : BufTy).Contents (Elt Ideal)) (x5 : (⟨Cert.ReferenceIdeal.S256, .f32⟩ : BufTy).Contents (Elt Ideal))
    (x6 : (⟨Cert.ReferenceIdeal.S256x128, .f32⟩ : BufTy).Contents (Elt Ideal)) (x7 : (⟨Cert.ReferenceIdeal.S128, .f32⟩ : BufTy).Contents (Elt Ideal))
    (h0 : ∀ i, IsReal (x0 i)) (hw0 : ∀ i, IsReal (x2 i)) (hb0 : ∀ i, IsReal (x3 i))
    (hw1 : ∀ i, IsReal (x4 i)) (hb1 : ∀ i, IsReal (x5 i))
    (hw2 : ∀ i, IsReal (x6 i)) (hb2 : ∀ i, IsReal (x7 i)) (j : Fin 50000) (q : Fin 128) :
    Cert.ReferenceIdeal.Read.val_main_v87 (F := Ideal) x0 x1 x2 x3 x4 x5 x6 x7 (ix2 j q)
      = kNet (dK (dinvT x1)) (srcK (rowT x1)) (tgtK (colT x1)) (fun j k => x0 (ix2 j k))
          (fun k q => x2 (ix2 k q)) (fun q => x3 (ix1 q)) (fun k q => x4 (ix2 k q)) (fun q => x5 (ix1 q))
          (fun k q => x6 (ix2 k q)) (fun q => x7 (ix1 q)) j q := by
  rw [ref_mu, dK_eq, srcK_eq, tgtK_eq]
  exact (congrFun (congrFun (net_eq (dW x1) (srcW x1) (dstW x1) (tgtW x1) _ _ _ _ _ _ _ (dW_isReal x1)
    (fun j k => h0 _) (fun k c => hw0 _) (fun c => hb0 _) (fun k c => hw1 _) (fun c => hb1 _)
    (fun k c => hw2 _) (fun c => hb2 _) (dst_of_tgt x1)) j) q).symm

/-- The second result. -/
theorem core_var (x0 : (⟨Cert.ReferenceIdeal.S50000x256, .f32⟩ : BufTy).Contents (Elt Ideal)) (x1 : (⟨Cert.ReferenceIdeal.S2x400000, .i32⟩ : BufTy).Contents (Elt Ideal))
    (x8 : (⟨Cert.ReferenceIdeal.S256x256, .f32⟩ : BufTy).Contents (Elt Ideal)) (x9 : (⟨Cert.ReferenceIdeal.S256, .f32⟩ : BufTy).Contents (Elt Ideal))
    (x10 : (⟨Cert.ReferenceIdeal.S256x256, .f32⟩ : BufTy).Contents (Elt Ideal)) (x11 : (⟨Cert.ReferenceIdeal.S256, .f32⟩ : BufTy).Contents (Elt Ideal))
    (x12 : (⟨Cert.ReferenceIdeal.S256x128, .f32⟩ : BufTy).Contents (Elt Ideal)) (x13 : (⟨Cert.ReferenceIdeal.S128, .f32⟩ : BufTy).Contents (Elt Ideal))
    (h0 : ∀ i, IsReal (x0 i)) (hw0 : ∀ i, IsReal (x8 i)) (hb0 : ∀ i, IsReal (x9 i))
    (hw1 : ∀ i, IsReal (x10 i)) (hb1 : ∀ i, IsReal (x11 i))
    (hw2 : ∀ i, IsReal (x12 i)) (hb2 : ∀ i, IsReal (x13 i)) (j : Fin 50000) (q : Fin 128) :
    Cert.ReferenceIdeal.Read.val_main_v140 (F := Ideal) x0 x1 x8 x9 x10 x11 x12 x13 (ix2 j q)
      = kNet (dK (dinvT x1)) (srcK (rowT x1)) (tgtK (colT x1)) (fun j k => x0 (ix2 j k))
          (fun k q => x8 (ix2 k q)) (fun q => x9 (ix1 q)) (fun k q => x10 (ix2 k q)) (fun q => x11 (ix1 q))
          (fun k q => x12 (ix2 k q)) (fun q => x13 (ix1 q)) j q := by
  rw [ref_var, dK_eq, srcK_eq, tgtK_eq]
  exact (congrFun (congrFun (net_eq (dW x1) (srcW x1) (dstW x1) (tgtW x1) _ _ _ _ _ _ _ (dW_isReal x1)
    (fun j k => h0 _) (fun k c => hw0 _) (fun c => hb0 _) (fun k c => hw1 _) (fun c => hb1 _)
    (fun k c => hw2 _) (fun c => hb2 _) (dst_of_tgt x1)) j) q).symm

end Cert.Bridge

end
-- ==== Proof.Bridge.lean ====
/-
  The kernel and the reference end with equal results.

  The kernel's two result arrays are, entry by entry, the aggregate-first network `kNet` of the launch's arrays (the
  node weights, source nodes and targets read off the edge list; the features; a triple of matrices and biases per
  result). The reference's two results are the transform-first network `rNet` of the same material, which under the
  precondition — every floating-point entry is a real number — is the same function. Both programs leave their
  arguments unchanged.
-/
import proofs.«152770_j22333829939968_2_alg».proof.Defs
import proofs.«152770_j22333829939968_2_alg».proof.Proof.Gen.KernelIdeal
import proofs.«152770_j22333829939968_2_alg».proof.Proof.Gen.ReferenceIdeal
import proofs.«152770_j22333829939968_2_alg».proof.Proof.Gen.Pre_finite_inputs
import proofs.«152770_j22333829939968_2_alg».proof.Proof.KRun
import proofs.«152770_j22333829939968_2_alg».proof.Proof.KNet
import proofs.«152770_j22333829939968_2_alg».proof.Proof.RefRead
import proofs.«152770_j22333829939968_2_alg».proof.Proof.Finite
import proofs.«152770_j22333829939968_2_alg».proof.Proof.BridgeCore

noncomputable section

namespace Cert.Bridge

open Idealize.ShloMosaic Idealize.ShloMosaic.TcCoe Idealize.SL.Sem Idealize.ShloMosaic.ValueIdx
open Cert.GcnSpec Cert.KernelIdeal.Gen Cert.KernelIdeal.KVal

/-- Under the precondition, from memories that agree on the arguments, both programs run, end with equal results
    and leave the arguments unchanged. -/
theorem algebraic : Cert.algebraic_KernelIdeal_ReferenceIdeal := by
  intro m ρ m' ρ' hpre hagree
  refine ⟨fun c => W12 (F := Ideal) m ρ c (Proc.devRef .tc Cert.KernelIdeal.main_v99),
    fun c => W12 (F := Ideal) m ρ c (Proc.devRef .tc Cert.KernelIdeal.main_v118), run_values (F := Ideal) m ρ, ?_⟩
  refine (θ_run Cert.ReferenceIdeal.defs _ _).mono (fun r h c => ?_) (Cert.ReferenceIdeal.Value.run (F := Ideal) m' ρ')
  obtain ⟨h87, h140, hargs⟩ := h c
  obtain ⟨a0, a1, a2, a3, a4, a5, a6, a7, a8, a9, a10, a11, a12, a13⟩ := hagree c
  obtain ⟨f0, f2, f3, f4, f5, f6, f7, f8, f9, f10, f11, f12, f13⟩ :=
    Cert.Finite.of_fn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  refine ⟨h87.trans ?_, h140.trans ?_, hargs⟩
  · rw [Cert.ReferenceIdeal.Read.val_main_v87_eq, a0, a1, a2, a3, a4, a5, a6, a7]
    funext i
    obtain ⟨j, q, rfl⟩ : ∃ (j : Fin 50000) (q : Fin 128), i = ix2 j q := ⟨i 0, i 1, eq_ix2 i⟩
    exact (core_mu _ _ _ _ _ _ _ _ f0 f2 f3 f4 f5 f6 f7 j q).trans (res_mu m ρ c j q).symm
  · rw [Cert.ReferenceIdeal.Read.val_main_v140_eq, a0, a1, a8, a9, a10, a11, a12, a13]
    funext i
    obtain ⟨j, q, rfl⟩ : ∃ (j : Fin 50000) (q : Fin 128), i = ix2 j q := ⟨i 0, i 1, eq_ix2 i⟩
    exact (core_var _ _ _ _ _ _ _ _ f0 f8 f9 f10 f11 f12 f13 j q).trans (res_var m ρ c j q).symm

end Cert.Bridge

end
-- ==== Proof.lean ====
/-
  Two three-layer graph convolutional branches on 50000 nodes: the kernel against its reference, on the extended reals.

  The kernel aggregates the node features over the edges first (scaled by the node weights before and after the
  sum) and multiplies by the layer's matrix inside a pipelined region; the reference multiplies by the matrix first and
  sums the edges' rows, each scaled by the product of its two end weights. With every input a real number both are
  the same finite sums of real products, re-associated (Proof/LayerAlgebra.lean). The kernel's run is read off the
  generated frame's fold through its five regions (Proof/KRun.lean, KStretch, KPre, KKeep, KRegion0 … 4, KNet), the
  reference's off its generated run (Proof/RefRun.lean, RefRead.lean, RefRead1, RefLayer, RefValue), and the inputs'
  finiteness off the precondition (Proof/Finite.lean).
-/
import proofs.«152770_j22333829939968_2_alg».proof.Defs
import proofs.«152770_j22333829939968_2_alg».proof.Proof.Gen.Kernel
import proofs.«152770_j22333829939968_2_alg».proof.Proof.Gen.Kernel.Skeleton
import proofs.«152770_j22333829939968_2_alg».proof.Proof.Gen.Kernel.Launch
import proofs.«152770_j22333829939968_2_alg».proof.Proof.Gen.Kernel.Points
import proofs.«152770_j22333829939968_2_alg».proof.Proof.Gen.Kernel.Frame
import proofs.«152770_j22333829939968_2_alg».proof.Proof.Gen.KernelIdeal
import proofs.«152770_j22333829939968_2_alg».proof.Proof.Gen.KernelIdeal.Skeleton
import proofs.«152770_j22333829939968_2_alg».proof.Proof.Gen.KernelIdeal.Launch
import proofs.«152770_j22333829939968_2_alg».proof.Proof.Gen.KernelIdeal.Points
import proofs.«152770_j22333829939968_2_alg».proof.Proof.Gen.KernelIdeal.Frame
import proofs.«152770_j22333829939968_2_alg».proof.Proof.Gen.ReferenceIdeal
import proofs.«152770_j22333829939968_2_alg».proof.Proof.Gen.Pre_finite_inputs
import proofs.«152770_j22333829939968_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  Cert.Bridge.algebraic⟩

end Cert.Proof

end
